-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3200000x3 : Shape := ⟨2, ![3200000, 3]⟩
abbrev S2x3200000 : Shape := ⟨2, ![2, 3200000]⟩
abbrev S3x16 : Shape := ⟨2, ![3, 16]⟩
abbrev S16 : Shape := ⟨1, ![16]⟩
abbrev S35x16 : Shape := ⟨2, ![35, 16]⟩
abbrev S16x16 : Shape := ⟨2, ![16, 16]⟩
abbrev S48x16 : Shape := ⟨2, ![48, 16]⟩
abbrev S16x3 : Shape := ⟨2, ![16, 3]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S35x16 : S_.BroadcastsInDim S35x16 (![] : Fin 0 → Fin S35x16.rank)
  reducesTo_S35x16_S_d0_1 : S35x16.ReducesTo [0, 1] S_
  bcast_S_S16x16 : S_.BroadcastsInDim S16x16 (![] : Fin 0 → Fin S16x16.rank)
  reducesTo_S16x16_S_d0_1 : S16x16.ReducesTo [0, 1] S_
  bcast_S_S48x16 : S_.BroadcastsInDim S48x16 (![] : Fin 0 → Fin S48x16.rank)
  reducesTo_S48x16_S_d0_1 : S48x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part5 {F : FTy → Type} [FloatOps F] (main_v83 : IVec S_ 1) (main_v84 : FVec F S3 .f32) (main_cst_32 : FVec F S_ .f32) : IVec S_ 1 :=
  let main_v85 : FVec F S3 .f32 := broadcastInDim S3 ![] bcast_S_S3 main_cst_32
  let main_v86 : IVec S3 1 := cmpf .olt main_v84 main_v85
  let main_c_33 : IVec S_ 1 := constantI S_ 1 1#1
  let main_v87 : IVec S_ 1 := (fun x v => Host.reduce IntOp.andi x v reducesTo_S3_S_d0 h_S_) main_v86 main_c_33
  let main_v88 : IVec S_ 1 := andi main_v83 main_v87
  main_v88

def fn_part4 {F : FTy → Type} [FloatOps F] (main_arg15 : FVec F S16x16 .f32) (main_arg16 : FVec F S16 .f32) (main_arg17 : FVec F S16x3 .f32) (main_arg18 : FVec F S3 .f32) (main_v63 : IVec S_ 1) (main_v67 : IVec S_ 1) : IVec S_ 1 :=
  let main_v68 : IVec S_ 1 := andi main_v63 main_v67
  let main_v69 : FVec F S16x16 .f32 := Host.absf main_arg15
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S16 .f32 := Host.absf main_arg16
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x3 .f32 := Host.absf main_arg17
  let main_cst_30 : FVec F S_ .f32 := constant S_ .f32 0x7F800000#32
  let main_v80 : FVec F S16x3 .f32 := broadcastInDim S16x3 ![] bcast_S_S16x3 main_cst_30
  let main_v81 : IVec S16x3 1 := cmpf .olt main_v79 main_v80
  let main_c_31 : IVec S_ 1 := constantI S_ 1 1#1
  let main_v82 : IVec S_ 1 := (fun x v => Host.reduce IntOp.andi x v reducesTo_S16x3_S_d0_1 h_S_) main_v81 main_c_31
  let main_v83 : IVec S_ 1 := andi main_v78 main_v82
  let main_v84 : FVec F S3 .f32 := Host.absf main_arg18
  let main_cst_32 : FVec F S_ .f32 := constant S_ .f32 0x7F800000#32
  fn_part5 (F := F) main_v83 main_v84 main_cst_32

def fn_part3 {F : FTy → Type} [FloatOps F] (main_arg12 : FVec F S16 .f32) (main_arg13 : FVec F S16x3 .f32) (main_arg14 : FVec F S3 .f32) (main_arg15 : FVec F S16x16 .f32) (main_arg16 : FVec F S16 .f32) (main_arg17 : FVec F S16x3 .f32) (main_arg18 : FVec F S3 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x3 .f32 := Host.absf main_arg13
  let main_cst_22 : FVec F S_ .f32 := constant S_ .f32 0x7F800000#32
  let main_v60 : FVec F S16x3 .f32 := broadcastInDim S16x3 ![] bcast_S_S16x3 main_cst_22
  let main_v61 : IVec S16x3 1 := cmpf .olt main_v59 main_v60
  let main_c_23 : IVec S_ 1 := constantI S_ 1 1#1
  let main_v62 : IVec S_ 1 := (fun x v => Host.reduce IntOp.andi x v reducesTo_S16x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg15 main_arg16 main_arg17 main_arg18 main_v63 main_v67

def fn_part2 {F : FTy → Type} [FloatOps F] (main_arg8 : FVec F S16 .f32) (main_arg9 : FVec F S48x16 .f32) (main_arg10 : FVec F S16 .f32) (main_arg11 : FVec F S16x16 .f32) (main_arg12 : FVec F S16 .f32) (main_arg13 : FVec F S16x3 .f32) (main_arg14 : FVec F S3 .f32) (main_arg15 : FVec F S16x16 .f32) (main_arg16 : FVec F S16 .f32) (main_arg17 : FVec F S16x3 .f32) (main_arg18 : FVec F S3 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S48x16 .f32 := Host.absf main_arg9
  let main_cst_14 : FVec F S_ .f32 := constant S_ .f32 0x7F800000#32
  let main_v40 : FVec F S48x16 .f32 := broadcastInDim S48x16 ![] bcast_S_S48x16 main_cst_14
  let main_v41 : IVec S48x16 1 := cmpf .olt main_v39 main_v40
  let main_c_15 : IVec S_ 1 := constantI S_ 1 1#1
  let main_v42 : IVec S_ 1 := (fun x v => Host.reduce IntOp.andi x v reducesTo_S48x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_arg15 main_arg16 main_arg17 main_arg18 main_v48 main_v49 main_v50

def fn_part1 {F : FTy → Type} [FloatOps F] (main_arg5 : FVec F S35x16 .f32) (main_arg6 : FVec F S16 .f32) (main_arg7 : FVec F S16x16 .f32) (main_arg8 : FVec F S16 .f32) (main_arg9 : FVec F S48x16 .f32) (main_arg10 : FVec F S16 .f32) (main_arg11 : FVec F S16x16 .f32) (main_arg12 : FVec F S16 .f32) (main_arg13 : FVec F S16x3 .f32) (main_arg14 : FVec F S3 .f32) (main_arg15 : FVec F S16x16 .f32) (main_arg16 : FVec F S16 .f32) (main_arg17 : FVec F S16x3 .f32) (main_arg18 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S35x16 .f32 := Host.absf main_arg5
  let main_cst_6 : FVec F S_ .f32 := constant S_ .f32 0x7F800000#32
  let main_v20 : FVec F S35x16 .f32 := broadcastInDim S35x16 ![] bcast_S_S35x16 main_cst_6
  let main_v21 : IVec S35x16 1 := cmpf .olt main_v19 main_v20
  let main_c_7 : IVec S_ 1 := constantI S_ 1 1#1
  let main_v22 : IVec S_ 1 := (fun x v => Host.reduce IntOp.andi x v reducesTo_S35x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x3 .f32) (main_arg1 : FVec F S3200000x3 .f32) (main_arg2 : IVec S2x3200000 32) (main_arg3 : FVec F S3x16 .f32) (main_arg4 : FVec F S16 .f32) (main_arg5 : FVec F S35x16 .f32) (main_arg6 : FVec F S16 .f32) (main_arg7 : FVec F S16x16 .f32) (main_arg8 : FVec F S16 .f32) (main_arg9 : FVec F S48x16 .f32) (main_arg10 : FVec F S16 .f32) (main_arg11 : FVec F S16x16 .f32) (main_arg12 : FVec F S16 .f32) (main_arg13 : FVec F S16x3 .f32) (main_arg14 : FVec F S3 .f32) (main_arg15 : FVec F S16x16 .f32) (main_arg16 : FVec F S16 .f32) (main_arg17 : FVec F S16x3 .f32) (main_arg18 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000x3 .f32 := Host.absf main_arg1
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S3x16 .f32 := Host.absf main_arg3
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x3 : Shape := ⟨2, ![100000, 3]⟩
abbrev S3200000x3 : Shape := ⟨2, ![3200000, 3]⟩
abbrev S2x3200000 : Shape := ⟨2, ![2, 3200000]⟩
abbrev S3x16 : Shape := ⟨2, ![3, 16]⟩
abbrev S16 : Shape := ⟨1, ![16]⟩
abbrev S35x16 : Shape := ⟨2, ![35, 16]⟩
abbrev S16x16 : Shape := ⟨2, ![16, 16]⟩
abbrev S48x16 : Shape := ⟨2, ![48, 16]⟩
abbrev S16x3 : Shape := ⟨2, ![16, 3]⟩
abbrev S3 : Shape := ⟨1, ![3]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x16 : Shape := ⟨2, ![1, 16]⟩
abbrev S100000x16 : Shape := ⟨2, ![100000, 16]⟩
abbrev S10000x3 : Shape := ⟨2, ![10000, 3]⟩
abbrev S10000x16 : Shape := ⟨2, ![10000, 16]⟩
abbrev S3200000x16 : Shape := ⟨2, ![3200000, 16]⟩
abbrev S6400x16 : Shape := ⟨2, ![6400, 16]⟩
abbrev S6400x3 : Shape := ⟨2, ![6400, 3]⟩
abbrev S1x3 : Shape := ⟨2, ![1, 3]⟩

abbrev nBuf : Space → Nat
  | .hbm => 126
  | .vmem => 48
  | .smem => 0
  | _ => 0

abbrev bufTy : (tb : Table) → Fin (tcTables nBuf tb) → BufTy
  | .hbm, ⟨0, _⟩ => ⟨S100000x3, .f32⟩
  | .hbm, ⟨1, _⟩ => ⟨S3200000x3, .f32⟩
  | .hbm, ⟨2, _⟩ => ⟨S2x3200000, .i32⟩
  | .hbm, ⟨3, _⟩ => ⟨S3x16, .f32⟩
  | .hbm, ⟨4, _⟩ => ⟨S16, .f32⟩
  | .hbm, ⟨5, _⟩ => ⟨S35x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S48x16, .f32⟩
  | .hbm, ⟨10, _⟩ => ⟨S16, .f32⟩
  | .hbm, ⟨11, _⟩ => ⟨S16x16, .f32⟩
  | .hbm, ⟨12, _⟩ => ⟨S16, .f32⟩
  | .hbm, ⟨13, _⟩ => ⟨S16x3, .f32⟩
  | .hbm, ⟨14, _⟩ => ⟨S3, .f32⟩
  | .hbm, ⟨15, _⟩ => ⟨S16x16, .f32⟩
  | .hbm, ⟨16, _⟩ => ⟨S16, .f32⟩
  | .hbm, ⟨17, _⟩ => ⟨S16x3, .f32⟩
  | .hbm, ⟨18, _⟩ => ⟨S3, .f32⟩
  | .hbm, ⟨19, _⟩ => ⟨S1x3200000, .i32⟩
  | .hbm, ⟨20, _⟩ => ⟨S3200000, .i32⟩
  | .hbm, ⟨21, _⟩ => ⟨S1x3200000, .i32⟩
  | .hbm, ⟨22, _⟩ => ⟨S3200000, .i32⟩
  | .hbm, ⟨23, _⟩ => ⟨S_, .f32⟩
  | .hbm, ⟨24, _⟩ => ⟨S3200000, .f32⟩
  | .hbm, ⟨25, _⟩ => ⟨S_, .f32⟩
  | .hbm, ⟨26, _⟩ => ⟨S100000, .f32⟩
  | .hbm, ⟨27, _⟩ => ⟨S3200000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000, .f32⟩
  | .hbm, ⟨50, _⟩ => ⟨S3200000, .f32⟩
  | .hbm, ⟨51, _⟩ => ⟨S16x16, .f32⟩
  | .hbm, ⟨52, _⟩ => ⟨S3x16, .f32⟩
  | .hbm, ⟨53, _⟩ => ⟨S16x16, .f32⟩
  | .hbm, ⟨54, _⟩ => ⟨S1x16, .f32⟩
  | .hbm, ⟨55, _⟩ => ⟨S100000x16, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x16, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x16, .f32⟩
  | .hbm, ⟨74, _⟩ => ⟨S1x16, .f32⟩
  | .hbm, ⟨75, _⟩ => ⟨S3200000x16, .f32⟩
  | .hbm, ⟨76, _⟩ => ⟨S3200000x1, .f32⟩
  | .hbm, ⟨77, _⟩ => ⟨S3200000x16, .f32⟩
  | .hbm, ⟨78, _⟩ => ⟨S3200000x16, .f32⟩
  | .hbm, ⟨79, _⟩ => ⟨S_, .f32⟩
  | .hbm, ⟨80, _⟩ => ⟨S100000x16, .f32⟩
  | .hbm, ⟨81, _⟩ => ⟨S3200000x1, .i32⟩
  | .hbm, ⟨82, _⟩ => ⟨S100000x16, .f32⟩
  | .hbm, ⟨83, _⟩ => ⟨S_, .f32⟩
  | .hbm, ⟨84, _⟩ => ⟨S100000x16, .f32⟩
  | .hbm, ⟨85, _⟩ => ⟨S100000x16, .f32⟩
  | .hbm, ⟨86, _⟩ => ⟨S16x16, .f32⟩
  | .hbm, ⟨87, _⟩ => ⟨S16x16, .f32⟩
  | .hbm, ⟨88, _⟩ => ⟨S16x16, .f32⟩
  | .hbm, ⟨89, _⟩ => ⟨S1x16, .f32⟩
  | .hbm, ⟨90, _⟩ => ⟨S100000x16, .f32⟩
  | .hbm, ⟨91, _⟩ => ⟨S_, .i32⟩
  | .hbm, ⟨92, _⟩ => ⟨S3200000, .i32⟩
  | .hbm, ⟨93, _⟩ => ⟨S3200000, .i1⟩
  | .hbm, ⟨94, _⟩ => ⟨S_, .i32⟩
  | .hbm, ⟨95, _⟩ => ⟨S3200000, .i32⟩
  | .hbm, ⟨96, _⟩ => ⟨S3200000, .i32⟩
  | .hbm, ⟨97, _⟩ => ⟨S3200000, .i32⟩
  | .hbm, ⟨98, _⟩ => ⟨S3200000x1, .i32⟩
  | .hbm, ⟨99, _⟩ => ⟨S3200000x16, .f32⟩
  | .hbm, ⟨100, _⟩ => ⟨S_, .i32⟩
  | .hbm, ⟨101, _⟩ => ⟨S3200000, .i32⟩
  | .hbm, ⟨102, _⟩ => ⟨S3200000, .i1⟩
  | .hbm, ⟨103, _⟩ => ⟨S_, .i32⟩
  | .hbm, ⟨104, _⟩ => ⟨S3200000, .i32⟩
  | .hbm, ⟨105, _⟩ => ⟨S3200000, .i32⟩
  | .hbm, ⟨106, _⟩ => ⟨S3200000, .i32⟩
  | .hbm, ⟨107, _⟩ => ⟨S3200000x1, .i32⟩
  | .hbm, ⟨108, _⟩ => ⟨S3200000x16, .f32⟩
  | .hbm, ⟨109, _⟩ => ⟨S1x16, .f32⟩
  | .hbm, ⟨110, _⟩ => ⟨S1x16, .f32⟩
  | .hbm, ⟨111, _⟩ => ⟨S1x3, .f32⟩
  | .hbm, ⟨112, _⟩ => ⟨S3200000x3, .f32⟩
  | .hbm, ⟨113, _⟩ => ⟨S3200000x1, .f32⟩
  | .hbm, ⟨114, _⟩ => ⟨S3200000x16, .f32⟩
  | .hbm, ⟨115, _⟩ => ⟨S3200000x16, .f32⟩
  | .hbm, ⟨116, _⟩ => ⟨S_, .f32⟩
  | .hbm, ⟨117, _⟩ => ⟨S100000x16, .f32⟩
  | .hbm, ⟨118, _⟩ => ⟨S3200000x1, .i32⟩
  | .hbm, ⟨119, _⟩ => ⟨S100000x16, .f32⟩
  | .hbm, ⟨120, _⟩ => ⟨S_, .f32⟩
  | .hbm, ⟨121, _⟩ => ⟨S100000x16, .f32⟩
  | .hbm, ⟨122, _⟩ => ⟨S100000x16, .f32⟩
  | .hbm, ⟨123, _⟩ => ⟨S1x16, .f32⟩
  | .hbm, ⟨124, _⟩ => ⟨S1x3, .f32⟩
  | .hbm, ⟨125, _⟩ => ⟨S100000x3, .f32⟩
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S6400x16, .f32⟩
  | .local _ .vmem, ⟨7, _⟩ => ⟨S6400x16, .f32⟩
  | .local _ .vmem, ⟨8, _⟩ => ⟨S6400x3, .f32⟩
  | .local _ .vmem, ⟨9, _⟩ => ⟨S6400x3, .f32⟩
  | .local _ .vmem, ⟨10, _⟩ => ⟨S6400x16, .f32⟩
  | .local _ .vmem, ⟨11, _⟩ => ⟨S6400x16, .f32⟩
  | .local _ .vmem, ⟨12, _⟩ => ⟨S16x16, .f32⟩
  | .local _ .vmem, ⟨13, _⟩ => ⟨S3x16, .f32⟩
  | .local _ .vmem, ⟨14, _⟩ => ⟨S16x16, .f32⟩
  | .local _ .vmem, ⟨15, _⟩ => ⟨S1x16, .f32⟩
  | .local _ .vmem, ⟨16, _⟩ => ⟨S6400x16, .f32⟩
  | .local _ .vmem, ⟨17, _⟩ => ⟨S6400x16, .f32⟩
  | .local _ .vmem, ⟨18, _⟩ => ⟨S10000x16, .f32⟩
  | .local _ .vmem, ⟨19, _⟩ => ⟨S10000x16, .f32⟩
  | .local _ .vmem, ⟨20, _⟩ => ⟨S16x16, .f32⟩
  | .local _ .vmem, ⟨21, _⟩ => ⟨S1x16, .f32⟩
  | .local _ .vmem, ⟨22, _⟩ => ⟨S10000x16, .f32⟩
  | .local _ .vmem, ⟨23, _⟩ => ⟨S10000x16, .f32⟩
  | .local _ .vmem, ⟨24, _⟩ => ⟨S6400x16, .f32⟩
  | .local _ .vmem, ⟨25, _⟩ => ⟨S6400x16, .f32⟩
  | .local _ .vmem, ⟨26, _⟩ => ⟨S6400x16, .f32⟩
  | .local _ .vmem, ⟨27, _⟩ => ⟨S6400x16, .f32⟩
  | .local _ .vmem, ⟨28, _⟩ => ⟨S6400x16, .f32⟩
  | .local _ .vmem, ⟨29, _⟩ => ⟨S6400x16, .f32⟩
  | .local _ .vmem, ⟨30, _⟩ => ⟨S16x16, .f32⟩
  | .local _ .vmem, ⟨31, _⟩ => ⟨S16x16, .f32⟩
  | .local _ .vmem, ⟨32, _⟩ => ⟨S16x16, .f32⟩
  | .local _ .vmem, ⟨33, _⟩ => ⟨S1x16, .f32⟩
  | .local _ .vmem, ⟨34, _⟩ => ⟨S16x16, .f32⟩
  | .local _ .vmem, ⟨35, _⟩ => ⟨S1x16, .f32⟩
  | .local _ .vmem, ⟨36, _⟩ => ⟨S16x3, .f32⟩
  | .local _ .vmem, ⟨37, _⟩ => ⟨S1x3, .f32⟩
  | .local _ .vmem, ⟨38, _⟩ => ⟨S6400x3, .f32⟩
  | .local _ .vmem, ⟨39, _⟩ => ⟨S6400x3, .f32⟩
  | .local _ .vmem, ⟨40, _⟩ => ⟨S10000x16, .f32⟩
  | .local _ .vmem, ⟨41, _⟩ => ⟨S10000x16, .f32⟩
  | .local _ .vmem, ⟨42, _⟩ => ⟨S16x16, .f32⟩
  | .local _ .vmem, ⟨43, _⟩ => ⟨S1x16, .f32⟩
  | .local _ .vmem, ⟨44, _⟩ => ⟨S16x3, .f32⟩
  | .local _ .vmem, ⟨45, _⟩ => ⟨S1x3, .f32⟩
  | .local _ .vmem, ⟨46, _⟩ => ⟨S10000x3, .f32⟩
  | .local _ .vmem, ⟨47, _⟩ => ⟨S10000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_c_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc3_stg11_0 : Ref sig .tc := ⟨.vmem, 38, rfl⟩
abbrev cc3_stg11_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem11_0 : DmaSem sig := 38
abbrev cc3_sem11_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6400x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S16x3 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x3 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S6400x3 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x3 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  slices_S35x16_S16x16_0_0 : S35x16.Slices ![0, 0] S16x16
  slices_S35x16_S3x16_16_0 : S35x16.Slices ![16, 0] S3x16
  slices_S35x16_S16x16_19_0 : S35x16.Slices ![19, 0] S16x16
  shapeCasts_S16_S1x16 : S16.ShapeCasts S1x16
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  inb_S6400x3_S6400x3_0_0 : ∀ a, (![0, 0] : Fin 2 → Nat) a + S6400x3.size a ≤ S6400x3.size a
  h_S6400x3 : 0 < S6400x3.numel
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S3x16_S3x16 : S3x16.ShapeCasts S3x16
  broadcasts_S1x16_S6400x16 : S1x16.Broadcasts S6400x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  slices_S48x16_S16x16_0_0 : S48x16.Slices ![0, 0] S16x16
  slices_S48x16_S16x16_16_0 : S48x16.Slices ![16, 0] S16x16
  slices_S48x16_S16x16_32_0 : S48x16.Slices ![32, 0] S16x16
  shapeCasts_S10000x16_S10000x16 : S10000x16.ShapeCasts S10000x16
  shapeCasts_S3_S1x3 : S3.ShapeCasts S1x3
  inb_S16x3_S16x3_0_0 : ∀ a, (![0, 0] : Fin 2 → Nat) a + S16x3.size a ≤ S16x3.size a
  h_S16x3 : 0 < S16x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S6400x3 : S1x3.Broadcasts S6400x3
  broadcasts_S1x3_S10000x3 : S1x3.Broadcasts S10000x3
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x3_S3x16_S10000x16_1_0_0_1_n_n_wf : DotDims.WF S10000x3 S3x16 S10000x16 [1] [0] [0] [1] [] []
  gather_S100000x16_S3200000x1_S3200000x16_1_0_n_n_0_1_116_wf : GatherDims.WF S100000x16 S3200000x1 S3200000x16 [1] [0] [] [0] [] 1 ![1, 16]
  dot_S6400x16_S16x16_S6400x16_1_0_0_1_n_n_wf : DotDims.WF S6400x16 S16x16 S6400x16 [1] [0] [0] [1] [] []
  dot_S6400x3_S3x16_S6400x16_1_0_0_1_n_n_wf : DotDims.WF S6400x3 S3x16 S6400x16 [1] [0] [0] [1] [] []
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S6400x16_S16x3_S6400x3_1_0_0_1_n_n_wf : DotDims.WF S6400x16 S16x3 S6400x3 [1] [0] [0] [1] [] []
  dot_S10000x16_S16x3_S10000x3_1_0_0_1_n_n_wf : DotDims.WF S10000x16 S16x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x16.size a ≤ S3200000x16.size a
  hwx1_0 : ∀ i : grid1.Coords, EltTy.bits .f32 = 32 ∨ (Rect.block (s := S3200000x16) S6400x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x3.size a ≤ S3200000x3.size a
  hwx1_1 : ∀ i : grid1.Coords, EltTy.bits .f32 = 32 ∨ (Rect.block (s := S3200000x3) S6400x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x16.size a ≤ S3200000x16.size a
  hwx1_2 : ∀ i : grid1.Coords, EltTy.bits .f32 = 32 ∨ (Rect.block (s := S3200000x16) S6400x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x16.size a ≤ S3x16.size a
  hwx1_4 : ∀ i : grid1.Coords, EltTy.bits .f32 = 32 ∨ (Rect.block (s := S3x16) S3x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x16.size a ≤ S3200000x16.size a
  hwx1_7 : ∀ i : grid1.Coords, EltTy.bits .f32 = 32 ∨ (Rect.block (s := S3200000x16) S6400x16.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x16.size a ≤ S3200000x16.size a
  hwx3_0 : ∀ i : grid3.Coords, EltTy.bits .f32 = 32 ∨ (Rect.block (s := S3200000x16) S6400x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x16.size a ≤ S3200000x16.size a
  hwx3_1 : ∀ i : grid3.Coords, EltTy.bits .f32 = 32 ∨ (Rect.block (s := S3200000x16) S6400x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x16.size a ≤ S3200000x16.size a
  hwx3_2 : ∀ i : grid3.Coords, EltTy.bits .f32 = 32 ∨ (Rect.block (s := S3200000x16) S6400x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x16.size a ≤ S16x16.size a
  hwx3_7 : ∀ i : grid3.Coords, EltTy.bits .f32 = 32 ∨ (Rect.block (s := S16x16) S16x16.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x16.size a ≤ S1x16.size a
  hwx3_8 : ∀ i : grid3.Coords, EltTy.bits .f32 = 32 ∨ (Rect.block (s := S1x16) S1x16.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S16x3.size a ≤ S16x3.size a
  hwx3_9 : ∀ i : grid3.Coords, EltTy.bits .f32 = 32 ∨ (Rect.block (s := S16x3) S16x3.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x3.size a ≤ S1x3.size a
  hwx3_10 : ∀ i : grid3.Coords, EltTy.bits .f32 = 32 ∨ (Rect.block (s := S1x3) S1x3.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S6400x3.size a ≤ S3200000x3.size a
  hwx3_11 : ∀ i : grid3.Coords, EltTy.bits .f32 = 32 ∨ (Rect.block (s := S3200000x3) S6400x3.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x3.size a ≤ S16x3.size a
  hwx4_3 : ∀ i : grid4.Coords, EltTy.bits .f32 = 32 ∨ (Rect.block (s := S16x3) S16x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x3.size a ≤ S1x3.size a
  hwx4_4 : ∀ i : grid4.Coords, EltTy.bits .f32 = 32 ∨ (Rect.block (s := S1x3) S1x3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x3.size a ≤ S100000x3.size a
  hwx4_5 : ∀ i : grid4.Coords, EltTy.bits .f32 = 32 ∨ (Rect.block (s := S100000x3) S10000x3.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S6400x16_S16x16_S6400x16_1_0_0_1_n_n : DotDims S6400x16 S16x16 S6400x16 where
  lhsContracting := [1]
  rhsContracting := [0]
  lhsNonContracting := [0]
  rhsNonContracting := [1]
  lhsBatch := []
  rhsBatch := []
  wf := dot_S6400x16_S16x16_S6400x16_1_0_0_1_n_n_wf
def dot_S6400x3_S3x16_S6400x16_1_0_0_1_n_n : DotDims S6400x3 S3x16 S6400x16 where
  lhsContracting := [1]
  rhsContracting := [0]
  lhsNonContracting := [0]
  rhsNonContracting := [1]
  lhsBatch := []
  rhsBatch := []
  wf := dot_S6400x3_S3x16_S6400x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S6400x16_S16x3_S6400x3_1_0_0_1_n_n : DotDims S6400x16 S16x3 S6400x3 where
  lhsContracting := [1]
  rhsContracting := [0]
  lhsNonContracting := [0]
  rhsNonContracting := [1]
  lhsBatch := []
  rhsBatch := []
  wf := dot_S6400x16_S16x3_S6400x3_1_0_0_1_n_n_wf
def dot_S10000x16_S16x3_S10000x3_1_0_0_1_n_n : DotDims S10000x16 S16x3 S10000x3 where
  lhsContracting := [1]
  rhsContracting := [0]
  lhsNonContracting := [0]
  rhsNonContracting := [1]
  lhsBatch := []
  rhsBatch := []
  wf := dot_S10000x16_S16x3_S10000x3_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S6400x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S6400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S3x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S6400x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v53) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S6400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S6400x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S6400x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S16x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v74) S1x16.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg17) S16x3.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v75) S1x3.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v76) S6400x3.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v84) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S16x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S1x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S10000x3.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x3 : Shape := ⟨2, ![100000, 3]⟩
abbrev S3200000x3 : Shape := ⟨2, ![3200000, 3]⟩
abbrev S2x3200000 : Shape := ⟨2, ![2, 3200000]⟩
abbrev S3x16 : Shape := ⟨2, ![3, 16]⟩
abbrev S16 : Shape := ⟨1, ![16]⟩
abbrev S35x16 : Shape := ⟨2, ![35, 16]⟩
abbrev S16x16 : Shape := ⟨2, ![16, 16]⟩
abbrev S48x16 : Shape := ⟨2, ![48, 16]⟩
abbrev S16x3 : Shape := ⟨2, ![16, 3]⟩
abbrev S3 : Shape := ⟨1, ![3]⟩
abbrev S1x3200000 : Shape := ⟨2, ![1, 3200000]⟩
abbrev S3200000 : Shape := ⟨1, ![3200000]⟩
abbrev S100000x16 : Shape := ⟨2, ![100000, 16]⟩
abbrev S1x16 : Shape := ⟨2, ![1, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S3200000x35 : Shape := ⟨2, ![3200000, 35]⟩
abbrev S3200000x48 : Shape := ⟨2, ![3200000, 48]⟩
abbrev S1x3 : Shape := ⟨2, ![1, 3]⟩

abbrev nBuf : Space → Nat
  | .hbm => 181
  | .vmem => 0
  | .smem => 0
  | _ => 0

abbrev hbmTy0_0 (i : Nat) : BufTy := match i % 128 with
  | 0 => ⟨S100000x3, .f32⟩
  | 1 => ⟨S3200000x3, .f32⟩
  | 2 => ⟨S2x3200000, .i32⟩
  | 3 => ⟨S3x16, .f32⟩
  | 4 => ⟨S16, .f32⟩
  | 5 => ⟨S35x16, .f32⟩
  | 6 => ⟨S16, .f32⟩
  | 7 => ⟨S16x16, .f32⟩
  | 8 => ⟨S16, .f32⟩
  | 9 => ⟨S48x16, .f32⟩
  | 10 => ⟨S16, .f32⟩
  | 11 => ⟨S16x16, .f32⟩
  | 12 => ⟨S16, .f32⟩
  | 13 => ⟨S16x3, .f32⟩
  | 14 => ⟨S3, .f32⟩
  | 15 => ⟨S16x16, .f32⟩
  | 16 => ⟨S16, .f32⟩
  | 17 => ⟨S16x3, .f32⟩
  | 18 => ⟨S3, .f32⟩
  | 19 => ⟨S1x3200000, .i32⟩
  | 20 => ⟨S3200000, .i32⟩
  | 21 => ⟨S1x3200000, .i32⟩
  | 22 => ⟨S3200000, .i32⟩
  | 23 => ⟨S100000x16, .f32⟩
  | 24 => ⟨S1x16, .f32⟩
  | 25 => ⟨S100000x16, .f32⟩
  | 26 => ⟨S100000x16, .f32⟩
  | 27 => ⟨S_, .f32⟩
  | 28 => ⟨S3200000, .f32⟩
  | 29 => ⟨S_, .f32⟩
  | 30 => ⟨S100000, .f32⟩
  | 31 => ⟨S3200000x1, .i32⟩
  | 32 => ⟨S100000, .f32⟩
  | 33 => ⟨S_, .f32⟩
  | 34 => ⟨S100000, .f32⟩
  | 35 => ⟨S100000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x16, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x16, .f32⟩
  | 73 => ⟨S3200000x35, .f32⟩
  | 74 => ⟨S3200000x16, .f32⟩
  | 75 => ⟨S1x16, .f32⟩
  | 76 => ⟨S3200000x16, .f32⟩
  | 77 => ⟨S3200000x16, .f32⟩
  | 78 => ⟨S3200000x1, .f32⟩
  | 79 => ⟨S3200000x16, .f32⟩
  | 80 => ⟨S3200000x16, .f32⟩
  | 81 => ⟨S_, .f32⟩
  | 82 => ⟨S100000x16, .f32⟩
  | 83 => ⟨S3200000x1, .i32⟩
  | 84 => ⟨S100000x16, .f32⟩
  | 85 => ⟨S_, .f32⟩
  | 86 => ⟨S100000x16, .f32⟩
  | 87 => ⟨S100000x16, .f32⟩
  | 88 => ⟨S_, .f32⟩
  | 89 => ⟨S3200000x16, .f32⟩
  | 90 => ⟨S3200000x16, .f32⟩
  | 91 => ⟨S100000x16, .f32⟩
  | 92 => ⟨S1x16, .f32⟩
  | 93 => ⟨S100000x16, .f32⟩
  | 94 => ⟨S100000x16, .f32⟩
  | 95 => ⟨S_, .f32⟩
  | 96 => ⟨S3200000, .f32⟩
  | 97 => ⟨S_, .f32⟩
  | 98 => ⟨S100000, .f32⟩
  | 99 => ⟨S3200000x1, .i32⟩
  | 100 => ⟨S100000, .f32⟩
  | 101 => ⟨S_, .f32⟩
  | 102 => ⟨S100000, .f32⟩
  | 103 => ⟨S100000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000, .f32⟩
  | 122 => ⟨S3200000, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x3, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x16, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x16, .f32⟩
  | 13 => ⟨S3200000x48, .f32⟩
  | 14 => ⟨S3200000x16, .f32⟩
  | 15 => ⟨S1x16, .f32⟩
  | 16 => ⟨S3200000x16, .f32⟩
  | 17 => ⟨S3200000x16, .f32⟩
  | 18 => ⟨S3200000x1, .f32⟩
  | 19 => ⟨S3200000x16, .f32⟩
  | 20 => ⟨S3200000x16, .f32⟩
  | 21 => ⟨S_, .f32⟩
  | 22 => ⟨S100000x16, .f32⟩
  | 23 => ⟨S3200000x1, .i32⟩
  | 24 => ⟨S100000x16, .f32⟩
  | 25 => ⟨S_, .f32⟩
  | 26 => ⟨S100000x16, .f32⟩
  | 27 => ⟨S100000x16, .f32⟩
  | 28 => ⟨S_, .f32⟩
  | 29 => ⟨S3200000x16, .f32⟩
  | 30 => ⟨S3200000x16, .f32⟩
  | 31 => ⟨S100000x16, .f32⟩
  | 32 => ⟨S1x16, .f32⟩
  | 33 => ⟨S100000x16, .f32⟩
  | 34 => ⟨S100000x16, .f32⟩
  | 35 => ⟨S_, .f32⟩
  | 36 => ⟨S100000x16, .f32⟩
  | 37 => ⟨S100000x16, .f32⟩
  | 38 => ⟨S100000x3, .f32⟩
  | 39 => ⟨S1x3, .f32⟩
  | 40 => ⟨S100000x3, .f32⟩
  | 41 => ⟨S100000x3, .f32⟩
  | 42 => ⟨S3200000x16, .f32⟩
  | 43 => ⟨S1x16, .f32⟩
  | 44 => ⟨S3200000x16, .f32⟩
  | 45 => ⟨S3200000x16, .f32⟩
  | 46 => ⟨S_, .f32⟩
  | 47 => ⟨S3200000x16, .f32⟩
  | 48 => ⟨S3200000x16, .f32⟩
  | 49 => ⟨S3200000x3, .f32⟩
  | 50 => ⟨S1x3, .f32⟩
  | 51 => ⟨S3200000x3, .f32⟩
  | 52 => ⟨S3200000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call0_cst : Ref sig .tc := ⟨.hbm, 85, rfl⟩
abbrev main_call0_v0 : Ref sig .tc := ⟨.hbm, 86, rfl⟩
abbrev main_v54 : Ref sig .tc := ⟨.hbm, 87, rfl⟩
abbrev main_call1_cst : Ref sig .tc := ⟨.hbm, 88, rfl⟩
abbrev main_call1_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_c_13 : Ref sig .tc := ⟨.hbm, 104, rfl⟩
abbrev main_v66 : Ref sig .tc := ⟨.hbm, 105, rfl⟩
abbrev main_v67 : Ref sig .tc := ⟨.hbm, 106, rfl⟩
abbrev main_c_14 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_15 : Ref sig .tc := ⟨.hbm, 113, rfl⟩
abbrev main_v73 : Ref sig .tc := ⟨.hbm, 114, rfl⟩
abbrev main_v74 : Ref sig .tc := ⟨.hbm, 115, rfl⟩
abbrev main_c_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_c_18 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_19 : Ref sig .tc := ⟨.hbm, 132, rfl⟩
abbrev main_v88 : Ref sig .tc := ⟨.hbm, 133, rfl⟩
abbrev main_v89 : Ref sig .tc := ⟨.hbm, 134, rfl⟩
abbrev main_c_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_21 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call2_cst : Ref sig .tc := ⟨.hbm, 153, rfl⟩
abbrev main_call2_v0 : Ref sig .tc := ⟨.hbm, 154, rfl⟩
abbrev main_v106 : Ref sig .tc := ⟨.hbm, 155, rfl⟩
abbrev main_call3_cst : Ref sig .tc := ⟨.hbm, 156, rfl⟩
abbrev main_call3_v0 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_call4_cst : Ref sig .tc := ⟨.hbm, 163, rfl⟩
abbrev main_call4_v0 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_call5_cst : Ref sig .tc := ⟨.hbm, 174, rfl⟩
abbrev main_call5_v0 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S3200000x16_S3200000x3_S3200000x16_S3200000x35_d1 : Shape.Concatenates [S3200000x16, S3200000x3, S3200000x16] S3200000x35 1
  bcast_S1x16_S3200000x16_0_1 : S1x16.BroadcastsInDim S3200000x16 (![0, 1] : Fin 2 → Fin S3200000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S_S3200000x16 : S_.BroadcastsInDim S3200000x16 (![] : Fin 0 → Fin S3200000x16.rank)
  concatenates_S3200000x16_S3200000x16_S3200000x16_S3200000x48_d1 : Shape.Concatenates [S3200000x16, S3200000x16, S3200000x16] S3200000x48 1
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S1x3_S3200000x3_0_1 : S1x3.BroadcastsInDim S3200000x3 (![0, 1] : Fin 2 → Fin S3200000x3.rank)
  dot_S100000x3_S3x16_S100000x16_1_0_0_1_n_n_wf : DotDims.WF S100000x3 S3x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  dot_S3200000x35_S35x16_S3200000x16_1_0_0_1_n_n_wf : DotDims.WF S3200000x35 S35x16 S3200000x16 [1] [0] [0] [1] [] []
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S3200000x48_S48x16_S3200000x16_1_0_0_1_n_n_wf : DotDims.WF S3200000x48 S48x16 S3200000x16 [1] [0] [0] [1] [] []
  dot_S100000x16_S16x3_S100000x3_1_0_0_1_n_n_wf : DotDims.WF S100000x16 S16x3 S100000x3 [1] [0] [0] [1] [] []
  dot_S3200000x16_S16x16_S3200000x16_1_0_0_1_n_n_wf : DotDims.WF S3200000x16 S16x16 S3200000x16 [1] [0] [0] [1] [] []
  dot_S3200000x16_S16x3_S3200000x3_1_0_0_1_n_n_wf : DotDims.WF S3200000x16 S16x3 S3200000x3 [1] [0] [0] [1] [] []

variable [Facts₀]

def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x35_S35x16_S3200000x16_1_0_0_1_n_n : DotDims S3200000x35 S35x16 S3200000x16 where
  lhsContracting := [1]
  rhsContracting := [0]
  lhsNonContracting := [0]
  rhsNonContracting := [1]
  lhsBatch := []
  rhsBatch := []
  wf := dot_S3200000x35_S35x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S3200000x48_S48x16_S3200000x16_1_0_0_1_n_n : DotDims S3200000x48 S48x16 S3200000x16 where
  lhsContracting := [1]
  rhsContracting := [0]
  lhsNonContracting := [0]
  rhsNonContracting := [1]
  lhsBatch := []
  rhsBatch := []
  wf := dot_S3200000x48_S48x16_S3200000x16_1_0_0_1_n_n_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf
def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf
def dot_S3200000x16_S16x3_S3200000x3_1_0_0_1_n_n : DotDims S3200000x16 S16x3 S3200000x3 where
  lhsContracting := [1]
  rhsContracting := [0]
  lhsNonContracting := [0]
  rhsNonContracting := [1]
  lhsBatch := []
  rhsBatch := []
  wf := dot_S3200000x16_S16x3_S3200000x3_1_0_0_1_n_n_wf

class Facts : Prop extends Facts₀ where

variable [Facts]
-- ==== Proof.KRun.lean ====
/-
  The idealized kernel program's run with its two results named: every weakly fair execution terminates, nothing
  faulting, the argument arrays unchanged, and the node and edge results hold what the last segment boundary's buffer
  contents hold — the fold of the host stretches and of the five regions' write-backs from the launch memory.
-/
import proofs.«165703_j19224273617422_2_alg».proof.Proof.Gen.KernelIdeal.Frame

set_option maxRecDepth 16384

noncomputable section

namespace Cert.Bridge.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the node result and the edge result read at the last boundary's contents. -/
theorem run_results : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.Bridge.KRun

end
-- ==== Proof.RChain.lean ====
/-
  The reference's computation as a chain of named whole-array values of its nineteen argument arrays, each the
  composition of the reference program's own host operations: the edge endpoints with negative indices wrapped, the
  symmetric degree normalisation, a node feature matrix gathered at the sources or targets of the edges, the
  normalised sum of the incoming messages with its positive part, and the five dense stages.
-/
import proofs.«165703_j19224273617422_2_alg».proof.Proof.Gen.ReferenceIdeal
import Idealize.ShloMosaic.PureOps.Ideal

noncomputable section

namespace Cert.Bridge.RChain

open Idealize.ShloMosaic Cert.ReferenceIdeal Cert.ReferenceIdeal.Facts₀ Cert.ReferenceIdeal.Facts

variable {F : FTy → Type} [FloatOps F]

/-- The nineteen argument arrays. -/
structure Args (F : FTy → Type) [FloatOps F] where
  x : (⟨S100000x3, .f32⟩ : BufTy).Contents (Elt F)
  ea : (⟨S3200000x3, .f32⟩ : BufTy).Contents (Elt F)
  ei : (⟨S2x3200000, .i32⟩ : BufTy).Contents (Elt F)
  wn1 : (⟨S3x16, .f32⟩ : BufTy).Contents (Elt F)
  bn1 : (⟨S16, .f32⟩ : BufTy).Contents (Elt F)
  we1 : (⟨S35x16, .f32⟩ : BufTy).Contents (Elt F)
  be1 : (⟨S16, .f32⟩ : BufTy).Contents (Elt F)
  wn2 : (⟨S16x16, .f32⟩ : BufTy).Contents (Elt F)
  bn2 : (⟨S16, .f32⟩ : BufTy).Contents (Elt F)
  we2 : (⟨S48x16, .f32⟩ : BufTy).Contents (Elt F)
  be2 : (⟨S16, .f32⟩ : BufTy).Contents (Elt F)
  wnn1 : (⟨S16x16, .f32⟩ : BufTy).Contents (Elt F)
  bnn1 : (⟨S16, .f32⟩ : BufTy).Contents (Elt F)
  wnn2 : (⟨S16x3, .f32⟩ : BufTy).Contents (Elt F)
  bnn2 : (⟨S3, .f32⟩ : BufTy).Contents (Elt F)
  wen1 : (⟨S16x16, .f32⟩ : BufTy).Contents (Elt F)
  ben1 : (⟨S16, .f32⟩ : BufTy).Contents (Elt F)
  wen2 : (⟨S16x3, .f32⟩ : BufTy).Contents (Elt F)
  ben2 : (⟨S3, .f32⟩ : BufTy).Contents (Elt F)

/-- Row 0 of the edge list: the source of every edge. -/
def src (ei : (⟨S2x3200000, .i32⟩ : BufTy).Contents (Elt F)) : (⟨S3200000, .i32⟩ : BufTy).Contents (Elt F) :=
  shapeCast _ (extractStridedSlice S1x3200000 ![0, 0] ei slices_S2x3200000_S1x3200000_0_0) shapeCasts_S1x3200000_S3200000

/-- Row 1 of the edge list: the target of every edge. -/
def dst (ei : (⟨S2x3200000, .i32⟩ : BufTy).Contents (Elt F)) : (⟨S3200000, .i32⟩ : BufTy).Contents (Elt F) :=
  shapeCast _ (extractStridedSlice S1x3200000 ![1, 0] ei slices_S2x3200000_S1x3200000_1_0) shapeCasts_S1x3200000_S3200000

/-- Node indices with the negative ones wrapped by the number of nodes, as a column of start indices. -/
def wrapIdx (v : (⟨S3200000, .i32⟩ : BufTy).Contents (Elt F)) : (⟨S3200000x1, .i32⟩ : BufTy).Contents (Elt F) :=
  broadcastInDim S3200000x1 ![0] bcast_S3200000_S3200000x1_0 (select (cmpi .slt v (broadcastInDim S3200000 ![] bcast_S_S3200000 (constantI S_ 32 0#32))) (addi v (broadcastInDim S3200000 ![] bcast_S_S3200000 (constantI S_ 32 100000#32))) v)

/-- The in-degree of every node to the power -1/2. -/
def dis (ei : (⟨S2x3200000, .i32⟩ : BufTy).Contents (Elt F)) : (⟨S100000, .f32⟩ : BufTy).Contents (Elt F) :=
  Host.powf (Host.scatterAdd scatter_S100000_S3200000x1_S3200000_n_0_0_1 (broadcastInDim S100000 ![] bcast_S_S100000 (constant S_ .f32 0x00000000#32)) (broadcastInDim S3200000x1 ![0] bcast_S3200000_S3200000x1_0 (dst ei)) (broadcastInDim S3200000 ![] bcast_S_S3200000 (constant S_ .f32 0x3F800000#32))) (broadcastInDim S100000 ![] bcast_S_S100000 (constant S_ .f32 0xBF000000#32))

/-- The weight of every edge: the product of its endpoints' normalisations. -/
def norm (ei : (⟨S2x3200000, .i32⟩ : BufTy).Contents (Elt F)) : (⟨S3200000, .f32⟩ : BufTy).Contents (Elt F) :=
  mulf (Host.gather gather_S100000_S3200000x1_S3200000_n_0_n_n_0_1_1 (dis ei) (wrapIdx (src ei))) (Host.gather gather_S100000_S3200000x1_S3200000_n_0_n_n_0_1_1 (dis ei) (wrapIdx (dst ei)))

/-- The rows of a node feature matrix at the given endpoint of every edge. -/
def take (h : (⟨S100000x16, .f32⟩ : BufTy).Contents (Elt F)) (v : (⟨S3200000, .i32⟩ : BufTy).Contents (Elt F)) : (⟨S3200000x16, .f32⟩ : BufTy).Contents (Elt F) :=
  Host.gather gather_S100000x16_S3200000x1_S3200000x16_1_0_n_n_0_1_116 h (wrapIdx v)

/-- The positive part of the weighted sum, at every node, of the messages on its incoming edges, from the edge targets
    and the edge weights. -/
def aggP (dstv : (⟨S3200000, .i32⟩ : BufTy).Contents (Elt F)) (nrm : (⟨S3200000, .f32⟩ : BufTy).Contents (Elt F)) (xs : (⟨S3200000x16, .f32⟩ : BufTy).Contents (Elt F)) : (⟨S100000x16, .f32⟩ : BufTy).Contents (Elt F) :=
  maximumf (Host.scatterAdd scatter_S100000x16_S3200000x1_S3200000x16_1_0_0_1 (broadcastInDim S100000x16 ![] bcast_S_S100000x16 (constant S_ .f32 0x00000000#32)) (broadcastInDim S3200000x1 ![0] bcast_S3200000_S3200000x1_0 dstv) (mulf (broadcastInDim S3200000x16 ![0, 1] bcast_S3200000x1_S3200000x16_0_1 (broadcastInDim S3200000x1 ![0] bcast_S3200000_S3200000x1_0 nrm)) xs)) (broadcastInDim S100000x16 ![] bcast_S_S100000x16 (constant S_ .f32 0x00000000#32))

/-- The same with the targets and the weights read off the edge list. -/
def agg (ei : (⟨S2x3200000, .i32⟩ : BufTy).Contents (Elt F)) (xs : (⟨S3200000x16, .f32⟩ : BufTy).Contents (Elt F)) : (⟨S100000x16, .f32⟩ : BufTy).Contents (Elt F) :=
  aggP (dst ei) (norm ei) xs

/-- The first layer's node transform. -/
def lin1 (x : (⟨S100000x3, .f32⟩ : BufTy).Contents (Elt F)) (w : (⟨S3x16, .f32⟩ : BufTy).Contents (Elt F)) (b : (⟨S16, .f32⟩ : BufTy).Contents (Elt F)) : (⟨S100000x16, .f32⟩ : BufTy).Contents (Elt F) :=
  addf (Host.dotGeneral dot_S100000x3_S3x16_S100000x16_1_0_0_1_n_n none x w) (broadcastInDim S100000x16 ![0, 1] bcast_S1x16_S100000x16_0_1 (broadcastInDim S1x16 ![1] bcast_S16_S1x16_1 b))

/-- The first layer's edge transform of the joined features, with its positive part. -/
def edge1 (a : (⟨S3200000x16, .f32⟩ : BufTy).Contents (Elt F)) (e : (⟨S3200000x3, .f32⟩ : BufTy).Contents (Elt F)) (c : (⟨S3200000x16, .f32⟩ : BufTy).Contents (Elt F)) (we : (⟨S35x16, .f32⟩ : BufTy).Contents (Elt F)) (be : (⟨S16, .f32⟩ : BufTy).Contents (Elt F)) : (⟨S3200000x16, .f32⟩ : BufTy).Contents (Elt F) :=
  maximumf (addf (Host.dotGeneral dot_S3200000x35_S35x16_S3200000x16_1_0_0_1_n_n none (concatenate S3200000x35 1 [⟨S3200000x16, a⟩, ⟨S3200000x3, e⟩, ⟨S3200000x16, c⟩] concatenates_S3200000x16_S3200000x3_S3200000x16_S3200000x35_d1) we) (broadcastInDim S3200000x16 ![0, 1] bcast_S1x16_S3200000x16_0_1 (broadcastInDim S1x16 ![1] bcast_S16_S1x16_1 be))) (broadcastInDim S3200000x16 ![] bcast_S_S3200000x16 (constant S_ .f32 0x00000000#32))

/-- The second layer's node transform. -/
def lin2 (x : (⟨S100000x16, .f32⟩ : BufTy).Contents (Elt F)) (w : (⟨S16x16, .f32⟩ : BufTy).Contents (Elt F)) (b : (⟨S16, .f32⟩ : BufTy).Contents (Elt F)) : (⟨S100000x16, .f32⟩ : BufTy).Contents (Elt F) :=
  addf (Host.dotGeneral dot_S100000x16_S16x16_S100000x16_1_0_0_1_n_n none x w) (broadcastInDim S100000x16 ![0, 1] bcast_S1x16_S100000x16_0_1 (broadcastInDim S1x16 ![1] bcast_S16_S1x16_1 b))

/-- The second layer's edge transform followed by the two-layer edge network. -/
def edge2 (a x c : (⟨S3200000x16, .f32⟩ : BufTy).Contents (Elt F)) (we : (⟨S48x16, .f32⟩ : BufTy).Contents (Elt F)) (be : (⟨S16, .f32⟩ : BufTy).Contents (Elt F)) (w1 : (⟨S16x16, .f32⟩ : BufTy).Contents (Elt F)) (b1 : (⟨S16, .f32⟩ : BufTy).Contents (Elt F)) (w2 : (⟨S16x3, .f32⟩ : BufTy).Contents (Elt F)) (b2 : (⟨S3, .f32⟩ : BufTy).Contents (Elt F)) : (⟨S3200000x3, .f32⟩ : BufTy).Contents (Elt F) :=
  addf (Host.dotGeneral dot_S3200000x16_S16x3_S3200000x3_1_0_0_1_n_n none (maximumf (addf (Host.dotGeneral dot_S3200000x16_S16x16_S3200000x16_1_0_0_1_n_n none (maximumf (addf (Host.dotGeneral dot_S3200000x48_S48x16_S3200000x16_1_0_0_1_n_n none (concatenate S3200000x48 1 [⟨S3200000x16, a⟩, ⟨S3200000x16, x⟩, ⟨S3200000x16, c⟩] concatenates_S3200000x16_S3200000x16_S3200000x16_S3200000x48_d1) we) (broadcastInDim S3200000x16 ![0, 1] bcast_S1x16_S3200000x16_0_1 (broadcastInDim S1x16 ![1] bcast_S16_S1x16_1 be))) (broadcastInDim S3200000x16 ![] bcast_S_S3200000x16 (constant S_ .f32 0x00000000#32))) w1) (broadcastInDim S3200000x16 ![0, 1] bcast_S1x16_S3200000x16_0_1 (broadcastInDim S1x16 ![1] bcast_S16_S1x16_1 b1))) (broadcastInDim S3200000x16 ![] bcast_S_S3200000x16 (constant S_ .f32 0x00000000#32))) w2) (broadcastInDim S3200000x3 ![0, 1] bcast_S1x3_S3200000x3_0_1 (broadcastInDim S1x3 ![1] bcast_S3_S1x3_1 b2))

/-- The two-layer node network. -/
def node2 (x : (⟨S100000x16, .f32⟩ : BufTy).Contents (Elt F)) (w1 : (⟨S16x16, .f32⟩ : BufTy).Contents (Elt F)) (b1 : (⟨S16, .f32⟩ : BufTy).Contents (Elt F)) (w2 : (⟨S16x3, .f32⟩ : BufTy).Contents (Elt F)) (b2 : (⟨S3, .f32⟩ : BufTy).Contents (Elt F)) : (⟨S100000x3, .f32⟩ : BufTy).Contents (Elt F) :=
  addf (Host.dotGeneral dot_S100000x16_S16x3_S100000x3_1_0_0_1_n_n none (maximumf (addf (Host.dotGeneral dot_S100000x16_S16x16_S100000x16_1_0_0_1_n_n none x w1) (broadcastInDim S100000x16 ![0, 1] bcast_S1x16_S100000x16_0_1 (broadcastInDim S1x16 ![1] bcast_S16_S1x16_1 b1))) (broadcastInDim S100000x16 ![] bcast_S_S100000x16 (constant S_ .f32 0x00000000#32))) w2) (broadcastInDim S100000x3 ![0, 1] bcast_S1x3_S100000x3_0_1 (broadcastInDim S1x3 ![1] bcast_S3_S1x3_1 b2))

/-- The node features after the first layer's node transform. -/
def x1 (A : Args F) : (⟨S100000x16, .f32⟩ : BufTy).Contents (Elt F) := lin1 A.x A.wn1 A.bn1
/-- The edge features after the first layer. -/
def er1 (A : Args F) : (⟨S3200000x16, .f32⟩ : BufTy).Contents (Elt F) :=
  edge1 (take (x1 A) (src A.ei)) A.ea (take (x1 A) (dst A.ei)) A.we1 A.be1
/-- The node features after the second layer's node transform. -/
def x2 (A : Args F) : (⟨S100000x16, .f32⟩ : BufTy).Contents (Elt F) := lin2 (agg A.ei (take (x1 A) (src A.ei))) A.wn2 A.bn2
/-- The edge result. -/
def edgeOut (A : Args F) : (⟨S3200000x3, .f32⟩ : BufTy).Contents (Elt F) :=
  edge2 (take (x2 A) (src A.ei)) (er1 A) (take (x2 A) (dst A.ei)) A.we2 A.be2 A.wen1 A.ben1 A.wen2 A.ben2
/-- The node result. -/
def nodeOut (A : Args F) : (⟨S100000x3, .f32⟩ : BufTy).Contents (Elt F) :=
  node2 (agg A.ei (take (x2 A) (src A.ei))) A.wnn1 A.bnn1 A.wnn2 A.bnn2

end Cert.Bridge.RChain

end
-- ==== Proof.KOps.lean ====
/-
  The host stretches of the idealized kernel program between its five regions, read over an arbitrary valuation of
  the buffers: what each stretch leaves in the buffers a later region or stretch reads — the edge endpoints, the edge
  weights, a gathered feature matrix, an aggregated one, a block of rows of a weight matrix, a bias as one row — in
  the vocabulary of the reference's chain of values, and that it leaves every other buffer as it found it.
-/
import proofs.«165703_j19224273617422_2_alg».proof.Proof.Gen.KernelIdeal.Frame
import proofs.«165703_j19224273617422_2_alg».proof.Proof.RChain
import Idealize.ShloMosaic.Lib.StableHlo.Run

noncomputable section

namespace Cert.Bridge.KOps

open Cert.KernelIdeal Cert.KernelIdeal.Gen
open Idealize.ShloMosaic Idealize.ShloMosaic.TcCoe Idealize.SL.Sem Idealize.ShloMosaic.StableHlo
open Cert.Bridge

variable {F : FTy → Type} [FloatOps F] (W : Valuation τ sig (Elt F))

/-! ## Stretch 0 -/

theorem o0_v1 : StableHlo.after hostOps0 W (Proc.devRef .tc main_v1) = RChain.src (W (Proc.devRef .tc main_arg2)) := by
  after_results_simp <;> rfl
theorem o0_v3 : StableHlo.after hostOps0 W (Proc.devRef .tc main_v3) = RChain.dst (W (Proc.devRef .tc main_arg2)) := by
  after_results_simp <;> rfl
theorem o0_v24 : StableHlo.after hostOps0 W (Proc.devRef .tc main_v24) = RChain.norm (W (Proc.devRef .tc main_arg2)) := by
  after_results_simp <;> rfl
theorem o0_v25 : StableHlo.after hostOps0 W (Proc.devRef .tc main_v25) = extractStridedSlice S16x16 ![0, 0] (W (Proc.devRef .tc main_arg5)) slices_S35x16_S16x16_0_0 := by
  after_results_simp <;> rfl
theorem o0_v26 : StableHlo.after hostOps0 W (Proc.devRef .tc main_v26) = extractStridedSlice S3x16 ![16, 0] (W (Proc.devRef .tc main_arg5)) slices_S35x16_S3x16_16_0 := by
  after_results_simp <;> rfl
theorem o0_v27 : StableHlo.after hostOps0 W (Proc.devRef .tc main_v27) = extractStridedSlice S16x16 ![19, 0] (W (Proc.devRef .tc main_arg5)) slices_S35x16_S16x16_19_0 := by
  after_results_simp <;> rfl
theorem o0_v28 : StableHlo.after hostOps0 W (Proc.devRef .tc main_v28) = shapeCast S1x16 (W (Proc.devRef .tc main_arg4)) shapeCasts_S16_S1x16 := by
  after_results_simp <;> rfl
theorem c0_arg0 : StableHlo.after hostOps0 W (Proc.devRef .tc main_arg0) = W (Proc.devRef .tc main_arg0) := by
  after_results_simp <;> rfl
theorem c0_arg1 : StableHlo.after hostOps0 W (Proc.devRef .tc main_arg1) = W (Proc.devRef .tc main_arg1) := by
  after_results_simp <;> rfl
theorem c0_arg3 : StableHlo.after hostOps0 W (Proc.devRef .tc main_arg3) = W (Proc.devRef .tc main_arg3) := by
  after_results_simp <;> rfl
theorem c0_arg6 : StableHlo.after hostOps0 W (Proc.devRef .tc main_arg6) = W (Proc.devRef .tc main_arg6) := by
  after_results_simp <;> rfl
theorem c0_arg7 : StableHlo.after hostOps0 W (Proc.devRef .tc main_arg7) = W (Proc.devRef .tc main_arg7) := by
  after_results_simp <;> rfl
theorem c0_arg8 : StableHlo.after hostOps0 W (Proc.devRef .tc main_arg8) = W (Proc.devRef .tc main_arg8) := by
  after_results_simp <;> rfl
theorem c0_arg9 : StableHlo.after hostOps0 W (Proc.devRef .tc main_arg9) = W (Proc.devRef .tc main_arg9) := by
  after_results_simp <;> rfl
theorem c0_arg10 : StableHlo.after hostOps0 W (Proc.devRef .tc main_arg10) = W (Proc.devRef .tc main_arg10) := by
  after_results_simp <;> rfl
theorem c0_arg11 : StableHlo.after hostOps0 W (Proc.devRef .tc main_arg11) = W (Proc.devRef .tc main_arg11) := by
  after_results_simp <;> rfl
theorem c0_arg12 : StableHlo.after hostOps0 W (Proc.devRef .tc main_arg12) = W (Proc.devRef .tc main_arg12) := by
  after_results_simp <;> rfl
theorem c0_arg13 : StableHlo.after hostOps0 W (Proc.devRef .tc main_arg13) = W (Proc.devRef .tc main_arg13) := by
  after_results_simp <;> rfl
theorem c0_arg14 : StableHlo.after hostOps0 W (Proc.devRef .tc main_arg14) = W (Proc.devRef .tc main_arg14) := by
  after_results_simp <;> rfl
theorem c0_arg15 : StableHlo.after hostOps0 W (Proc.devRef .tc main_arg15) = W (Proc.devRef .tc main_arg15) := by
  after_results_simp <;> rfl
theorem c0_arg16 : StableHlo.after hostOps0 W (Proc.devRef .tc main_arg16) = W (Proc.devRef .tc main_arg16) := by
  after_results_simp <;> rfl
theorem c0_arg17 : StableHlo.after hostOps0 W (Proc.devRef .tc main_arg17) = W (Proc.devRef .tc main_arg17) := by
  after_results_simp <;> rfl
theorem c0_arg18 : StableHlo.after hostOps0 W (Proc.devRef .tc main_arg18) = W (Proc.devRef .tc main_arg18) := by
  after_results_simp <;> rfl

/-! ## Stretch 1 -/

theorem o1_v36 : StableHlo.after hostOps1 W (Proc.devRef .tc main_v36) = RChain.take (W (Proc.devRef .tc main_v29)) (W (Proc.devRef .tc main_v1)) := by
  after_results_simp <;> rfl
theorem o1_v43 : StableHlo.after hostOps1 W (Proc.devRef .tc main_v43) = RChain.take (W (Proc.devRef .tc main_v29)) (W (Proc.devRef .tc main_v3)) := by
  after_results_simp <;> rfl
theorem o1_v44 : StableHlo.after hostOps1 W (Proc.devRef .tc main_v44) = shapeCast S1x16 (W (Proc.devRef .tc main_arg6)) shapeCasts_S16_S1x16 := by
  after_results_simp <;> rfl
theorem c1_v1 : StableHlo.after hostOps1 W (Proc.devRef .tc main_v1) = W (Proc.devRef .tc main_v1) := by
  after_results_simp <;> rfl
theorem c1_v3 : StableHlo.after hostOps1 W (Proc.devRef .tc main_v3) = W (Proc.devRef .tc main_v3) := by
  after_results_simp <;> rfl
theorem c1_v24 : StableHlo.after hostOps1 W (Proc.devRef .tc main_v24) = W (Proc.devRef .tc main_v24) := by
  after_results_simp <;> rfl
theorem c1_v25 : StableHlo.after hostOps1 W (Proc.devRef .tc main_v25) = W (Proc.devRef .tc main_v25) := by
  after_results_simp <;> rfl
theorem c1_v26 : StableHlo.after hostOps1 W (Proc.devRef .tc main_v26) = W (Proc.devRef .tc main_v26) := by
  after_results_simp <;> rfl
theorem c1_v27 : StableHlo.after hostOps1 W (Proc.devRef .tc main_v27) = W (Proc.devRef .tc main_v27) := by
  after_results_simp <;> rfl
theorem c1_arg1 : StableHlo.after hostOps1 W (Proc.devRef .tc main_arg1) = W (Proc.devRef .tc main_arg1) := by
  after_results_simp <;> rfl
theorem c1_arg7 : StableHlo.after hostOps1 W (Proc.devRef .tc main_arg7) = W (Proc.devRef .tc main_arg7) := by
  after_results_simp <;> rfl
theorem c1_arg8 : StableHlo.after hostOps1 W (Proc.devRef .tc main_arg8) = W (Proc.devRef .tc main_arg8) := by
  after_results_simp <;> rfl
theorem c1_arg9 : StableHlo.after hostOps1 W (Proc.devRef .tc main_arg9) = W (Proc.devRef .tc main_arg9) := by
  after_results_simp <;> rfl
theorem c1_arg10 : StableHlo.after hostOps1 W (Proc.devRef .tc main_arg10) = W (Proc.devRef .tc main_arg10) := by
  after_results_simp <;> rfl
theorem c1_arg11 : StableHlo.after hostOps1 W (Proc.devRef .tc main_arg11) = W (Proc.devRef .tc main_arg11) := by
  after_results_simp <;> rfl
theorem c1_arg12 : StableHlo.after hostOps1 W (Proc.devRef .tc main_arg12) = W (Proc.devRef .tc main_arg12) := by
  after_results_simp <;> rfl
theorem c1_arg13 : StableHlo.after hostOps1 W (Proc.devRef .tc main_arg13) = W (Proc.devRef .tc main_arg13) := by
  after_results_simp <;> rfl
theorem c1_arg14 : StableHlo.after hostOps1 W (Proc.devRef .tc main_arg14) = W (Proc.devRef .tc main_arg14) := by
  after_results_simp <;> rfl
theorem c1_arg15 : StableHlo.after hostOps1 W (Proc.devRef .tc main_arg15) = W (Proc.devRef .tc main_arg15) := by
  after_results_simp <;> rfl
theorem c1_arg16 : StableHlo.after hostOps1 W (Proc.devRef .tc main_arg16) = W (Proc.devRef .tc main_arg16) := by
  after_results_simp <;> rfl
theorem c1_arg17 : StableHlo.after hostOps1 W (Proc.devRef .tc main_arg17) = W (Proc.devRef .tc main_arg17) := by
  after_results_simp <;> rfl
theorem c1_arg18 : StableHlo.after hostOps1 W (Proc.devRef .tc main_arg18) = W (Proc.devRef .tc main_arg18) := by
  after_results_simp <;> rfl

/-! ## Stretch 2 -/

theorem o2_v53 : StableHlo.after hostOps2 W (Proc.devRef .tc main_v53) = RChain.aggP (W (Proc.devRef .tc main_v3)) (W (Proc.devRef .tc main_v24)) (W (Proc.devRef .tc main_v36)) := by
  after_results_simp <;> rfl
theorem o2_v54 : StableHlo.after hostOps2 W (Proc.devRef .tc main_v54) = extractStridedSlice S16x16 ![0, 0] (W (Proc.devRef .tc main_arg9)) slices_S48x16_S16x16_0_0 := by
  after_results_simp <;> rfl
theorem o2_v55 : StableHlo.after hostOps2 W (Proc.devRef .tc main_v55) = extractStridedSlice S16x16 ![16, 0] (W (Proc.devRef .tc main_arg9)) slices_S48x16_S16x16_16_0 := by
  after_results_simp <;> rfl
theorem o2_v56 : StableHlo.after hostOps2 W (Proc.devRef .tc main_v56) = extractStridedSlice S16x16 ![32, 0] (W (Proc.devRef .tc main_arg9)) slices_S48x16_S16x16_32_0 := by
  after_results_simp <;> rfl
theorem o2_v57 : StableHlo.after hostOps2 W (Proc.devRef .tc main_v57) = shapeCast S1x16 (W (Proc.devRef .tc main_arg8)) shapeCasts_S16_S1x16 := by
  after_results_simp <;> rfl
theorem c2_v1 : StableHlo.after hostOps2 W (Proc.devRef .tc main_v1) = W (Proc.devRef .tc main_v1) := by
  after_results_simp <;> rfl
theorem c2_v3 : StableHlo.after hostOps2 W (Proc.devRef .tc main_v3) = W (Proc.devRef .tc main_v3) := by
  after_results_simp <;> rfl
theorem c2_v24 : StableHlo.after hostOps2 W (Proc.devRef .tc main_v24) = W (Proc.devRef .tc main_v24) := by
  after_results_simp <;> rfl
theorem c2_v45 : StableHlo.after hostOps2 W (Proc.devRef .tc main_v45) = W (Proc.devRef .tc main_v45) := by
  after_results_simp <;> rfl
theorem c2_arg7 : StableHlo.after hostOps2 W (Proc.devRef .tc main_arg7) = W (Proc.devRef .tc main_arg7) := by
  after_results_simp <;> rfl
theorem c2_arg10 : StableHlo.after hostOps2 W (Proc.devRef .tc main_arg10) = W (Proc.devRef .tc main_arg10) := by
  after_results_simp <;> rfl
theorem c2_arg11 : StableHlo.after hostOps2 W (Proc.devRef .tc main_arg11) = W (Proc.devRef .tc main_arg11) := by
  after_results_simp <;> rfl
theorem c2_arg12 : StableHlo.after hostOps2 W (Proc.devRef .tc main_arg12) = W (Proc.devRef .tc main_arg12) := by
  after_results_simp <;> rfl
theorem c2_arg13 : StableHlo.after hostOps2 W (Proc.devRef .tc main_arg13) = W (Proc.devRef .tc main_arg13) := by
  after_results_simp <;> rfl
theorem c2_arg14 : StableHlo.after hostOps2 W (Proc.devRef .tc main_arg14) = W (Proc.devRef .tc main_arg14) := by
  after_results_simp <;> rfl
theorem c2_arg15 : StableHlo.after hostOps2 W (Proc.devRef .tc main_arg15) = W (Proc.devRef .tc main_arg15) := by
  after_results_simp <;> rfl
theorem c2_arg16 : StableHlo.after hostOps2 W (Proc.devRef .tc main_arg16) = W (Proc.devRef .tc main_arg16) := by
  after_results_simp <;> rfl
theorem c2_arg17 : StableHlo.after hostOps2 W (Proc.devRef .tc main_arg17) = W (Proc.devRef .tc main_arg17) := by
  after_results_simp <;> rfl
theorem c2_arg18 : StableHlo.after hostOps2 W (Proc.devRef .tc main_arg18) = W (Proc.devRef .tc main_arg18) := by
  after_results_simp <;> rfl

/-! ## Stretch 3 -/

theorem o3_v65 : StableHlo.after hostOps3 W (Proc.devRef .tc main_v65) = RChain.take (W (Proc.devRef .tc main_v58)) (W (Proc.devRef .tc main_v1)) := by
  after_results_simp <;> rfl
theorem o3_v72 : StableHlo.after hostOps3 W (Proc.devRef .tc main_v72) = RChain.take (W (Proc.devRef .tc main_v58)) (W (Proc.devRef .tc main_v3)) := by
  after_results_simp <;> rfl
theorem o3_v73 : StableHlo.after hostOps3 W (Proc.devRef .tc main_v73) = shapeCast S1x16 (W (Proc.devRef .tc main_arg10)) shapeCasts_S16_S1x16 := by
  after_results_simp <;> rfl
theorem o3_v74 : StableHlo.after hostOps3 W (Proc.devRef .tc main_v74) = shapeCast S1x16 (W (Proc.devRef .tc main_arg16)) shapeCasts_S16_S1x16 := by
  after_results_simp <;> rfl
theorem o3_v75 : StableHlo.after hostOps3 W (Proc.devRef .tc main_v75) = shapeCast S1x3 (W (Proc.devRef .tc main_arg18)) shapeCasts_S3_S1x3 := by
  after_results_simp <;> rfl
theorem c3_v3 : StableHlo.after hostOps3 W (Proc.devRef .tc main_v3) = W (Proc.devRef .tc main_v3) := by
  after_results_simp <;> rfl
theorem c3_v24 : StableHlo.after hostOps3 W (Proc.devRef .tc main_v24) = W (Proc.devRef .tc main_v24) := by
  after_results_simp <;> rfl
theorem c3_v45 : StableHlo.after hostOps3 W (Proc.devRef .tc main_v45) = W (Proc.devRef .tc main_v45) := by
  after_results_simp <;> rfl
theorem c3_v54 : StableHlo.after hostOps3 W (Proc.devRef .tc main_v54) = W (Proc.devRef .tc main_v54) := by
  after_results_simp <;> rfl
theorem c3_v55 : StableHlo.after hostOps3 W (Proc.devRef .tc main_v55) = W (Proc.devRef .tc main_v55) := by
  after_results_simp <;> rfl
theorem c3_v56 : StableHlo.after hostOps3 W (Proc.devRef .tc main_v56) = W (Proc.devRef .tc main_v56) := by
  after_results_simp <;> rfl
theorem c3_arg11 : StableHlo.after hostOps3 W (Proc.devRef .tc main_arg11) = W (Proc.devRef .tc main_arg11) := by
  after_results_simp <;> rfl
theorem c3_arg12 : StableHlo.after hostOps3 W (Proc.devRef .tc main_arg12) = W (Proc.devRef .tc main_arg12) := by
  after_results_simp <;> rfl
theorem c3_arg13 : StableHlo.after hostOps3 W (Proc.devRef .tc main_arg13) = W (Proc.devRef .tc main_arg13) := by
  after_results_simp <;> rfl
theorem c3_arg14 : StableHlo.after hostOps3 W (Proc.devRef .tc main_arg14) = W (Proc.devRef .tc main_arg14) := by
  after_results_simp <;> rfl
theorem c3_arg15 : StableHlo.after hostOps3 W (Proc.devRef .tc main_arg15) = W (Proc.devRef .tc main_arg15) := by
  after_results_simp <;> rfl
theorem c3_arg17 : StableHlo.after hostOps3 W (Proc.devRef .tc main_arg17) = W (Proc.devRef .tc main_arg17) := by
  after_results_simp <;> rfl

/-! ## Stretch 4 -/

theorem o4_v84 : StableHlo.after hostOps4 W (Proc.devRef .tc main_v84) = RChain.aggP (W (Proc.devRef .tc main_v3)) (W (Proc.devRef .tc main_v24)) (W (Proc.devRef .tc main_v65)) := by
  after_results_simp <;> rfl
theorem o4_v85 : StableHlo.after hostOps4 W (Proc.devRef .tc main_v85) = shapeCast S1x16 (W (Proc.devRef .tc main_arg12)) shapeCasts_S16_S1x16 := by
  after_results_simp <;> rfl
theorem o4_v86 : StableHlo.after hostOps4 W (Proc.devRef .tc main_v86) = shapeCast S1x3 (W (Proc.devRef .tc main_arg14)) shapeCasts_S3_S1x3 := by
  after_results_simp <;> rfl
theorem c4_v76 : StableHlo.after hostOps4 W (Proc.devRef .tc main_v76) = W (Proc.devRef .tc main_v76) := by
  after_results_simp <;> rfl
theorem c4_arg11 : StableHlo.after hostOps4 W (Proc.devRef .tc main_arg11) = W (Proc.devRef .tc main_arg11) := by
  after_results_simp <;> rfl
theorem c4_arg13 : StableHlo.after hostOps4 W (Proc.devRef .tc main_arg13) = W (Proc.devRef .tc main_arg13) := by
  after_results_simp <;> rfl

end Cert.Bridge.KOps

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibJoinedAxis.lean ====
/-
  Matrix products over a joined axis, at the ideal values.  When the columns of the left factor are two or three pieces
  laid side by side, [x | y]·W or [x | y | z]·W, the product is the sum of the pieces' products with the matching blocks
  of consecutive rows of W: a finite sum over a joined index range is the sum of the sums over its pieces, which on the
  extended reals uses only that addition is commutative and associative (no finiteness).  With it: a block of
  consecutive rows of a matrix as a function of the index and as what a unit-stride host slice cuts out, a vector recast
  as a one-row matrix, and that a row of a product depends on that row of the left factor only.
-/
import proofs.«165703_j19224273617422_2_alg».proof.Proof.LibMatmul
import Idealize.ShloMosaic.Lib.Pipeline.Value

noncomputable section

open scoped BigOperators

namespace Cert.LibJoinedAxis

open Idealize.ShloMosaic Idealize.ShloMosaic.ValueIdx Cert.LibMatmul

/-- Rows `off, …, off + K' - 1` of a matrix with `K` rows. -/
def rowsAt {K B : Nat} (off K' : Nat) (h : off + K' ≤ K) (w : (⟨2, ![K, B]⟩ : Shape).Idx → EReal) :
    (⟨2, ![K', B]⟩ : Shape).Idx → EReal :=
  fun i => w (ix2 ⟨off + (i 0).val, by have := idx2_lt0 i; omega⟩ (i 1))

theorem rowsAt_apply {K B : Nat} (off K' : Nat) (h : off + K' ≤ K) (w : (⟨2, ![K, B]⟩ : Shape).Idx → EReal)
    (k : Fin K') (q : Fin B) : rowsAt off K' h w (ix2 k q) = w (ix2 ⟨off + k.val, by have := k.isLt; omega⟩ q) := rfl

/-- Rows `off, …, off + K' - 1` of a matrix, all columns, are what a unit-stride slice at offset (off, 0) cuts out. -/
theorem slice_rows {K B K' : Nat} (off : Nat) (w : (⟨2, ![K, B]⟩ : Shape).Idx → EReal)
    (h : (⟨2, ![K, B]⟩ : Shape).Slices ![off, 0] ⟨2, ![K', B]⟩) (hle : off + K' ≤ K) :
    extractStridedSlice ⟨2, ![K', B]⟩ ![off, 0] w h = rowsAt off K' hle w := by
  funext i
  obtain ⟨k, q, rfl⟩ : ∃ (k : Fin K') (q : Fin B), i = ix2 k q := ⟨i 0, i 1, eq_ix2 i⟩
  rw [rowsAt_apply]
  refine extractStridedSlice_apply ![off, 0] w h (ix2 k q) (ix2 ⟨off + k.val, by have := k.isLt; omega⟩ q) (fun a => ?_)
  match a with
  | ⟨0, _⟩ => rfl
  | ⟨1, _⟩ => show q.val = 0 + q.val; omega

/-- A vector recast as a one-row matrix reads the vector at the column. -/
theorem reshape_row {B : Nat} (v : (⟨1, ![B]⟩ : Shape).Idx → EReal)
    (h : (⟨1, ![B]⟩ : Shape).ShapeCasts ⟨2, ![1, B]⟩) :
    shapeCast ⟨2, ![1, B]⟩ v h = fun i => v (ix1 (i 1)) := by
  funext i
  refine shapeCast_apply v h i (ix1 (i 1)) ?_
  rewrite [Shape.rowMajor_val_one, Shape.rowMajor_val_two]
  have h0 : (i 0).val < 1 := idx2_lt0 i
  have h00 : (i 0).val = 0 := by omega
  show (i 1).val = (i 0).val * B + (i 1).val
  rw [h00]; omega

/-- A row of a matrix product depends on that row of the left factor only. -/
theorem MM_row {A A' K B : Nat} (x : (⟨2, ![A, K]⟩ : Shape).Idx → EReal) (x' : (⟨2, ![A', K]⟩ : Shape).Idx → EReal)
    (w : (⟨2, ![K, B]⟩ : Shape).Idx → EReal) (p : Fin A) (p' : Fin A') (q : Fin B)
    (hx : ∀ k : Fin K, x (ix2 p k) = x' (ix2 p' k)) : MM x w (ix2 p q) = MM x' w (ix2 p' q) := by
  rw [MM_apply, MM_apply]
  exact Finset.sum_congr rfl fun k _ => by rw [hx k]

/-! ## A sum over a joined index range is the sum of the sums over its pieces -/

theorem sum_two {M : Type} [AddCommMonoid M] (a b : Nat) (f : Fin (a + b) → M) :
    ∑ k : Fin (a + b), f k
      = ∑ k : Fin a, f ⟨0 + k.val, by have := k.isLt; omega⟩ + ∑ k : Fin b, f ⟨a + k.val, by have := k.isLt; omega⟩ := by
  rw [Fin.sum_univ_add]
  refine congrArg₂ (· + ·) ?_ ?_ <;> refine Finset.sum_congr rfl fun k _ => congrArg f (Fin.ext ?_)
  · show k.val = 0 + k.val; omega
  · rfl

theorem sum_three {M : Type} [AddCommMonoid M] (a b c : Nat) (f : Fin (a + b + c) → M) :
    ∑ k : Fin (a + b + c), f k
      = (∑ k : Fin a, f ⟨0 + k.val, by have := k.isLt; omega⟩ + ∑ k : Fin b, f ⟨a + k.val, by have := k.isLt; omega⟩)
        + ∑ k : Fin c, f ⟨a + b + k.val, by have := k.isLt; omega⟩ := by
  rw [Fin.sum_univ_add, Fin.sum_univ_add]
  refine congrArg₂ (· + ·) (congrArg₂ (· + ·) ?_ ?_) ?_ <;> refine Finset.sum_congr rfl fun k _ => congrArg f (Fin.ext ?_)
  · show k.val = 0 + k.val; omega
  · rfl
  · rfl

/-! ## The product of a matrix whose columns are pieces laid side by side -/

/-- [x | y]·W = x·(the first `a` rows of W) + y·(the next `b` rows), at row `p` and column `q`; the joined matrix enters
    only through its row `p` read at a column of each piece. -/
theorem MM_join2 {E a b B : Nat} (cat : (⟨2, ![E, a + b]⟩ : Shape).Idx → EReal) (x : (⟨2, ![E, a]⟩ : Shape).Idx → EReal)
    (y : (⟨2, ![E, b]⟩ : Shape).Idx → EReal) (w : (⟨2, ![a + b, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k)) :
    MM cat w (ix2 p q)
      = MM x (rowsAt 0 a (by omega) w) (ix2 p q) + MM y (rowsAt a b (by omega) w) (ix2 p q) := by
  rw [MM_apply, MM_apply, MM_apply]
  refine (sum_two a b (fun k : Fin (a + b) => cat (ix2 p k) * w (ix2 k q))).trans ?_
  refine congrArg₂ (· + ·) ?_ ?_
  · exact Finset.sum_congr rfl fun k _ => by rw [rowsAt_apply]; exact congrArg (· * _) (h0 k)
  · exact Finset.sum_congr rfl fun k _ => by rw [rowsAt_apply]; exact congrArg (· * _) (h1 k)

/-- [x | y | z]·W = x·(the first `a` rows of W) + y·(the next `b` rows) + z·(the last `c` rows), the three products added
    left to right. -/
theorem MM_join3 {E a b c B : Nat} (cat : (⟨2, ![E, a + b + c]⟩ : Shape).Idx → EReal) (x : (⟨2, ![E, a]⟩ : Shape).Idx → EReal)
    (y : (⟨2, ![E, b]⟩ : Shape).Idx → EReal) (z : (⟨2, ![E, c]⟩ : Shape).Idx → EReal)
    (w : (⟨2, ![a + b + c, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k))
    (h2 : ∀ k : Fin c, cat (ix2 p ⟨a + b + k.val, by have := k.isLt; omega⟩) = z (ix2 p k)) :
    MM cat w (ix2 p q)
      = (MM x (rowsAt 0 a (by omega) w) (ix2 p q) + MM y (rowsAt a b (by omega) w) (ix2 p q))
        + MM z (rowsAt (a + b) c (by omega) w) (ix2 p q) := by
  rw [MM_apply, MM_apply, MM_apply, MM_apply]
  refine (sum_three a b c (fun k : Fin (a + b + c) => cat (ix2 p k) * w (ix2 k q))).trans ?_
  refine congrArg₂ (· + ·) (congrArg₂ (· + ·) ?_ ?_) ?_
  · exact Finset.sum_congr rfl fun k _ => by rw [rowsAt_apply]; exact congrArg (· * _) (h0 k)
  · exact Finset.sum_congr rfl fun k _ => by rw [rowsAt_apply]; exact congrArg (· * _) (h1 k)
  · exact Finset.sum_congr rfl fun k _ => by rw [rowsAt_apply]; exact congrArg (· * _) (h2 k)

end Cert.LibJoinedAxis

end
-- ==== Proof.Spec.lean ====
/-
  The five dense stages of the two-layer graph convolution, as functions of whole arrays on the extended reals.
  A stage is built from three pieces: an affine map of the rows (a matrix product plus a bias row added to every row),
  the positive part entry by entry, and the edge transform a·Wa + e·Wb + c·Wc + bias of three row-aligned matrices —
  which is the affine map of the joined matrix [a | e | c] against the stacked weights, because a sum over a joined
  index range is the sum of the sums over its pieces.
-/
import proofs.«165703_j19224273617422_2_alg».proof.Proof.LibMatmul
import proofs.«165703_j19224273617422_2_alg».proof.Proof.LibJoinedAxis

noncomputable section

open scoped BigOperators

namespace Cert.Bridge.Spec

open Idealize.ShloMosaic Idealize.ShloMosaic.ValueIdx Cert.LibMatmul Cert.LibJoinedAxis

/-- An A-by-B matrix of extended reals. -/
abbrev Mat (A B : Nat) : Type := (⟨2, ![A, B]⟩ : Shape).Idx → EReal
/-- A vector of B extended reals. -/
abbrev Vc (B : Nat) : Type := (⟨1, ![B]⟩ : Shape).Idx → EReal

/-- A vector laid out as a one-row matrix. -/
def row {B : Nat} (v : Vc B) : Mat 1 B := fun i => v (ix1 (i 1))

/-- x·w with the one-row matrix b added to every row. -/
def lin {A K B : Nat} (x : Mat A K) (w : Mat K B) (b : Mat 1 B) : Mat A B :=
  fun i => MM x w i + b (ix2 0 (i 1))

/-- The positive part, entry by entry. -/
def relu {A B : Nat} (y : Mat A B) : Mat A B := fun i => max (y i) 0

/-- a·wa + e·wb + c·wc (added left to right) with the one-row matrix b added to every row. -/
def edge {E H D B : Nat} (a : Mat E H) (e : Mat E D) (c : Mat E H) (wa : Mat H B) (wb : Mat D B) (wc : Mat H B)
    (b : Mat 1 B) : Mat E B :=
  fun i => ((MM a wa i + MM e wb i) + MM c wc i) + b (ix2 0 (i 1))

theorem lin_apply {A K B : Nat} (x : Mat A K) (w : Mat K B) (b : Mat 1 B) (p : Fin A) (q : Fin B) :
    lin x w b (ix2 p q) = MM x w (ix2 p q) + b (ix2 0 q) := rfl

theorem relu_apply {A B : Nat} (y : Mat A B) (i : (⟨2, ![A, B]⟩ : Shape).Idx) : relu y i = max (y i) 0 := rfl

theorem edge_apply {E H D B : Nat} (a : Mat E H) (e : Mat E D) (c : Mat E H) (wa : Mat H B) (wb : Mat D B)
    (wc : Mat H B) (b : Mat 1 B) (p : Fin E) (q : Fin B) :
    edge a e c wa wb wc b (ix2 p q)
      = ((MM a wa (ix2 p q) + MM e wb (ix2 p q)) + MM c wc (ix2 p q)) + b (ix2 0 q) := rfl

theorem row_apply {B : Nat} (v : Vc B) (u : Fin 1) (q : Fin B) : row v (ix2 u q) = v (ix1 q) := rfl

end Cert.Bridge.Spec

end
-- ==== Proof.Reg0.lean ====
/-
  The first dense stage on the device: the node features, cut into ten blocks of 10000 rows, each block times the
  3-by-16 weights with the bias row added to every row.  A block of the result is the same affine map of that block
  of rows, because a row of a matrix product depends on that row of the left factor only; the ten blocks tile the
  100000 rows, so the whole result is the affine map of the whole node array.
-/
import proofs.«165703_j19224273617422_2_alg».proof.Proof.Gen.KernelIdeal.Frame
import proofs.«165703_j19224273617422_2_alg».proof.Proof.Spec
import proofs.«165703_j19224273617422_2_alg».proof.Proof.LibMatmul
import proofs.«165703_j19224273617422_2_alg».proof.Proof.LibJoinedAxis
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge.Reg0

open Cert.KernelIdeal Cert.KernelIdeal.Gen Idealize.ShloMosaic Idealize.ShloMosaic.TcCoe Idealize.ShloMosaic.ValueIdx
open Idealize.ShloMosaic.Pipeline (Dat)
open Cert.LibMatmul Cert.LibJoinedAxis Cert.Bridge

/-- One block's payload: the block of rows times the weights, plus the bias row added to every row. -/
theorem pay_eq (x0 : Vec Ideal S10000x3 .f32) (x1 : Vec Ideal S3x16 .f32) (x2 : Vec Ideal S1x16 .f32) :
    k0_pay1 (F := Ideal) x0 x1 x2 = Spec.lin (A := 10000) (K := 3) (B := 16) x0 x1 x2 := by
  funext j
  obtain ⟨p, q, rfl⟩ : ∃ (p : Fin 10000) (q : Fin 16), j = ix2 p q := ⟨j 0, j 1, eq_ix2 j⟩
  unfold k0_pay1
  rw [Spec.lin_apply]
  refine congrArg₂ (· + ·) ?_ ?_
  · exact congrFun (matmul_zero_eq dot_S10000x3_S3x16_S10000x16_1_0_0_1_n_n rfl rfl rfl rfl rfl rfl none _ _) (ix2 p q)
  · rw [shapeCast_self]
    exact broadcastTo_1b_ab_apply x2 _ p q

theorem hz : (![0, 0] : Fin 2 → Nat) = fun _ => 0 := funext fun a => by fin_cases a <;> rfl

/-- One whole-block store of the payload over whole-block loads leaves the payload of the blocks themselves. -/
theorem out_eq (x0 : Vec Ideal S10000x3 .f32) (x1 : Vec Ideal S3x16 .f32) (x2 : Vec Ideal S1x16 .f32) :
    out0_3 (F := Ideal) x0 x1 x2 = Spec.lin (A := 10000) (K := 3) (B := 16) x0 x1 x2 := by
  unfold out0_3
  rw [View.canon_unit_zero hz]
  simp only [View.ld_unit_zero (S := S10000x3) hz, View.ld_unit_zero (S := S3x16) hz, View.ld_unit_zero (S := S1x16) hz]
  exact pay_eq x0 x1 x2

/-- A block of rows of the affine map is the affine map of that block of rows: row p of the block is row P of the
    array, and the weights and the bias row are the whole arrays. -/
theorem lin_rows (X : Spec.Mat 100000 3) (W : Spec.Mat 3 16) (Bv : Spec.Mat 1 16)
    (x0 : Spec.Mat 10000 3) (x1 : Spec.Mat 3 16) (x2 : Spec.Mat 1 16)
    (p : Fin 10000) (P : Fin 100000) (q : Fin 16)
    (h0 : ∀ k : Fin 3, x0 (ix2 p k) = X (ix2 P k)) (h1 : x1 = W) (h2 : x2 = Bv) :
    Spec.lin x0 x1 x2 (ix2 p q) = Spec.lin X W Bv (ix2 P q) := by
  subst h1 h2
  rw [Spec.lin_apply, Spec.lin_apply]
  exact congrArg (· + _) (MM_row x0 X x1 p P q h0)

/-- The block indices at point t: the node rows and the result sit at block (t, 0), the weights and the bias row at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point t writes back is block t of the affine map of the whole arrays: the block of node rows at t is rows
    10000·t … 10000·t + 9999 of the node array, the weight and bias blocks are their whole arrays, and a row of the
    product depends on that row of the left factor only. -/
theorem flushed_eq (c : Dev nD) (t : Fin cfg0.N) :
    (dat0 (F := Ideal) V c).flushed 3 t
      = ((cfg0.win 3).blk t).view.read (Elt Ideal)
          (Spec.lin (A := 100000) (K := 3) (B := 16) (V c main_arg0) (V c main_arg3) (V c main_v28)) := by
  show (cfg0.win 3).cut (grid0.coords t) ((dat0 (F := Ideal) V c).after 3 t) = _
  rw [after0_3, out_eq]
  obtain ⟨e00, e01, e10, e11, e20, e21, e30, e31⟩ := idx_facts t
  have hN : cfg0.N = 10 := N_0
  have ht : t.val < 10 := hN ▸ t.isLt
  funext j
  have hj0 : (j 0).val < 10000 := (j 0).isLt
  have hj1 : (j 1).val < 16 := (j 1).isLt
  have h1 : (iblk0 V c 1 t : Spec.Mat 3 16) = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 3 + 1 * (y 0).val = (y 0).val; rw [e10]; omega
    | ⟨1, _⟩ => show win0_1.index t (1 : Fin 2) * 16 + 1 * (y 1).val = (y 1).val; rw [e11]; omega
  have h2 : (iblk0 V c 2 t : Spec.Mat 1 16) = V c main_v28 := by
    funext y
    show V c main_v28 (((cfg0.win 2).blk t).view.emb y) = V c main_v28 y
    refine congrArg _ (funext fun a => Fin.ext ?_)
    match a with
    | ⟨0, _⟩ => show win0_2.index t (0 : Fin 2) * 1 + 1 * (y 0).val = (y 0).val; rw [e20]; omega
    | ⟨1, _⟩ => show win0_2.index t (1 : Fin 2) * 16 + 1 * (y 1).val = (y 1).val; rw [e21]; omega
  have h0 : ∀ k : Fin 3, (iblk0 V c 0 t : Spec.Mat 10000 3) (ix2 (⟨(j 0).val, hj0⟩ : Fin 10000) k)
      = V c main_arg0 (ix2 (⟨t.val * 10000 + (j 0).val, by omega⟩ : Fin 100000) k) := by
    intro k
    show V c main_arg0 (((cfg0.win 0).blk t).view.emb (ix2 (⟨(j 0).val, hj0⟩ : Fin 10000) k)) = _
    refine congrArg _ (funext fun a => Fin.ext ?_)
    match a with
    | ⟨0, _⟩ => show win0_0.index t (0 : Fin 2) * 10000 + 1 * (j 0).val = t.val * 10000 + (j 0).val; rw [e00]; omega
    | ⟨1, _⟩ => show win0_0.index t (1 : Fin 2) * 3 + 1 * k.val = k.val; rw [e01]; omega
  refine Eq.trans ?_ ((lin_rows (V c main_arg0) (V c main_arg3) (V c main_v28) (iblk0 V c 0 t) (iblk0 V c 1 t) (iblk0 V c 2 t)
    ⟨(j 0).val, hj0⟩ ⟨t.val * 10000 + (j 0).val, by omega⟩ ⟨(j 1).val, hj1⟩ h0 h1 h2).trans ?_)
  · show Spec.lin (A := 10000) (K := 3) (B := 16) (iblk0 V c 0 t) (iblk0 V c 1 t) (iblk0 V c 2 t) ((cfg0.win 3).xinj (grid0.coords t) j) = _
    refine congrArg _ (funext fun a => ?_)
    match a with
    | ⟨0, _⟩ => rfl
    | ⟨1, _⟩ => rfl
  · show _ = Spec.lin (A := 100000) (K := 3) (B := 16) (V c main_arg0) (V c main_arg3) (V c main_v28) (((cfg0.win 3).blk t).view.emb j)
    refine congrArg _ (funext fun a => Fin.ext ?_)
    match a with
    | ⟨0, _⟩ => show t.val * 10000 + (j 0).val = win0_3.index t (0 : Fin 2) * 10000 + 1 * (j 0).val; rw [e30]; omega
    | ⟨1, _⟩ => show (j 1).val = win0_3.index t (1 : Fin 2) * 16 + 1 * (j 1).val; rw [e31]; omega

/-- An index of the output array is in point t's block iff each coordinate is in the block's range on its axis. -/
theorem mem_blk (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v29).slice (win0_3.rect t)).set ↔ _
  rw [View.set_slice_whole, Rect.mem_set_unit]
  exact Iff.rfl

/-- Every row r of the output is written by the point r / 10000. -/
theorem cover (i : S100000x16.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 16 := (i 1).isLt
  refine ⟨⟨(i 0).val / 10000, by rw [hN]; omega⟩, flush0_3 _, ?_⟩
  obtain ⟨-, -, -, -, -, -, e30, e31⟩ := idx_facts ⟨(i 0).val / 10000, by rw [hN]; omega⟩
  rw [mem_blk]
  intro a
  match a with
  | ⟨0, _⟩ =>
    show win0_3.index _ (0 : Fin 2) * 10000 ≤ (i 0).val ∧ (i 0).val < win0_3.index _ (0 : Fin 2) * 10000 + 10000
    rw [e30]; show (i 0).val / 10000 * 10000 ≤ (i 0).val ∧ (i 0).val < (i 0).val / 10000 * 10000 + 10000; omega
  | ⟨1, _⟩ =>
    show win0_3.index _ (1 : Fin 2) * 16 ≤ (i 1).val ∧ (i 1).val < win0_3.index _ (1 : Fin 2) * 16 + 16
    rw [e31]; omega

/-- After all ten points the output array is the affine map of the node array: every row is covered, and each point
    writes its block of that one function. -/
theorem final0 (c : Dev nD) :
    (dat0 (F := Ideal) V c).arrAt 3 cfg0.N
      = Spec.lin (A := 100000) (K := 3) (B := 16) (V c main_arg0) (V c main_arg3) (V c main_v28) :=
  (dat0 (F := Ideal) V c).arrAt_eq_of_cover 3 _ (fun t _ => flushed_eq V c t) cover

end

end Cert.Bridge.Reg0

end
-- ==== Proof.Reg1.lean ====
/-
  The first layer's edge stage as the kernel computes it, block of rows by block of rows, is the edge stage of the whole
  arrays.  The grid has 500 points; point t works on rows 6400·t … 6400·t + 6399 of the three row-aligned matrices
  a (16 columns), e (3 columns) and c (16 columns) and on the whole of the three weight matrices and the bias row, and
  writes rows 6400·t … 6400·t + 6399 of the result: a·Wa + e·Wb + c·Wc added left to right, the bias row added to every
  row, then the positive part.  A row of a matrix product depends on that row of the left factor only, so the block a
  point writes is the restriction of the one whole-array function to its rows; the 500 blocks cover all 3200000 rows
  (row r lies in the block of point r / 6400), so after the last point the result array is that function.
-/
import proofs.«165703_j19224273617422_2_alg».proof.Proof.Gen.KernelIdeal.Frame
import proofs.«165703_j19224273617422_2_alg».proof.Proof.Spec
import proofs.«165703_j19224273617422_2_alg».proof.Proof.LibMatmul
import proofs.«165703_j19224273617422_2_alg».proof.Proof.LibJoinedAxis
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge.Reg1

open Cert.KernelIdeal Cert.KernelIdeal.Gen
open Idealize.ShloMosaic Idealize.ShloMosaic.ValueIdx Idealize.ShloMosaic.TcCoe
open Cert.LibMatmul Cert.LibJoinedAxis Cert.Bridge
open Idealize.ShloMosaic.Pipeline (Dat)

/-- The body's arithmetic on one block of rows: the three products added left to right, the bias row added to every
    row, then the positive part. -/
theorem pay_eq (x0 : Vec Ideal S6400x16 .f32) (x1 : Vec Ideal S6400x3 .f32) (x2 : Vec Ideal S6400x16 .f32)
    (x3 : Vec Ideal S16x16 .f32) (x4 : Vec Ideal S3x16 .f32) (x5 : Vec Ideal S16x16 .f32) (x6 : Vec Ideal S1x16 .f32) :
    k1_pay1 (F := Ideal) x0 x1 x2 x3 x4 x5 x6
      = Spec.relu (Spec.edge (E := 6400) (H := 16) (D := 3) (B := 16) x0 x1 x2 x3 x4 x5 x6) := by
  funext j
  obtain ⟨p, q, rfl⟩ : ∃ (p : Fin 6400) (q : Fin 16), j = ix2 p q := ⟨j 0, j 1, eq_ix2 j⟩
  unfold k1_pay1
  simp only [shapeCast_self, matmul]
  rw [Spec.relu_apply, Spec.edge_apply]
  rw [matmul_zero_eq dot_S6400x16_S16x16_S6400x16_1_0_0_1_n_n rfl rfl rfl rfl rfl rfl,
    matmul_zero_eq dot_S6400x3_S3x16_S6400x16_1_0_0_1_n_n rfl rfl rfl rfl rfl rfl,
    matmul_zero_eq dot_S6400x16_S16x16_S6400x16_1_0_0_1_n_n rfl rfl rfl rfl rfl rfl]
  have hb : broadcastTo S6400x16 x6 broadcasts_S1x16_S6400x16 (ix2 p q) = x6 (ix2 (0 : Fin 1) q) :=
    broadcastTo_1b_ab_apply x6 broadcasts_S1x16_S6400x16 p q
  have hz : (FloatOps.ofBits (F := Ideal) .f32 0x00000000#32) = (0 : EReal) := Ideal.ofBits_zero_f32
  show max (((MM _ _ (ix2 p q) + MM _ _ (ix2 p q)) + MM _ _ (ix2 p q))
      + broadcastTo S6400x16 x6 broadcasts_S1x16_S6400x16 (ix2 p q)) (FloatOps.ofBits (F := Ideal) .f32 0x00000000#32) = _
  rw [hb, hz]
  rfl

/-- The zero offset on both axes. -/
theorem hz : (![0, 0] : Fin 2 → Nat) = fun _ => 0 := funext fun a => by fin_cases a <;> rfl

/-- The block index of every operand at grid point t: the three row-blocked operands and the result sit at block row t,
    block column 0; the three weight matrices and the bias row are whole, at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

variable (V : (c : Dev nD) → (b : Ref sig .tc) → Buf (Elt Ideal) ((c : Thread nD τ).loc b))

/-- A block of the first row-blocked operand at point t, read at (p, k), is the array at (6400·t + p, k). -/
theorem blk0_apply (c : Dev nD) (t : Fin cfg1.N) (p : Fin 6400) (k : Fin 16) (P : Fin 3200000)
    (hP : P.val = t.val * 6400 + p.val) :
    (iblk1 (F := Ideal) V c 0 t : Vec Ideal S6400x16 .f32) (ix2 p k)
      = (V c main_v36 : Vec Ideal S3200000x16 .f32) (ix2 P k) := by
  obtain ⟨⟨e0, e1⟩, -⟩ := idx_facts t
  unfold iblk1
  rw [View.read_apply]
  show V c main_v36 _ = V c main_v36 _
  refine congrArg (V c main_v36) (funext fun a => Fin.ext ?_)
  match a with
  | ⟨0, _⟩ => show win1_0.index t (0 : Fin 2) * 6400 + 1 * p.val = P.val; rw [e0, hP]; omega
  | ⟨1, _⟩ => show win1_0.index t (1 : Fin 2) * 16 + 1 * k.val = k.val; rw [e1]; omega

/-- The first weight matrix is read whole at every point. -/
theorem blk3_eq (c : Dev nD) (t : Fin cfg1.N) :
    (iblk1 (F := Ideal) V c 3 t : Vec Ideal S16x16 .f32) = (V c main_v25 : Vec Ideal S16x16 .f32) := by
  obtain ⟨-, -, -, ⟨e0, e1⟩, -⟩ := idx_facts t
  funext y
  unfold iblk1
  rw [View.read_apply]
  show V c main_v25 _ = V c main_v25 y
  refine congrArg (V c main_v25) (funext fun a => Fin.ext ?_)
  match a with
  | ⟨0, _⟩ => show win1_3.index t (0 : Fin 2) * 16 + 1 * (y 0).val = (y 0).val; rw [e0]; omega
  | ⟨1, _⟩ => show win1_3.index t (1 : Fin 2) * 16 + 1 * (y 1).val = (y 1).val; rw [e1]; omega

/-- A block of the second row-blocked operand at point t, read at (p, k), is the array at (6400·t + p, k). -/
theorem blk1_apply (c : Dev nD) (t : Fin cfg1.N) (p : Fin 6400) (k : Fin 3) (P : Fin 3200000)
    (hP : P.val = t.val * 6400 + p.val) :
    (iblk1 (F := Ideal) V c 1 t : Vec Ideal S6400x3 .f32) (ix2 p k)
      = (V c main_arg1 : Vec Ideal S3200000x3 .f32) (ix2 P k) := by
  obtain ⟨-, ⟨e0, e1⟩, -⟩ := idx_facts t
  unfold iblk1
  rw [View.read_apply]
  show V c main_arg1 _ = V c main_arg1 _
  refine congrArg (V c main_arg1) (funext fun a => Fin.ext ?_)
  match a with
  | ⟨0, _⟩ => show win1_1.index t (0 : Fin 2) * 6400 + 1 * p.val = P.val; rw [e0, hP]; omega
  | ⟨1, _⟩ => show win1_1.index t (1 : Fin 2) * 3 + 1 * k.val = k.val; rw [e1]; omega

/-- A block of the third row-blocked operand at point t, read at (p, k), is the array at (6400·t + p, k). -/
theorem blk2_apply (c : Dev nD) (t : Fin cfg1.N) (p : Fin 6400) (k : Fin 16) (P : Fin 3200000)
    (hP : P.val = t.val * 6400 + p.val) :
    (iblk1 (F := Ideal) V c 2 t : Vec Ideal S6400x16 .f32) (ix2 p k)
      = (V c main_v43 : Vec Ideal S3200000x16 .f32) (ix2 P k) := by
  obtain ⟨-, -, ⟨e0, e1⟩, -⟩ := idx_facts t
  unfold iblk1
  rw [View.read_apply]
  show V c main_v43 _ = V c main_v43 _
  refine congrArg (V c main_v43) (funext fun a => Fin.ext ?_)
  match a with
  | ⟨0, _⟩ => show win1_2.index t (0 : Fin 2) * 6400 + 1 * p.val = P.val; rw [e0, hP]; omega
  | ⟨1, _⟩ => show win1_2.index t (1 : Fin 2) * 16 + 1 * k.val = k.val; rw [e1]; omega

/-- The second weight matrix is read whole at every point. -/
theorem blk4_eq (c : Dev nD) (t : Fin cfg1.N) :
    (iblk1 (F := Ideal) V c 4 t : Vec Ideal S3x16 .f32) = (V c main_v26 : Vec Ideal S3x16 .f32) := by
  obtain ⟨-, -, -, -, ⟨e0, e1⟩, -⟩ := idx_facts t
  funext y
  unfold iblk1
  rw [View.read_apply]
  show V c main_v26 _ = V c main_v26 y
  refine congrArg (V c main_v26) (funext fun a => Fin.ext ?_)
  match a with
  | ⟨0, _⟩ => show win1_4.index t (0 : Fin 2) * 3 + 1 * (y 0).val = (y 0).val; rw [e0]; omega
  | ⟨1, _⟩ => show win1_4.index t (1 : Fin 2) * 16 + 1 * (y 1).val = (y 1).val; rw [e1]; omega

/-- The third weight matrix is read whole at every point. -/
theorem blk5_eq (c : Dev nD) (t : Fin cfg1.N) :
    (iblk1 (F := Ideal) V c 5 t : Vec Ideal S16x16 .f32) = (V c main_v27 : Vec Ideal S16x16 .f32) := by
  obtain ⟨-, -, -, -, -, ⟨e0, e1⟩, -⟩ := idx_facts t
  funext y
  unfold iblk1
  rw [View.read_apply]
  show V c main_v27 _ = V c main_v27 y
  refine congrArg (V c main_v27) (funext fun a => Fin.ext ?_)
  match a with
  | ⟨0, _⟩ => show win1_5.index t (0 : Fin 2) * 16 + 1 * (y 0).val = (y 0).val; rw [e0]; omega
  | ⟨1, _⟩ => show win1_5.index t (1 : Fin 2) * 16 + 1 * (y 1).val = (y 1).val; rw [e1]; omega

/-- The bias row is read whole at every point. -/
theorem blk6_eq (c : Dev nD) (t : Fin cfg1.N) :
    (iblk1 (F := Ideal) V c 6 t : Vec Ideal S1x16 .f32) = (V c main_v44 : Vec Ideal S1x16 .f32) := by
  obtain ⟨-, -, -, -, -, -, ⟨e0, e1⟩, -⟩ := idx_facts t
  funext y
  unfold iblk1
  rw [View.read_apply]
  show V c main_v44 _ = V c main_v44 y
  refine congrArg (V c main_v44) (funext fun a => Fin.ext ?_)
  match a with
  | ⟨0, _⟩ => show win1_6.index t (0 : Fin 2) * 1 + 1 * (y 0).val = (y 0).val; rw [e0]; omega
  | ⟨1, _⟩ => show win1_6.index t (1 : Fin 2) * 16 + 1 * (y 1).val = (y 1).val; rw [e1]; omega

/-- A row of the edge transform depends on that row of each of the three row-aligned matrices only: when row p of
    the blocks is row P of the arrays, entry (p, q) computed from the blocks is entry (P, q) computed from the arrays. -/
theorem edge_row {E E' : Nat} (b0 : Spec.Mat E' 16) (b1 : Spec.Mat E' 3) (b2 : Spec.Mat E' 16)
    (A0 : Spec.Mat E 16) (A1 : Spec.Mat E 3) (A2 : Spec.Mat E 16)
    (w0 : Spec.Mat 16 16) (w1 : Spec.Mat 3 16) (w2 : Spec.Mat 16 16) (b : Spec.Mat 1 16)
    (p : Fin E') (P : Fin E) (q : Fin 16)
    (h0 : ∀ k : Fin 16, b0 (ix2 p k) = A0 (ix2 P k)) (h1 : ∀ k : Fin 3, b1 (ix2 p k) = A1 (ix2 P k))
    (h2 : ∀ k : Fin 16, b2 (ix2 p k) = A2 (ix2 P k)) :
    Spec.relu (Spec.edge b0 b1 b2 w0 w1 w2 b) (ix2 p q) = Spec.relu (Spec.edge A0 A1 A2 w0 w1 w2 b) (ix2 P q) := by
  rw [Spec.relu_apply, Spec.relu_apply, Spec.edge_apply, Spec.edge_apply,
    MM_row b0 A0 w0 p P q h0, MM_row b1 A1 w1 p P q h1, MM_row b2 A2 w2 p P q h2]

/-- The edge stage of the whole arrays as the region finds them. -/
abbrev G (c : Dev nD) : Spec.Mat 3200000 16 :=
  Spec.relu (Spec.edge (E := 3200000) (H := 16) (D := 3) (B := 16) (V c main_v36) (V c main_arg1) (V c main_v43)
    (V c main_v25) (V c main_v26) (V c main_v27) (V c main_v44))

/-- What point t writes back is block t of the edge stage of the whole arrays. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S6400x16) hz, View.ld_unit_zero (S := S6400x3) hz, View.ld_unit_zero (S := S16x16) hz,
    View.ld_unit_zero (S := S3x16) hz, View.ld_unit_zero (S := S1x16) hz]
  rw [pay_eq, blk3_eq, blk4_eq, blk5_eq, blk6_eq]
  refine funext fun (j : S6400x16.Idx) => ?_
  obtain ⟨p, q, rfl⟩ : ∃ (p : Fin 6400) (q : Fin 16), j = ix2 p q := ⟨j 0, j 1, eq_ix2 j⟩
  have hN : cfg1.N = 500 := N_1
  have hP : t.val * 6400 + p.val < 3200000 := by have := t.isLt; have := p.isLt; omega
  have hemb : ((cfg1.win 7).blk t).view.emb (ix2 p q) = ix2 (⟨t.val * 6400 + p.val, hP⟩ : Fin 3200000) q := by
    obtain ⟨-, -, -, -, -, -, -, ⟨e0, e1⟩⟩ := idx_facts t
    funext a; apply Fin.ext
    match a with
    | ⟨0, _⟩ => show win1_7.index t (0 : Fin 2) * 6400 + 1 * p.val = t.val * 6400 + p.val; rw [e0]; omega
    | ⟨1, _⟩ => show win1_7.index t (1 : Fin 2) * 16 + 1 * q.val = q.val; rw [e1]; omega
  show Spec.relu (Spec.edge (iblk1 V c 0 t) (iblk1 V c 1 t) (iblk1 V c 2 t) (V c main_v25) (V c main_v26) (V c main_v27)
      (V c main_v44)) (ix2 p q) = G V c (((cfg1.win 7).blk t).view.emb (ix2 p q))
  rw [hemb]
  exact edge_row _ _ _ _ _ _ _ _ _ _ p ⟨t.val * 6400 + p.val, hP⟩ q (fun k => blk0_apply V c t p k _ rfl)
    (fun k => blk1_apply V c t p k _ rfl) (fun k => blk2_apply V c t p k _ rfl)

/-- An index of the array is in point t's block iff each coordinate is in the block's range on its axis. -/
theorem mem_blk (t : Fin cfg1.N) (i : S3200000x16.Idx) :
    i ∈ ((cfg1.win 7).blk t).view.set ↔ ∀ a : Fin 2, win1_7.index t a * S6400x16.size a ≤ (i a).val
      ∧ (i a).val < win1_7.index t a * S6400x16.size a + S6400x16.size a := by
  show i ∈ ((View.whole main_v45).slice (win1_7.rect t)).set ↔ _
  rw [View.set_slice_whole, Rect.mem_set_unit]
  exact Iff.rfl

/-- Row r of the array lies in the block of point r / 6400, and every point writes back. -/
theorem cover (i : S3200000x16.Idx) :
    ∃ t : Fin cfg1.N, (cfg1.win 7).flush t = true ∧ i ∈ ((cfg1.win 7).blk t).view.set := by
  have hN : cfg1.N = 500 := N_1
  have hi0 : (i 0).val < 3200000 := (i 0).isLt
  have hi1 : (i 1).val < 16 := (i 1).isLt
  obtain ⟨t, ht⟩ : ∃ t : Fin cfg1.N, t.val = (i 0).val / 6400 := ⟨⟨(i 0).val / 6400, by rw [hN]; omega⟩, rfl⟩
  obtain ⟨-, -, -, -, -, -, -, ⟨e0, e1⟩⟩ := idx_facts t
  refine ⟨t, flush1_7 t, ?_⟩
  rw [mem_blk]
  intro a
  match a with
  | ⟨0, _⟩ =>
    show win1_7.index t (0 : Fin 2) * 6400 ≤ (i 0).val ∧ (i 0).val < win1_7.index t (0 : Fin 2) * 6400 + 6400
    rw [e0, ht]; omega
  | ⟨1, _⟩ =>
    show win1_7.index t (1 : Fin 2) * 16 ≤ (i 1).val ∧ (i 1).val < win1_7.index t (1 : Fin 2) * 16 + 16
    rw [e1]; omega

/-- After all the grid points have written back, the output array is the edge stage of the whole arrays as the
    region finds them: every block written is the restriction of that one function, and the blocks cover the rows. -/
theorem final1 (V : (c : Dev nD) → (b : Ref sig .tc) → Buf (Elt Ideal) ((c : Thread nD τ).loc b)) (c : Dev nD) :
    (dat1 (F := Ideal) V c).arrAt 7 cfg1.N
      = Spec.relu (Spec.edge (E := 3200000) (H := 16) (D := 3) (B := 16) (V c main_v36) (V c main_arg1) (V c main_v43)
          (V c main_v25) (V c main_v26) (V c main_v27) (V c main_v44)) :=
  (dat1 (F := Ideal) V c).arrAt_eq_of_cover 7 (G V c) (fun t _ => flushed_eq V c t) cover

end Cert.Bridge.Reg1

end
-- ==== Proof.Reg2.lean ====
/-
  Region 2 of the two-layer graph convolution: the second dense layer's affine map, h·W + b, computed block by
  block over ten blocks of 10000 rows.  On one block the body multiplies the block of rows by the whole weight
  matrix and adds the bias row to every row; a row of a product depends on that row of the left factor only, so
  the block of the output at grid point t is rows 10000·t, …, 10000·t + 9999 of the whole-array affine map, and
  the ten blocks tile the 100000 rows.
-/
import proofs.«165703_j19224273617422_2_alg».proof.Proof.Gen.KernelIdeal.Frame
import proofs.«165703_j19224273617422_2_alg».proof.Proof.Spec
import proofs.«165703_j19224273617422_2_alg».proof.Proof.LibMatmul
import proofs.«165703_j19224273617422_2_alg».proof.Proof.LibJoinedAxis
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.Reg2

open Cert.KernelIdeal Cert.KernelIdeal.Gen Idealize.ShloMosaic Idealize.ShloMosaic.TcCoe Idealize.SL.Sem
open Idealize.ShloMosaic.ValueIdx Cert.LibMatmul Cert.LibJoinedAxis Cert.Bridge
open Idealize.ShloMosaic.Pipeline (Dat)

/-- The body's arithmetic on one block of 10000 rows: the block times the weights, plus the bias row on every row. -/
theorem pay_eq (x0 : Vec Ideal S10000x16 .f32) (x1 : Vec Ideal S16x16 .f32) (x2 : Vec Ideal S1x16 .f32) :
    k2_pay1 (F := Ideal) x0 x1 x2 = Spec.lin (A := 10000) (K := 16) (B := 16) x0 x1 x2 := by
  funext j
  obtain ⟨p, q, rfl⟩ : ∃ (p : Fin 10000) (q : Fin 16), j = ix2 p q := ⟨j 0, j 1, eq_ix2 j⟩
  unfold k2_pay1
  rw [Spec.lin_apply]
  refine congrArg₂ (· + ·) ?_ ?_
  · refine (congrFun (matmul_zero_eq dot_S10000x16_S16x16_S10000x16_1_0_0_1_n_n rfl rfl rfl rfl rfl rfl none _ _) (ix2 p q)).trans ?_
    rw [shapeCast_self]
    rfl
  · refine (broadcastTo_1b_ab_apply _ broadcasts_S1x16_S10000x16 p q).trans ?_
    rw [shapeCast_self]

/-- The affine map of a block of rows is the matching rows of the affine map of the whole array: entry (j₀, j₁) of the
    block's result is entry (i₀, i₁) of the whole result when row j₀ of the block is row i₀ of the array, the columns
    agree, and the weights and the bias row are the same. -/
theorem lin_rows (X : Spec.Mat 100000 16) (W : Spec.Mat 16 16) (Bv : Spec.Mat 1 16)
    (x0 : Spec.Mat 10000 16) (x1 : Spec.Mat 16 16) (x2 : Spec.Mat 1 16)
    (p : Fin 10000) (q : Fin 16) (r : Fin 100000)
    (h0 : ∀ k : Fin 16, x0 (ix2 p k) = X (ix2 r k)) (h1 : x1 = W) (h2 : x2 = Bv) :
    Spec.lin x0 x1 x2 (ix2 p q) = Spec.lin X W Bv (ix2 r q) := by
  subst h1 h2
  rw [Spec.lin_apply, Spec.lin_apply]
  exact congrArg (· + x2 (ix2 0 q)) (MM_row x0 X x1 p r q h0)

theorem zeros : (![0, 0] : Fin 2 → Nat) = fun _ => 0 := funext fun a => by fin_cases a <;> rfl

/-- The printed index maps over the ten grid points: the row-blocked windows (the input rows and the output) sit at
    block (t, 0); the weights and the bias row are whole, at block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks
variable (V : (c : Dev nD) → (b : Ref sig .tc) → Buf (Elt Ideal) ((c : Thread nD τ).loc b))

/-- The input rows' block at point t is rows 10000·t, … of the array of rows. -/
theorem rows_block (c : Dev nD) (t : Fin cfg2.N) (y : S10000x16.Idx) (i : S100000x16.Idx)
    (h0 : (i 0).val = t.val * 10000 + (y 0).val) (h1 : (i 1).val = (y 1).val) :
    (iblk2 (F := Ideal) V c 0 t : Vec Ideal S10000x16 .f32) y = (V c main_v53 : S100000x16.Idx → EReal) i := by
  obtain ⟨e0, e1, -⟩ := index_facts t
  unfold iblk2
  rw [View.read_apply]
  show V c main_v53 _ = V c main_v53 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 16 + 1 * (y 1).val = (i 1).val; rw [e1, h1]; omega

/-- The weights' block at every point is the whole weight matrix. -/
theorem weights_block (c : Dev nD) (t : Fin cfg2.N) :
    (iblk2 (F := Ideal) V c 1 t : Vec Ideal S16x16 .f32) = (V c main_arg7 : S16x16.Idx → EReal) := by
  obtain ⟨-, -, e0, e1, -⟩ := index_facts t
  funext y
  unfold iblk2
  rw [View.read_apply]
  show V c main_arg7 _ = V c main_arg7 _
  congr 1
  funext a
  apply Fin.ext
  match a with
  | ⟨0, _⟩ => show win2_1.index t (0 : Fin 2) * 16 + 1 * (y 0).val = (y 0).val; rw [e0]; omega
  | ⟨1, _⟩ => show win2_1.index t (1 : Fin 2) * 16 + 1 * (y 1).val = (y 1).val; rw [e1]; omega

/-- The bias row's block at every point is the whole one-row matrix. -/
theorem bias_block (c : Dev nD) (t : Fin cfg2.N) :
    (iblk2 (F := Ideal) V c 2 t : Vec Ideal S1x16 .f32) = (V c main_v57 : S1x16.Idx → EReal) := by
  obtain ⟨-, -, -, -, e0, e1, -⟩ := index_facts t
  funext y
  unfold iblk2
  rw [View.read_apply]
  show V c main_v57 _ = V c main_v57 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 16 + 1 * (y 1).val = (y 1).val; rw [e1]; omega

/-- What grid point t writes back is block t of the affine map of the whole arrays. -/
theorem flushed_eq (c : Dev nD) (t : Fin cfg2.N) :
    (dat2 (F := Ideal) V c).flushed 3 t
      = ((cfg2.win 3).blk t).view.read (Elt Ideal)
          (Spec.lin (A := 100000) (K := 16) (B := 16) (V c main_v53) (V c main_arg7) (V c main_v57)) := by
  show (cfg2.win 3).cut (grid2.coords t) ((dat2 V c).after 3 t) = _
  rw [after2_3]
  unfold out2_3
  rw [View.canon_unit_zero zeros]
  simp only [View.ld_unit_zero (S := S10000x16) zeros, View.ld_unit_zero (S := S16x16) zeros, View.ld_unit_zero (S := S1x16) zeros]
  rw [pay_eq]
  obtain ⟨-, -, -, -, -, -, e0, e1⟩ := index_facts t
  funext j
  have hj0 : (j 0).val < 10000 := (j 0).isLt
  have hr : t.val * 10000 + (j 0).val < 100000 := by have := t.isLt; have hN : cfg2.N = 10 := N_2; omega
  refine (lin_rows (V c main_v53) (V c main_arg7) (V c main_v57) (iblk2 V c 0 t) (iblk2 V c 1 t) (iblk2 V c 2 t)
    (j 0) (j 1) ⟨t.val * 10000 + (j 0).val, hr⟩ (fun k => ?_) (weights_block V c t) (bias_block V c t)).trans ?_
  · exact rows_block V c t (ix2 (j 0) k) (ix2 ⟨t.val * 10000 + (j 0).val, hr⟩ k) rfl rfl
  · rw [View.read_apply]
    refine congrArg (Spec.lin (A := 100000) (K := 16) (B := 16) (V c main_v53) (V c main_arg7) (V c main_v57)) ?_
    funext a
    apply Fin.ext
    match a with
    | ⟨0, _⟩ => show t.val * 10000 + (j 0).val = win2_3.index t (0 : Fin 2) * 10000 + 1 * (j 0).val; rw [e0]; omega
    | ⟨1, _⟩ => show (j 1).val = win2_3.index t (1 : Fin 2) * 16 + 1 * (j 1).val; rw [e1]; omega

/-- An index of the output array is in point t's block iff each coordinate is in the block's range on its axis. -/
theorem mem_blk (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v58).slice (win2_3.rect t)).set ↔ _
  rw [View.set_slice_whole, Rect.mem_set_unit]
  exact Iff.rfl

/-- Every index of the output array is written back by some point: row r by point r / 10000. -/
theorem covered (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 10 := N_2
  have ht : (i 0).val / 10000 < cfg2.N := by rw [hN]; omega
  obtain ⟨-, -, -, -, -, -, e0, e1⟩ := index_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_3.index ⟨(i 0).val / 10000, ht⟩ (1 : Fin 2) * 16 ≤ (i 1).val ∧ (i 1).val < win2_3.index ⟨(i 0).val / 10000, ht⟩ (1 : Fin 2) * 16 + 16
    rw [e1]
    omega

/-- After all ten points have written back, the output array is the affine map of the arrays the region found:
    the rows times the weights, plus the bias row on every row. -/
theorem final2 (c : Dev nD) :
    (dat2 (F := Ideal) V c).arrAt 3 cfg2.N
      = Spec.lin (A := 100000) (K := 16) (B := 16) (V c main_v53) (V c main_arg7) (V c main_v57) :=
  (dat2 (F := Ideal) V c).arrAt_eq_of_cover 3 _ (fun t _ => flushed_eq V c t) covered

end Blocks

end Cert.Bridge.Reg2

end
-- ==== Proof.Reg3.lean ====
/-
  The fused edge stage on the extended reals.  On a block of 6400 consecutive rows the body computes
  relu(relu(a·Wa + e·Wb + c·Wc + b)·W1 + b1)·W2 + b2 of the same 6400 rows of a, e and c and of the whole weight
  and bias arrays.  A row of a matrix product depends on that row of the left factor only, so each block written
  back is the block of ONE function of the whole arrays; the 500 blocks tile the 3200000 rows (row r lies in block
  r / 6400), so the output array ends holding that function.
-/
import proofs.«165703_j19224273617422_2_alg».proof.Proof.Gen.KernelIdeal.Frame
import proofs.«165703_j19224273617422_2_alg».proof.Proof.Spec
import proofs.«165703_j19224273617422_2_alg».proof.Proof.LibMatmul
import proofs.«165703_j19224273617422_2_alg».proof.Proof.LibJoinedAxis
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge.Reg3

open Cert.KernelIdeal Cert.KernelIdeal.Gen
open Idealize.ShloMosaic Idealize.ShloMosaic.ValueIdx Idealize.ShloMosaic.TcCoe Idealize.SL.Sem
open Idealize.ShloMosaic.Pipeline (Dat)
open Cert.LibMatmul Cert.LibJoinedAxis Cert.Bridge

/-! ## The body's arithmetic on one block -/

/-- A product of a 6400-row block with a 16-by-16 matrix into the zero accumulator is the matrix product. -/
theorem mm16 {φ₁ φ₂ : FTy} (x : FVec Ideal S6400x16 φ₁) (w : FVec Ideal S16x16 φ₂) :
    matmul dot_S6400x16_S16x16_S6400x16_1_0_0_1_n_n none x w (constant S6400x16 .f32 0x00000000#32) = MM x w :=
  matmul_zero_eq _ rfl rfl rfl rfl rfl rfl none x w

/-- The same for the 16-by-3 matrix. -/
theorem mm3 {φ₁ φ₂ : FTy} (x : FVec Ideal S6400x16 φ₁) (w : FVec Ideal S16x3 φ₂) :
    matmul dot_S6400x16_S16x3_S6400x3_1_0_0_1_n_n none x w (constant S6400x3 .f32 0x00000000#32) = MM x w :=
  matmul_zero_eq _ rfl rfl rfl rfl rfl rfl none x w

/-- The scalar zero word is 0. -/
theorem zero_word : (FloatOps.ofBits (F := Ideal) .f32 0x00000000#32 : EReal) = 0 := Ideal.ofBits_zero_f32

/-- The second product of the stage on a block: the relu'd edge transform of the block's rows times W1. -/
theorem pay2_eq (x0 x1 x2 : Vec Ideal S6400x16 .f32) (x3 x4 x5 : Vec Ideal S16x16 .f32) (x6 : Vec Ideal S1x16 .f32)
    (x7 : Vec Ideal S16x16 .f32) :
    k3_pay2 (F := Ideal) x0 x1 x2 x3 x4 x5 x6 x7 = MM (Spec.relu (Spec.edge x0 x1 x2 x3 x4 x5 x6)) x7 := by
  unfold k3_pay2
  dsimp only
  simp only [shapeCast_self]
  rw [mm16, mm16, mm16, mm16]
  refine congrArg (fun z => MM z x7) ?_
  funext j
  obtain ⟨p, q, rfl⟩ : ∃ (p : Fin 6400) (q : Fin 16), j = ix2 p q := ⟨j 0, j 1, eq_ix2 j⟩
  rw [Spec.relu_apply, Spec.edge_apply]
  show max (((MM x0 x3 (ix2 p q) + MM x1 x4 (ix2 p q)) + MM x2 x5 (ix2 p q)) + broadcastTo S6400x16 x6 broadcasts_S1x16_S6400x16 (ix2 p q))
      (FloatOps.ofBits (F := Ideal) .f32 0x00000000#32) = _
  rw [broadcastTo_1b_ab_apply, zero_word]

/-- The first bias on a block: the one-row block's entry at the column, on every row. -/
theorem pay3_eq (x8 : Vec Ideal S1x16 .f32) :
    k3_pay3 (F := Ideal) x8 = fun i => x8 (ix2 (0 : Fin 1) (i 1)) := by
  unfold k3_pay3
  dsimp only
  simp only [shapeCast_self]
  funext j
  obtain ⟨p, q, rfl⟩ : ∃ (p : Fin 6400) (q : Fin 16), j = ix2 p q := ⟨j 0, j 1, eq_ix2 j⟩
  exact broadcastTo_1b_ab_apply x8 _ p q

/-- The block's result: relu of the sum of the two, times W2, plus the second bias row. -/
theorem pay1_eq (v32 v35 : FVec Ideal S6400x16 .f32) (x9 : Vec Ideal S16x3 .f32) (x10 : Vec Ideal S1x3 .f32) :
    k3_pay1 (F := Ideal) v32 v35 x9 x10 = Spec.lin (Spec.relu (fun i => v32 i + v35 i)) x9 x10 := by
  unfold k3_pay1
  dsimp only
  simp only [shapeCast_self]
  rw [mm3]
  funext j
  obtain ⟨p, q, rfl⟩ : ∃ (p : Fin 6400) (q : Fin 3), j = ix2 p q := ⟨j 0, j 1, eq_ix2 j⟩
  rw [Spec.lin_apply]
  show MM _ x9 (ix2 p q) + broadcastTo S6400x3 x10 broadcasts_S1x3_S6400x3 (ix2 p q) = _
  rw [broadcastTo_1b_ab_apply]
  refine congrArg (· + _) ?_
  refine MM_row _ _ x9 p p q fun k => ?_
  rw [Spec.relu_apply]
  show max (v32 (ix2 p k) + v35 (ix2 p k)) (FloatOps.ofBits (F := Ideal) .f32 0x00000000#32) = _
  rw [zero_word]

/-- The whole body on a block, as the stage's function of the block's rows. -/
theorem pay_eq (x0 x1 x2 : Vec Ideal S6400x16 .f32) (x3 x4 x5 : Vec Ideal S16x16 .f32) (x6 : Vec Ideal S1x16 .f32)
    (x7 : Vec Ideal S16x16 .f32) (x8 : Vec Ideal S1x16 .f32) (x9 : Vec Ideal S16x3 .f32) (x10 : Vec Ideal S1x3 .f32) :
    k3_pay1 (F := Ideal) (k3_pay2 x0 x1 x2 x3 x4 x5 x6 x7) (k3_pay3 x8) x9 x10
      = Spec.lin (Spec.relu (Spec.lin (Spec.relu (Spec.edge x0 x1 x2 x3 x4 x5 x6)) x7 x8)) x9 x10 := by
  rw [pay1_eq, pay2_eq, pay3_eq]
  rfl

/-! ## From blocks to the array -/

theorem hz : (![0, 0] : Fin 2 → Nat) = fun _ => 0 := funext fun a => by fin_cases a <;> rfl

/-- A row of the stage's result depends on that row of the three row-aligned inputs only. -/
theorem stage_row {E E' : Nat} (a e c : Spec.Mat E 16) (a' e' c' : Spec.Mat E' 16) (wa wb wc : Spec.Mat 16 16)
    (b : Spec.Mat 1 16) (w1 : Spec.Mat 16 16) (b1 : Spec.Mat 1 16) (w2 : Spec.Mat 16 3) (b2 : Spec.Mat 1 3)
    (p : Fin E) (p' : Fin E') (q : Fin 3)
    (ha : ∀ k : Fin 16, a (ix2 p k) = a' (ix2 p' k)) (he : ∀ k : Fin 16, e (ix2 p k) = e' (ix2 p' k))
    (hc : ∀ k : Fin 16, c (ix2 p k) = c' (ix2 p' k)) :
    Spec.lin (Spec.relu (Spec.lin (Spec.relu (Spec.edge a e c wa wb wc b)) w1 b1)) w2 b2 (ix2 p q)
      = Spec.lin (Spec.relu (Spec.lin (Spec.relu (Spec.edge a' e' c' wa wb wc b)) w1 b1)) w2 b2 (ix2 p' q) := by
  rw [Spec.lin_apply, Spec.lin_apply]
  refine congrArg (· + _) (MM_row _ _ w2 p p' q fun k => ?_)
  rw [Spec.relu_apply, Spec.relu_apply, Spec.lin_apply, Spec.lin_apply]
  refine congrArg (fun z => max (z + _) 0) (MM_row _ _ w1 p p' k fun k' => ?_)
  rw [Spec.relu_apply, Spec.relu_apply, Spec.edge_apply, Spec.edge_apply,
    MM_row a a' wa p p' k' ha, MM_row e e' wb p p' k' he, MM_row c c' wc p p' k' hc]

/-- The index maps over the grid: the three row-aligned inputs and the output move with the point along the rows,
    every other window stays on its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = t.val ∧ win3_11.index t (1 : Fin 2) = 0 :=
  (by decide +kernel : ∀ t : Fin grid3.N, _)

section Blocks
variable (V : (c : Dev nD) → (b : Ref sig .tc) → Buf (Elt Ideal) ((c : Thread nD τ).loc b))

/-- Window 0's block at point t holds rows 6400·t, …, 6400·t + 6399 of its array. -/
theorem blk0 (c : Dev nD) (t : Fin cfg3.N) (p : Fin 6400) (k : Fin 16) (P : Fin 3200000) (hP : P.val = t.val * 6400 + p.val) :
    (iblk3 V c 0 t : Vec Ideal S6400x16 .f32) (ix2 p k) = (V c main_v65 : Vec Ideal S3200000x16 .f32) (ix2 P k) := by
  obtain ⟨e0a, e0b, e1a, e1b, e2a, e2b, e3a, e3b, e4a, e4b, e5a, e5b, e6a, e6b, e7a, e7b, e8a, e8b, e9a, e9b, e10a, e10b, e11a, e11b⟩ := idx_facts t
  show V c main_v65 (((cfg3.win 0).blk t).view.emb (ix2 p k)) = V c main_v65 (ix2 P k)
  refine congrArg _ (funext fun a => Fin.ext ?_)
  match a with
  | ⟨0, _⟩ => show win3_0.index t (0 : Fin 2) * 6400 + 1 * p.val = P.val; omega
  | ⟨1, _⟩ => show win3_0.index t (1 : Fin 2) * 16 + 1 * k.val = k.val; omega

/-- Window 1's block at point t holds rows 6400·t, …, 6400·t + 6399 of its array. -/
theorem blk1 (c : Dev nD) (t : Fin cfg3.N) (p : Fin 6400) (k : Fin 16) (P : Fin 3200000) (hP : P.val = t.val * 6400 + p.val) :
    (iblk3 V c 1 t : Vec Ideal S6400x16 .f32) (ix2 p k) = (V c main_v45 : Vec Ideal S3200000x16 .f32) (ix2 P k) := by
  obtain ⟨e0a, e0b, e1a, e1b, e2a, e2b, e3a, e3b, e4a, e4b, e5a, e5b, e6a, e6b, e7a, e7b, e8a, e8b, e9a, e9b, e10a, e10b, e11a, e11b⟩ := idx_facts t
  show V c main_v45 (((cfg3.win 1).blk t).view.emb (ix2 p k)) = V c main_v45 (ix2 P k)
  refine congrArg _ (funext fun a => Fin.ext ?_)
  match a with
  | ⟨0, _⟩ => show win3_1.index t (0 : Fin 2) * 6400 + 1 * p.val = P.val; omega
  | ⟨1, _⟩ => show win3_1.index t (1 : Fin 2) * 16 + 1 * k.val = k.val; omega

/-- Window 2's block at point t holds rows 6400·t, …, 6400·t + 6399 of its array. -/
theorem blk2 (c : Dev nD) (t : Fin cfg3.N) (p : Fin 6400) (k : Fin 16) (P : Fin 3200000) (hP : P.val = t.val * 6400 + p.val) :
    (iblk3 V c 2 t : Vec Ideal S6400x16 .f32) (ix2 p k) = (V c main_v72 : Vec Ideal S3200000x16 .f32) (ix2 P k) := by
  obtain ⟨e0a, e0b, e1a, e1b, e2a, e2b, e3a, e3b, e4a, e4b, e5a, e5b, e6a, e6b, e7a, e7b, e8a, e8b, e9a, e9b, e10a, e10b, e11a, e11b⟩ := idx_facts t
  show V c main_v72 (((cfg3.win 2).blk t).view.emb (ix2 p k)) = V c main_v72 (ix2 P k)
  refine congrArg _ (funext fun a => Fin.ext ?_)
  match a with
  | ⟨0, _⟩ => show win3_2.index t (0 : Fin 2) * 6400 + 1 * p.val = P.val; omega
  | ⟨1, _⟩ => show win3_2.index t (1 : Fin 2) * 16 + 1 * k.val = k.val; omega

/-- Window 3's block at every point is its whole array. -/
theorem blk3 (c : Dev nD) (t : Fin cfg3.N) :
    (iblk3 V c 3 t : Vec Ideal S16x16 .f32) = (V c main_v54 : Vec Ideal S16x16 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_v54 (((cfg3.win 3).blk t).view.emb y) = V c main_v54 y
  refine congrArg _ (funext fun a => Fin.ext ?_)
  match a with
  | ⟨0, _⟩ => show win3_3.index t (0 : Fin 2) * 16 + 1 * (y 0).val = (y 0).val; omega
  | ⟨1, _⟩ => show win3_3.index t (1 : Fin 2) * 16 + 1 * (y 1).val = (y 1).val; omega

/-- Window 4's block at every point is its whole array. -/
theorem blk4 (c : Dev nD) (t : Fin cfg3.N) :
    (iblk3 V c 4 t : Vec Ideal S16x16 .f32) = (V c main_v55 : Vec Ideal S16x16 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_v55 (((cfg3.win 4).blk t).view.emb y) = V c main_v55 y
  refine congrArg _ (funext fun a => Fin.ext ?_)
  match a with
  | ⟨0, _⟩ => show win3_4.index t (0 : Fin 2) * 16 + 1 * (y 0).val = (y 0).val; omega
  | ⟨1, _⟩ => show win3_4.index t (1 : Fin 2) * 16 + 1 * (y 1).val = (y 1).val; omega

/-- Window 5's block at every point is its whole array. -/
theorem blk5 (c : Dev nD) (t : Fin cfg3.N) :
    (iblk3 V c 5 t : Vec Ideal S16x16 .f32) = (V c main_v56 : Vec Ideal S16x16 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_v56 (((cfg3.win 5).blk t).view.emb y) = V c main_v56 y
  refine congrArg _ (funext fun a => Fin.ext ?_)
  match a with
  | ⟨0, _⟩ => show win3_5.index t (0 : Fin 2) * 16 + 1 * (y 0).val = (y 0).val; omega
  | ⟨1, _⟩ => show win3_5.index t (1 : Fin 2) * 16 + 1 * (y 1).val = (y 1).val; omega

/-- Window 6's block at every point is its whole array. -/
theorem blk6 (c : Dev nD) (t : Fin cfg3.N) :
    (iblk3 V c 6 t : Vec Ideal S1x16 .f32) = (V c main_v73 : Vec Ideal S1x16 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_v73 (((cfg3.win 6).blk t).view.emb y) = V c main_v73 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 16 + 1 * (y 1).val = (y 1).val; omega

/-- Window 7's block at every point is its whole array. -/
theorem blk7 (c : Dev nD) (t : Fin cfg3.N) :
    (iblk3 V c 7 t : Vec Ideal S16x16 .f32) = (V c main_arg15 : Vec Ideal S16x16 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_arg15 (((cfg3.win 7).blk t).view.emb y) = V c main_arg15 y
  refine congrArg _ (funext fun a => Fin.ext ?_)
  match a with
  | ⟨0, _⟩ => show win3_7.index t (0 : Fin 2) * 16 + 1 * (y 0).val = (y 0).val; omega
  | ⟨1, _⟩ => show win3_7.index t (1 : Fin 2) * 16 + 1 * (y 1).val = (y 1).val; omega

/-- Window 8's block at every point is its whole array. -/
theorem blk8 (c : Dev nD) (t : Fin cfg3.N) :
    (iblk3 V c 8 t : Vec Ideal S1x16 .f32) = (V c main_v74 : Vec Ideal S1x16 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_v74 (((cfg3.win 8).blk t).view.emb y) = V c main_v74 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 16 + 1 * (y 1).val = (y 1).val; omega

/-- Window 9's block at every point is its whole array. -/
theorem blk9 (c : Dev nD) (t : Fin cfg3.N) :
    (iblk3 V c 9 t : Vec Ideal S16x3 .f32) = (V c main_arg17 : Vec Ideal S16x3 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_arg17 (((cfg3.win 9).blk t).view.emb y) = V c main_arg17 y
  refine congrArg _ (funext fun a => Fin.ext ?_)
  match a with
  | ⟨0, _⟩ => show win3_9.index t (0 : Fin 2) * 16 + 1 * (y 0).val = (y 0).val; omega
  | ⟨1, _⟩ => show win3_9.index t (1 : Fin 2) * 3 + 1 * (y 1).val = (y 1).val; omega

/-- Window 10's block at every point is its whole array. -/
theorem blk10 (c : Dev nD) (t : Fin cfg3.N) :
    (iblk3 V c 10 t : Vec Ideal S1x3 .f32) = (V c main_v75 : Vec Ideal S1x3 .f32) := by
  obtain ⟨e0a, e0b, e1a, e1b, e2a, e2b, e3a, e3b, e4a, e4b, e5a, e5b, e6a, e6b, e7a, e7b, e8a, e8b, e9a, e9b, e10a, e10b, e11a, e11b⟩ := idx_facts t
  funext y
  show V c main_v75 (((cfg3.win 10).blk t).view.emb y) = V c main_v75 y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 3 + 1 * (y 1).val = (y 1).val; omega

/-- The stage's function of the whole arrays as they stand when the stage starts. -/
abbrev G (c : Dev nD) : Spec.Mat 3200000 3 :=
  Spec.lin (Spec.relu (Spec.lin (Spec.relu (Spec.edge (E := 3200000) (H := 16) (D := 16) (B := 16) (V c main_v65) (V c main_v45) (V c main_v72) (V c main_v54) (V c main_v55) (V c main_v56) (V c main_v73))) (V c main_arg15) (V c main_v74))) (V c main_arg17) (V c main_v75)

/-- What point t writes back is block t of the stage's function of the whole arrays. -/
theorem flushed_eq (c : Dev nD) (t : Fin cfg3.N) :
    (dat3 (F := Ideal) V c).flushed 11 t = ((cfg3.win 11).blk t).view.read (Elt Ideal) (G V c) := by
  show (cfg3.win 11).cut (grid3.coords t) ((dat3 (F := Ideal) V c).after 11 t) = _
  rw [after3_11]
  unfold out3_11
  rw [View.canon_unit_zero hz]
  simp only [View.ld_unit_zero (S := S6400x16) hz, View.ld_unit_zero (S := S16x16) hz, View.ld_unit_zero (S := S1x16) hz,
    View.ld_unit_zero (S := S16x3) hz, View.ld_unit_zero (S := S1x3) hz]
  rw [pay_eq, blk3 V c t, blk4 V c t, blk5 V c t, blk6 V c t, blk7 V c t, blk8 V c t, blk9 V c t, blk10 V c t]
  obtain ⟨e0a, e0b, e1a, e1b, e2a, e2b, e3a, e3b, e4a, e4b, e5a, e5b, e6a, e6b, e7a, e7b, e8a, e8b, e9a, e9b, e10a, e10b, e11a, e11b⟩ := idx_facts t
  have hN : cfg3.N = 500 := N_3
  have ht : t.val < 500 := hN ▸ t.isLt
  funext j
  obtain ⟨p, q, rfl⟩ : ∃ (p : Fin 6400) (q : Fin 3), j = ix2 p q := ⟨j 0, j 1, eq_ix2 j⟩
  have hP : t.val * 6400 + p.val < 3200000 := by have := p.isLt; omega
  have hemb : ((cfg3.win 11).blk t).view.emb (ix2 p q) = ix2 (⟨t.val * 6400 + p.val, hP⟩ : Fin 3200000) q := by
    funext a; apply Fin.ext
    match a with
    | ⟨0, _⟩ => show win3_11.index t (0 : Fin 2) * 6400 + 1 * p.val = t.val * 6400 + p.val; omega
    | ⟨1, _⟩ => show win3_11.index t (1 : Fin 2) * 3 + 1 * q.val = q.val; omega
  show _ = G V c (((cfg3.win 11).blk t).view.emb (ix2 p q))
  rw [hemb]
  exact stage_row (iblk3 V c 0 t) (iblk3 V c 1 t) (iblk3 V c 2 t) (V c main_v65) (V c main_v45) (V c main_v72)
    (V c main_v54) (V c main_v55) (V c main_v56) (V c main_v73) (V c main_arg15) (V c main_v74) (V c main_arg17) (V c main_v75)
    p ⟨t.val * 6400 + p.val, hP⟩ q (fun k => blk0 V c t p k _ rfl) (fun k => blk1 V c t p k _ rfl) (fun k => blk2 V c t p k _ rfl)

/-- An index of the output array is in point t's block iff each coordinate is in the block's range on its axis. -/
theorem mem_blk (t : Fin cfg3.N) (i : S3200000x3.Idx) :
    i ∈ ((cfg3.win 11).blk t).view.set ↔ ∀ a : Fin 2, win3_11.index t a * S6400x3.size a ≤ (i a).val ∧ (i a).val < win3_11.index t a * S6400x3.size a + S6400x3.size a := by
  show i ∈ ((View.whole main_v76).slice (win3_11.rect t)).set ↔ _
  rw [View.set_slice_whole, Rect.mem_set_unit]
  exact Iff.rfl

/-- Row r of the output is in the block of point r / 6400, and every point writes back. -/
theorem cover (i : S3200000x3.Idx) : ∃ t : Fin cfg3.N, (cfg3.win 11).flush t = true ∧ i ∈ ((cfg3.win 11).blk t).view.set := by
  have hi0 : (i 0).val < 3200000 := (i 0).isLt
  have hi1 : (i 1).val < 3 := (i 1).isLt
  have hN : cfg3.N = 500 := N_3
  obtain ⟨t, ht⟩ : ∃ t : Fin cfg3.N, t.val = (i 0).val / 6400 := ⟨⟨(i 0).val / 6400, by rw [hN]; omega⟩, rfl⟩
  obtain ⟨e0a, e0b, e1a, e1b, e2a, e2b, e3a, e3b, e4a, e4b, e5a, e5b, e6a, e6b, e7a, e7b, e8a, e8b, e9a, e9b, e10a, e10b, e11a, e11b⟩ := idx_facts t
  refine ⟨t, flush3_11 t, ?_⟩
  rw [mem_blk]
  intro a
  match a with
  | ⟨0, _⟩ => show win3_11.index t (0 : Fin 2) * 6400 ≤ (i 0).val ∧ (i 0).val < win3_11.index t (0 : Fin 2) * 6400 + 6400; omega
  | ⟨1, _⟩ => show win3_11.index t (1 : Fin 2) * 3 ≤ (i 1).val ∧ (i 1).val < win3_11.index t (1 : Fin 2) * 3 + 3; omega

/-- The output array after all 500 points have written back is the stage's function of the whole arrays as they
    stand when the stage starts. -/
theorem final3 (c : Dev nD) :
    (dat3 (F := Ideal) V c).arrAt 11 cfg3.N
      = Spec.lin (Spec.relu (Spec.lin (Spec.relu (Spec.edge (E := 3200000) (H := 16) (D := 16) (B := 16) (V c main_v65) (V c main_v45) (V c main_v72) (V c main_v54) (V c main_v55) (V c main_v56) (V c main_v73))) (V c main_arg15) (V c main_v74))) (V c main_arg17) (V c main_v75) :=
  (dat3 (F := Ideal) V c).arrAt_eq_of_cover 11 (G V c) (fun t _ => flushed_eq V c t) cover

end Blocks

end Cert.Bridge.Reg3

end
-- ==== Proof.Reg4.lean ====
/-
  The node update of the second layer, as the fourth kernel computes it.  One grid point loads a block of 10000 rows of
  the node features with the two weight matrices and the two bias rows, and stores the rows times the first weights plus
  the first bias row, the positive part of that, times the second weights plus the second bias row.  A row of this
  result depends on that row of the features only, so the block written back at point t is rows 10000·t … 10000·t + 9999
  of the same map of the whole feature matrix, and the ten blocks tile the output: the output array is that map.
-/
import proofs.«165703_j19224273617422_2_alg».proof.Proof.Gen.KernelIdeal.Frame
import proofs.«165703_j19224273617422_2_alg».proof.Proof.Spec
import proofs.«165703_j19224273617422_2_alg».proof.Proof.LibMatmul
import proofs.«165703_j19224273617422_2_alg».proof.Proof.LibJoinedAxis
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge.Reg4

open Cert.KernelIdeal Cert.KernelIdeal.Gen
open Idealize.ShloMosaic Idealize.ShloMosaic.ValueIdx Idealize.ShloMosaic.TcCoe Idealize.SL.Sem
open Idealize.ShloMosaic.Pipeline (Dat)
open Cert.LibMatmul Cert.LibJoinedAxis Cert.Bridge

/-- A one-row matrix broadcast down the rows reads the row at the column. -/
private theorem rowBcast_eq {a b : Nat} (v : (⟨2, ![1, b]⟩ : Shape).Idx → EReal) (hs : (⟨2, ![1, b]⟩ : Shape).ShapeCasts ⟨2, ![1, b]⟩)
    (hb : (⟨2, ![1, b]⟩ : Shape).Broadcasts ⟨2, ![a, b]⟩) :
    broadcastTo ⟨2, ![a, b]⟩ (shapeCast ⟨2, ![1, b]⟩ v hs) hb = fun i => v (ix2 (0 : Fin 1) (i 1)) := by
  funext i
  obtain ⟨p, q, rfl⟩ : ∃ (p : Fin a) (q : Fin b), i = ix2 p q := ⟨i 0, i 1, eq_ix2 i⟩
  rw [shapeCast_self]
  exact broadcastTo_1b_ab_apply v hb p q

/-- A matrix product into the zero accumulator, after the operands' change of float format, is the product. -/
private theorem mm_eq {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![A, K]⟩ .f32) (w : FVec Ideal ⟨2, ![K, B]⟩ .f32) (h : FTy.bf16.bits < FTy.f32.bits) :
    matmul d none (truncf .bf16 x h) (truncf .bf16 w h) (constant ⟨2, ![A, B]⟩ .f32 0x00000000#32) = MM x w :=
  matmul_zero_eq d hlb hln hlc hrb hrn hrc none (truncf .bf16 x h) (truncf .bf16 w h)

/-- The body's stored value is the two-layer map of its five loaded blocks: rows times the first weights plus the first
    bias row, the positive part, times the second weights plus the second bias row. -/
theorem pay4_eq (x0 : Vec Ideal S10000x16 .f32) (x1 : Vec Ideal S16x16 .f32) (x2 : Vec Ideal S1x16 .f32)
    (x3 : Vec Ideal S16x3 .f32) (x4 : Vec Ideal S1x3 .f32) :
    k4_pay1 (F := Ideal) x0 x1 x2 x3 x4
      = Spec.lin (A := 10000) (K := 16) (B := 3) (Spec.relu (Spec.lin (A := 10000) (K := 16) (B := 16) x0 x1 x2)) x3 x4 := by
  unfold k4_pay1
  dsimp only
  rw [shapeCast_self, mm_eq dot_S10000x16_S16x16_S10000x16_1_0_0_1_n_n rfl rfl rfl rfl rfl rfl,
    mm_eq dot_S10000x16_S16x3_S10000x3_1_0_0_1_n_n rfl rfl rfl rfl rfl rfl,
    rowBcast_eq, rowBcast_eq]
  have hr : maximumf (addf (MM x0 x1) fun i => x2 (ix2 (0 : Fin 1) (i 1))) (broadcast S10000x16 (FloatOps.ofBits (F := Ideal) .f32 0x00000000#32))
      = Spec.relu (Spec.lin (A := 10000) (K := 16) (B := 16) x0 x1 x2) := by
    funext i
    show max (MM x0 x1 i + x2 (ix2 (0 : Fin 1) (i 1))) (Ideal.ofBits .f32 0x00000000#32) = max (MM x0 x1 i + x2 (ix2 0 (i 1))) 0
    rw [Ideal.ofBits_zero_f32]
  rw [hr]
  rfl

/-- A row of the two-layer map depends on that row of the input only: a matrix with the same row has the same row of
    the result, the weights and bias rows being the same. -/
theorem rowwise {A A' K H B : Nat} (X : Spec.Mat A K) (x : Spec.Mat A' K) (W1 w1 : Spec.Mat K H) (B1 b1 : Spec.Mat 1 H)
    (W2 w2 : Spec.Mat H B) (B2 b2 : Spec.Mat 1 B) (p : Fin A) (p' : Fin A') (q : Fin B)
    (hx : ∀ k : Fin K, x (ix2 p' k) = X (ix2 p k)) (hw1 : w1 = W1) (hb1 : b1 = B1) (hw2 : w2 = W2) (hb2 : b2 = B2) :
    Spec.lin (Spec.relu (Spec.lin x w1 b1)) w2 b2 (ix2 p' q) = Spec.lin (Spec.relu (Spec.lin X W1 B1)) W2 B2 (ix2 p q) := by
  subst hw1 hb1 hw2 hb2
  rw [Spec.lin_apply, Spec.lin_apply]
  refine congrArg (· + b2 (ix2 0 q)) (MM_row _ _ w2 p' p q fun h => ?_)
  rw [Spec.relu_apply, Spec.relu_apply, Spec.lin_apply, Spec.lin_apply]
  exact congrArg (fun z => max (z + b1 (ix2 0 h)) 0) (MM_row x X w1 p' p h hx)

variable (V : (c : Dev nD) → (b : Ref sig .tc) → Buf (Elt Ideal) ((c : Thread nD τ).loc b))

theorem hz : (![0, 0] : Fin 2 → Nat) = fun _ => 0 := funext fun a => by fin_cases a <;> rfl

/-- The whole output array: the two-layer map of the region's operand arrays. -/
abbrev G4 (c : Dev nD) : Spec.Mat 100000 3 :=
  Spec.lin (Spec.relu (Spec.lin (A := 100000) (K := 16) (B := 16) (V c main_v84) (V c main_arg11) (V c main_v85))) (V c main_arg13) (V c main_v86)

/-- The printed index maps over the ten grid points: the input rows and the output move together, block t at point t;
    the weights and bias rows stay at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the whole-array map: rows 10000·t … 10000·t + 9999, all three columns. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero hz]
  simp only [View.ld_unit_zero (S := S10000x16) hz, View.ld_unit_zero (S := S16x16) hz, View.ld_unit_zero (S := S1x16) hz,
    View.ld_unit_zero (S := S16x3) hz, View.ld_unit_zero (S := S1x3) hz]
  rw [pay4_eq]
  obtain ⟨e00, e01, e10, e11, e20, e21, e30, e31, e40, e41, e50, e51⟩ := idx_facts4 t
  have htN : t.val < 10 := t.isLt.trans_eq N_4
  funext j
  have hj0 : (j 0).val < 10000 := (j 0).isLt
  have hj1 : (j 1).val < 3 := (j 1).isLt
  have hL : (cfg4.win 5).xinj (grid4.coords t) j = ix2 (⟨(j 0).val, hj0⟩ : Fin 10000) (⟨(j 1).val, hj1⟩ : Fin 3) :=
    funext fun a => by match a with | ⟨0, _⟩ => rfl | ⟨1, _⟩ => rfl
  have hR : ((cfg4.win 5).blk t).view.emb j
      = ix2 (⟨t.val * 10000 + (j 0).val, by omega⟩ : Fin 100000) (⟨(j 1).val, hj1⟩ : Fin 3) := by
    funext a; apply Fin.ext
    match a with
    | ⟨0, _⟩ => show win4_5.index t (0 : Fin 2) * 10000 + 1 * (j 0).val = t.val * 10000 + (j 0).val; rw [e50]; omega
    | ⟨1, _⟩ => show win4_5.index t (1 : Fin 2) * 3 + 1 * (j 1).val = (j 1).val; rw [e51]; omega
  show Spec.lin (Spec.relu (Spec.lin (iblk4 V c 0 t) (iblk4 V c 1 t) (iblk4 V c 2 t))) (iblk4 V c 3 t) (iblk4 V c 4 t)
      ((cfg4.win 5).xinj (grid4.coords t) j) = G4 V c (((cfg4.win 5).blk t).view.emb j)
  rw [hL, hR]
  refine rowwise (A := 100000) (A' := 10000) (K := 16) (H := 16) (B := 3) (V c main_v84) (iblk4 V c 0 t) (V c main_arg11) (iblk4 V c 1 t)
    (V c main_v85) (iblk4 V c 2 t) (V c main_arg13) (iblk4 V c 3 t) (V c main_v86) (iblk4 V c 4 t)
    (⟨t.val * 10000 + (j 0).val, by omega⟩ : Fin 100000) (⟨(j 0).val, hj0⟩ : Fin 10000) (⟨(j 1).val, hj1⟩ : Fin 3) (fun k => ?_) ?_ ?_ ?_ ?_
  · show V c main_v84 (((cfg4.win 0).blk t).view.emb (ix2 (⟨(j 0).val, hj0⟩ : Fin 10000) k)) = V c main_v84 _
    refine congrArg (V c main_v84) (funext fun a => Fin.ext ?_)
    match a with
    | ⟨0, _⟩ => show win4_0.index t (0 : Fin 2) * 10000 + 1 * (j 0).val = t.val * 10000 + (j 0).val; rw [e00]; omega
    | ⟨1, _⟩ => show win4_0.index t (1 : Fin 2) * 16 + 1 * k.val = k.val; rw [e01]; omega
  · funext y
    show V c main_arg11 (((cfg4.win 1).blk t).view.emb y) = V c main_arg11 y
    refine congrArg (V c main_arg11) (funext fun a => Fin.ext ?_)
    match a with
    | ⟨0, _⟩ => show win4_1.index t (0 : Fin 2) * 16 + 1 * (y 0).val = (y 0).val; rw [e10]; omega
    | ⟨1, _⟩ => show win4_1.index t (1 : Fin 2) * 16 + 1 * (y 1).val = (y 1).val; rw [e11]; omega
  · funext y
    show V c main_v85 (((cfg4.win 2).blk t).view.emb y) = V c main_v85 y
    refine congrArg (V c main_v85) (funext fun a => Fin.ext ?_)
    match a with
    | ⟨0, _⟩ => show win4_2.index t (0 : Fin 2) * 1 + 1 * (y 0).val = (y 0).val; rw [e20]; omega
    | ⟨1, _⟩ => show win4_2.index t (1 : Fin 2) * 16 + 1 * (y 1).val = (y 1).val; rw [e21]; omega
  · funext y
    show V c main_arg13 (((cfg4.win 3).blk t).view.emb y) = V c main_arg13 y
    refine congrArg (V c main_arg13) (funext fun a => Fin.ext ?_)
    match a with
    | ⟨0, _⟩ => show win4_3.index t (0 : Fin 2) * 16 + 1 * (y 0).val = (y 0).val; rw [e30]; omega
    | ⟨1, _⟩ => show win4_3.index t (1 : Fin 2) * 3 + 1 * (y 1).val = (y 1).val; rw [e31]; omega
  · funext y
    show V c main_v86 (((cfg4.win 4).blk t).view.emb y) = V c main_v86 y
    refine congrArg (V c main_v86) (funext fun a => Fin.ext ?_)
    match a with
    | ⟨0, _⟩ => show win4_4.index t (0 : Fin 2) * 1 + 1 * (y 0).val = (y 0).val; rw [e40]; omega
    | ⟨1, _⟩ => show win4_4.index t (1 : Fin 2) * 3 + 1 * (y 1).val = (y 1).val; rw [e41]; omega

/-- A row and column of the array lie in point t's block iff, on each axis, they lie in the block's range. -/
theorem mem_blk4 (t : Fin cfg4.N) (i : S100000x3.Idx) :
    i ∈ ((cfg4.win 5).blk t).view.set ↔ ∀ a : Fin 2, win4_5.index t a * S10000x3.size a ≤ (i a).val ∧ (i a).val < win4_5.index t a * S10000x3.size a + S10000x3.size a := by
  show i ∈ ((View.whole main_v87).slice (win4_5.rect t)).set ↔ _
  rw [View.set_slice_whole, Rect.mem_set_unit]
  exact Iff.rfl

/-- Every entry of the output array is written back by some point: row r by point r / 10000. -/
theorem cover4 (i : S100000x3.Idx) :
    ∃ t : Fin cfg4.N, (cfg4.win 5).flush t = true ∧ i ∈ ((cfg4.win 5).blk t).view.set := by
  have hi0 : (i 0).val < 100000 := (i 0).isLt
  have hi1 : (i 1).val < 3 := (i 1).isLt
  obtain ⟨t, ht⟩ : ∃ t : Fin cfg4.N, t.val = (i 0).val / 10000 :=
    ⟨⟨(i 0).val / 10000, lt_of_lt_of_eq (by omega : (i 0).val / 10000 < 10) N_4.symm⟩, rfl⟩
  obtain ⟨-, -, -, -, -, -, -, -, -, -, e50, e51⟩ := idx_facts4 t
  refine ⟨t, flush4_5 t, ?_⟩
  rw [mem_blk4]
  intro a
  match a with
  | ⟨0, _⟩ =>
    show win4_5.index t (0 : Fin 2) * 10000 ≤ (i 0).val ∧ (i 0).val < win4_5.index t (0 : Fin 2) * 10000 + 10000
    rw [e50, ht]; omega
  | ⟨1, _⟩ =>
    show win4_5.index t (1 : Fin 2) * 3 ≤ (i 1).val ∧ (i 1).val < win4_5.index t (1 : Fin 2) * 3 + 3
    rw [e51]; omega

/-- After its ten points the region's output array is the two-layer map of the region's operand arrays, whatever the
    region finds in its buffers on entry. -/
theorem final4 (c : Dev nD) :
    (dat4 (F := Ideal) V c).arrAt 5 cfg4.N
      = Spec.lin (Spec.relu (Spec.lin (A := 100000) (K := 16) (B := 16) (V c main_v84) (V c main_arg11) (V c main_v85))) (V c main_arg13) (V c main_v86) :=
  (dat4 V c).arrAt_eq_of_cover 5 (G4 V c) (fun t _ => flushed4_eq V c t) cover4

end Cert.Bridge.Reg4

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.Stage0.lean ====
/-
  The first dense stage as the host computes it: the node features times the weights by one dot_general, the bias
  vector laid out as one row and repeated down every row by two broadcasts, and their sum — the affine map of the
  rows, x·w with the bias row added to every row.
-/
import proofs.«165703_j19224273617422_2_alg».proof.ReferenceIdeal
import proofs.«165703_j19224273617422_2_alg».proof.Proof.Gen.ReferenceIdeal
import proofs.«165703_j19224273617422_2_alg».proof.Proof.Spec
import proofs.«165703_j19224273617422_2_alg».proof.Proof.LibMatmul
import proofs.«165703_j19224273617422_2_alg».proof.Proof.LibHostLayout

noncomputable section

open scoped BigOperators

namespace Cert.Bridge.Stage0

open Cert.ReferenceIdeal Cert.ReferenceIdeal.Facts₀ Cert.ReferenceIdeal.Facts Idealize.ShloMosaic Idealize.ShloMosaic.ValueIdx
open Cert.LibMatmul Cert.LibHostLayout Cert.Bridge

/-- The host's dot_general plus the twice-broadcast bias is x·w with the bias, as a one-row matrix, added to every row:
    at (p, q) the product is the sum over k of x(p, k)·w(k, q), and the broadcast reads the bias at q. -/
theorem stage0_ref (x : FVec Ideal S100000x3 .f32) (w : FVec Ideal S3x16 .f32) (b : FVec Ideal S16 .f32) :
    addf (Host.dotGeneral dot_S100000x3_S3x16_S100000x16_1_0_0_1_n_n none x w)
         (broadcastInDim S100000x16 ![0, 1] bcast_S1x16_S100000x16_0_1 (broadcastInDim S1x16 ![1] bcast_S16_S1x16_1 b))
      = Spec.lin x w (Spec.row b) := by
  funext i
  obtain ⟨p, q, rfl⟩ : ∃ (p : Fin 100000) (q : Fin 16), i = ix2 p q := ⟨i 0, i 1, eq_ix2 i⟩
  rw [Spec.lin_apply, Spec.row_apply]
  refine congrArg₂ (· + ·) ?_ ?_
  · exact congrFun (dotGeneral_eq dot_S100000x3_S3x16_S100000x16_1_0_0_1_n_n rfl rfl rfl rfl rfl rfl none .single x w) (ix2 p q)
  · rw [rowAll_eq, vecRow_eq]

end Cert.Bridge.Stage0

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.Stage1.lean ====
/-
  The reference's edge stage of the first layer, as one function of its operand arrays on the extended reals.  The
  reference joins the three row-aligned matrices a (16 columns), e (3 columns) and c (16 columns) side by side into one
  matrix with 35 columns, multiplies it with the 35-by-16 weight matrix, adds the bias vector to every row and takes
  the positive part.  A sum over the joined column range is the sum of the sums over the three pieces, so the product
  is a·W[0:16] + e·W[16:19] + c·W[19:35], the three products added left to right: the edge transform of the three
  matrices with the weight matrix cut into its three blocks of consecutive rows.
-/
import proofs.«165703_j19224273617422_2_alg».proof.ReferenceIdeal
import proofs.«165703_j19224273617422_2_alg».proof.Proof.Gen.ReferenceIdeal
import proofs.«165703_j19224273617422_2_alg».proof.Proof.Spec
import proofs.«165703_j19224273617422_2_alg».proof.Proof.LibMatmul
import proofs.«165703_j19224273617422_2_alg».proof.Proof.LibJoinedAxis
import proofs.«165703_j19224273617422_2_alg».proof.Proof.LibBcastInDim
import proofs.«165703_j19224273617422_2_alg».proof.Proof.LibHostLayout
import Idealize.ShloMosaic.Lib.ValueIdx
import Idealize.ShloMosaic.Lib.Pipeline.Value
import Idealize.ShloMosaic.PureOps.Ideal.Laws

noncomputable section

open scoped BigOperators

namespace Cert.Bridge.Stage1

open Cert.ReferenceIdeal Cert.ReferenceIdeal.Facts₀ Cert.ReferenceIdeal.Facts
open Idealize.ShloMosaic Idealize.ShloMosaic.ValueIdx
open Cert.LibMatmul Cert.LibJoinedAxis Cert.Bridge

variable {α : Type}

/-- Three matrices with the same rows set side by side, read at a column of the first. -/
theorem hcat3_first {E a b c : Nat} (x : (⟨2, ![E, a]⟩ : Shape).Idx → α) (y : (⟨2, ![E, b]⟩ : Shape).Idx → α)
    (z : (⟨2, ![E, c]⟩ : Shape).Idx → α)
    (h : Shape.Concatenates [(⟨2, ![E, a]⟩ : Shape), ⟨2, ![E, b]⟩, ⟨2, ![E, c]⟩] ⟨2, ![E, a + b + c]⟩ 1)
    (p : Fin E) (k : Fin a) :
    concatenate ⟨2, ![E, a + b + c]⟩ 1 [⟨⟨2, ![E, a]⟩, x⟩, ⟨⟨2, ![E, b]⟩, y⟩, ⟨⟨2, ![E, c]⟩, z⟩] h
        (ix2 p ⟨0 + k.val, by have := k.isLt; omega⟩) = x (ix2 p k) :=
  concatenate_apply_piece 1 [⟨⟨2, ![E, a]⟩, x⟩, ⟨⟨2, ![E, b]⟩, y⟩, ⟨⟨2, ![E, c]⟩, z⟩] h _ 0 (by show (0 : Nat) < 3; omega) _ x rfl rfl
    0 rfl (ix2 p k) (fun d => match d with
      | ⟨0, _⟩ => fun _ => rfl
      | ⟨1, _⟩ => fun hd => absurd rfl hd) rfl

/-- … at a column of the second. -/
theorem hcat3_second {E a b c : Nat} (x : (⟨2, ![E, a]⟩ : Shape).Idx → α) (y : (⟨2, ![E, b]⟩ : Shape).Idx → α)
    (z : (⟨2, ![E, c]⟩ : Shape).Idx → α)
    (h : Shape.Concatenates [(⟨2, ![E, a]⟩ : Shape), ⟨2, ![E, b]⟩, ⟨2, ![E, c]⟩] ⟨2, ![E, a + b + c]⟩ 1)
    (p : Fin E) (k : Fin b) :
    concatenate ⟨2, ![E, a + b + c]⟩ 1 [⟨⟨2, ![E, a]⟩, x⟩, ⟨⟨2, ![E, b]⟩, y⟩, ⟨⟨2, ![E, c]⟩, z⟩] h
        (ix2 p ⟨a + k.val, by have := k.isLt; omega⟩) = y (ix2 p k) :=
  concatenate_apply_piece 1 [⟨⟨2, ![E, a]⟩, x⟩, ⟨⟨2, ![E, b]⟩, y⟩, ⟨⟨2, ![E, c]⟩, z⟩] h _ 1 (by show (1 : Nat) < 3; omega) _ y rfl rfl
    a (by simp) (ix2 p k) (fun d => match d with
      | ⟨0, _⟩ => fun _ => rfl
      | ⟨1, _⟩ => fun hd => absurd rfl hd) rfl

/-- … at a column of the third. -/
theorem hcat3_third {E a b c : Nat} (x : (⟨2, ![E, a]⟩ : Shape).Idx → α) (y : (⟨2, ![E, b]⟩ : Shape).Idx → α)
    (z : (⟨2, ![E, c]⟩ : Shape).Idx → α)
    (h : Shape.Concatenates [(⟨2, ![E, a]⟩ : Shape), ⟨2, ![E, b]⟩, ⟨2, ![E, c]⟩] ⟨2, ![E, a + b + c]⟩ 1)
    (p : Fin E) (k : Fin c) :
    concatenate ⟨2, ![E, a + b + c]⟩ 1 [⟨⟨2, ![E, a]⟩, x⟩, ⟨⟨2, ![E, b]⟩, y⟩, ⟨⟨2, ![E, c]⟩, z⟩] h
        (ix2 p ⟨a + b + k.val, by have := k.isLt; omega⟩) = z (ix2 p k) :=
  concatenate_apply_piece 1 [⟨⟨2, ![E, a]⟩, x⟩, ⟨⟨2, ![E, b]⟩, y⟩, ⟨⟨2, ![E, c]⟩, z⟩] h _ 2 (by show (2 : Nat) < 3; omega) _ z rfl rfl
    (a + b) (by simp) (ix2 p k) (fun d => match d with
      | ⟨0, _⟩ => fun _ => rfl
      | ⟨1, _⟩ => fun hd => absurd rfl hd) rfl

/-- The reference's edge stage of layer one — the three row-aligned pieces joined along the columns, one product with
    the stacked weights, the bias added to every row, the positive part — is the edge transform with the weights cut
    into their three row blocks. -/
theorem stage1_ref (a : FVec Ideal S3200000x16 .f32) (e : FVec Ideal S3200000x3 .f32) (c : FVec Ideal S3200000x16 .f32)
    (we : FVec Ideal S35x16 .f32) (be : FVec Ideal S16 .f32) :
    maximumf
        (addf
          (Host.dotGeneral (F := Ideal) dot_S3200000x35_S35x16_S3200000x16_1_0_0_1_n_n none
            (concatenate S3200000x35 1 [⟨S3200000x16, a⟩, ⟨S3200000x3, e⟩, ⟨S3200000x16, c⟩]
              concatenates_S3200000x16_S3200000x3_S3200000x16_S3200000x35_d1) we)
          (broadcastInDim S3200000x16 ![0, 1] bcast_S1x16_S3200000x16_0_1 (broadcastInDim S1x16 ![1] bcast_S16_S1x16_1 be)))
        (broadcastInDim S3200000x16 ![] bcast_S_S3200000x16 (constant (F := Ideal) S_ .f32 0x00000000#32))
      = Spec.relu (Spec.edge (E := 3200000) (H := 16) (D := 3) (B := 16) a e c (rowsAt 0 16 (by omega) we)
          (rowsAt 16 3 (by omega) we) (rowsAt 19 16 (by omega) we) (Spec.row be)) := by
  funext i
  obtain ⟨p, q, rfl⟩ : ∃ (p : Fin 3200000) (q : Fin 16), i = ix2 p q := ⟨i 0, i 1, eq_ix2 i⟩
  rw [Spec.relu_apply, Spec.edge_apply, Spec.row_apply]
  simp only [Host.dotGeneral]
  rw [dotGeneral_eq dot_S3200000x35_S35x16_S3200000x16_1_0_0_1_n_n rfl rfl rfl rfl rfl rfl,
    Cert.LibBcastInDim.bid_row, Cert.LibHostLayout.splat_eq]
  have hz : (constant (F := Ideal) S_ .f32 0x00000000#32 ix0 : EReal) = 0 := Ideal.ofBits_zero_f32
  have hj := MM_join3 (E := 3200000) (a := 16) (b := 3) (c := 16) (B := 16)
    (concatenate S3200000x35 1 [⟨S3200000x16, a⟩, ⟨S3200000x3, e⟩, ⟨S3200000x16, c⟩]
      concatenates_S3200000x16_S3200000x3_S3200000x16_S3200000x35_d1) a e c we p q
    (fun k => hcat3_first a e c concatenates_S3200000x16_S3200000x3_S3200000x16_S3200000x35_d1 p k)
    (fun k => hcat3_second a e c concatenates_S3200000x16_S3200000x3_S3200000x16_S3200000x35_d1 p k)
    (fun k => hcat3_third a e c concatenates_S3200000x16_S3200000x3_S3200000x16_S3200000x35_d1 p k)
  show max (MM (concatenate S3200000x35 1 [⟨S3200000x16, a⟩, ⟨S3200000x3, e⟩, ⟨S3200000x16, c⟩]
      concatenates_S3200000x16_S3200000x3_S3200000x16_S3200000x35_d1) we (ix2 p q) + be (ix1 q))
    (constant (F := Ideal) S_ .f32 0x00000000#32 ix0) = _
  rw [hz, hj]

end Cert.Bridge.Stage1

end
-- ==== Proof.Stage2.lean ====
/-
  The second dense layer on the host: the product of the rows with the weight matrix, plus the bias vector laid out as
  one row and repeated down every row, is the affine map h·W + b of the rows.
-/
import proofs.«165703_j19224273617422_2_alg».proof.ReferenceIdeal
import proofs.«165703_j19224273617422_2_alg».proof.Proof.Gen.ReferenceIdeal
import proofs.«165703_j19224273617422_2_alg».proof.Proof.Spec
import proofs.«165703_j19224273617422_2_alg».proof.Proof.LibMatmul
import proofs.«165703_j19224273617422_2_alg».proof.Proof.LibHostLayout
import Idealize.ShloMosaic.Lib.ValueIdx
import Idealize.ShloMosaic.PureOps.Ideal.Laws

noncomputable section

namespace Cert.Bridge.Stage2

open Cert.ReferenceIdeal Cert.ReferenceIdeal.Facts₀ Cert.ReferenceIdeal.Facts Idealize.ShloMosaic Idealize.ShloMosaic.ValueIdx
open Cert.LibMatmul Cert.LibHostLayout Cert.Bridge

/-- The host's dot_general of the rows with the weights, added to the bias vector broadcast first to one row and then
    to every row, is the affine map of the rows with the bias as a one-row matrix. -/
theorem stage2_ref (x : FVec Ideal S100000x16 .f32) (w : FVec Ideal S16x16 .f32) (b : FVec Ideal S16 .f32) :
    addf (Host.dotGeneral dot_S100000x16_S16x16_S100000x16_1_0_0_1_n_n none x w)
         (broadcastInDim S100000x16 ![0, 1] bcast_S1x16_S100000x16_0_1 (broadcastInDim S1x16 ![1] bcast_S16_S1x16_1 b))
      = Spec.lin x w (Spec.row b) := by
  funext i
  obtain ⟨p, q, rfl⟩ : ∃ (p : Fin 100000) (q : Fin 16), i = ix2 p q := ⟨i 0, i 1, eq_ix2 i⟩
  rw [Spec.lin_apply]
  refine congrArg₂ (· + ·) ?_ ?_
  · exact congrFun (dotGeneral_eq dot_S100000x16_S16x16_S100000x16_1_0_0_1_n_n rfl rfl rfl rfl rfl rfl none _ x w) (ix2 p q)
  · rw [rowAll_eq, vecRow_eq]
    rfl

end Cert.Bridge.Stage2

end
-- ==== Proof.Stage3.lean ====
/-
  The reference's fused edge stage on the extended reals: the three row-aligned matrices a, x, c are laid side by side
  into one 48-column matrix and multiplied by the stacked 48-by-16 weights, which is a·Wa + x·Wb + c·Wc with Wa, Wb, Wc
  the three blocks of 16 consecutive rows of the weights (a sum over a joined index range is the sum of the sums over
  its pieces); each bias vector is laid out as one row and added to every row; the positive part is the maximum with
  a splat zero.  So the composition is relu(relu(a·Wa + x·Wb + c·Wc + be)·W1 + b1)·W2 + b2.
-/
import proofs.«165703_j19224273617422_2_alg».proof.ReferenceIdeal
import proofs.«165703_j19224273617422_2_alg».proof.Proof.Gen.ReferenceIdeal
import proofs.«165703_j19224273617422_2_alg».proof.Proof.Spec
import proofs.«165703_j19224273617422_2_alg».proof.Proof.LibMatmul
import proofs.«165703_j19224273617422_2_alg».proof.Proof.LibJoinedAxis
import proofs.«165703_j19224273617422_2_alg».proof.Proof.LibBcastInDim
import proofs.«165703_j19224273617422_2_alg».proof.Proof.RChain
import Idealize.ShloMosaic.Lib.ValueIdx
import Idealize.ShloMosaic.Lib.Pipeline.Value
import Idealize.ShloMosaic.PureOps.Ideal.Laws

noncomputable section

open scoped BigOperators

namespace Cert.Bridge.Stage3

open Cert.ReferenceIdeal Cert.ReferenceIdeal.Facts₀ Cert.ReferenceIdeal.Facts
open Idealize.ShloMosaic Idealize.ShloMosaic.ValueIdx
open Cert.LibMatmul Cert.LibJoinedAxis Cert.Bridge

/-- A plain matrix product with a bias vector, laid out as one row and repeated down the rows, added to it. -/
theorem hlin {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (x : FVec Ideal ⟨2, ![A, K]⟩ .f32) (w : FVec Ideal ⟨2, ![K, B]⟩ .f32) (b : FVec Ideal ⟨1, ![B]⟩ .f32) :
    addf (Host.dotGeneral d none x w) (broadcastInDim ⟨2, ![A, B]⟩ ![0, 1] h2 (broadcastInDim ⟨2, ![1, B]⟩ ![1] h1 b))
      = Spec.lin x w (Spec.row b) := by
  rw [Cert.LibBcastInDim.bid_row]
  funext i
  show FloatOps.dotGeneral d none .single x w i + b (ix1 (i 1)) = MM x w i + b (ix1 (i 1))
  rw [dotGeneral_eq d hlb hln hlc hrb hrn hrc]

/-- The maximum with a splat zero is the positive part. -/
theorem hrelu {A B : Nat} (h : (⟨0, ![]⟩ : Shape).BroadcastsInDim ⟨2, ![A, B]⟩ (![] : Fin 0 → Fin 2))
    (y : FVec Ideal ⟨2, ![A, B]⟩ .f32) :
    maximumf y (broadcastInDim ⟨2, ![A, B]⟩ ![] h (constant (F := Ideal) ⟨0, ![]⟩ .f32 0x00000000#32)) = Spec.relu y := by
  rw [Cert.LibBcastInDim.bid_scalar]
  funext i
  show max (y i) (Ideal.ofBits .f32 0x00000000#32) = max (y i) 0
  rw [Ideal.ofBits_zero_f32]

section Join
variable {α : Type} {E : Nat} (a x c : (⟨2, ![E, 16]⟩ : Shape).Idx → α)
  (h : Shape.Concatenates [(⟨2, ![E, 16]⟩ : Shape), ⟨2, ![E, 16]⟩, ⟨2, ![E, 16]⟩] ⟨2, ![E, 48]⟩ 1) (p : Fin E) (k : Fin 16)

private theorem off_axis (q : Fin 48) (d : Fin (⟨2, ![E, 16]⟩ : Shape).rank) :
    d.cast (rfl : (⟨2, ![E, 16]⟩ : Shape).rank = (⟨2, ![E, 48]⟩ : Shape).rank) ≠ 1 →
      ((ix2 p k : (⟨2, ![E, 16]⟩ : Shape).Idx) d).val = ((ix2 p q : (⟨2, ![E, 48]⟩ : Shape).Idx) (d.cast rfl)).val :=
  match d with
  | ⟨0, _⟩ => fun _ => rfl
  | ⟨1, _⟩ => fun hd => absurd rfl hd

/-- Columns 0..15 of the three matrices laid side by side are the first one's. -/
theorem cat_left : concatenate ⟨2, ![E, 48]⟩ 1 [⟨⟨2, ![E, 16]⟩, a⟩, ⟨⟨2, ![E, 16]⟩, x⟩, ⟨⟨2, ![E, 16]⟩, c⟩] h
      (ix2 p (⟨0 + k.val, by have := k.isLt; omega⟩ : Fin 48)) = a (ix2 p k) :=
  concatenate_apply_piece 1 [⟨⟨2, ![E, 16]⟩, a⟩, ⟨⟨2, ![E, 16]⟩, x⟩, ⟨⟨2, ![E, 16]⟩, c⟩] h _ 0 (by show (0 : Nat) < 3; omega) _ a rfl rfl
    0 rfl (ix2 p k) (off_axis p k _) rfl

/-- Columns 16..31 are the second one's. -/
theorem cat_mid : concatenate ⟨2, ![E, 48]⟩ 1 [⟨⟨2, ![E, 16]⟩, a⟩, ⟨⟨2, ![E, 16]⟩, x⟩, ⟨⟨2, ![E, 16]⟩, c⟩] h
      (ix2 p (⟨16 + k.val, by have := k.isLt; omega⟩ : Fin 48)) = x (ix2 p k) :=
  concatenate_apply_piece 1 [⟨⟨2, ![E, 16]⟩, a⟩, ⟨⟨2, ![E, 16]⟩, x⟩, ⟨⟨2, ![E, 16]⟩, c⟩] h _ 1 (by show (1 : Nat) < 3; omega) _ x rfl rfl
    16 rfl (ix2 p k) (off_axis p k _) rfl

/-- Columns 32..47 are the third one's. -/
theorem cat_right : concatenate ⟨2, ![E, 48]⟩ 1 [⟨⟨2, ![E, 16]⟩, a⟩, ⟨⟨2, ![E, 16]⟩, x⟩, ⟨⟨2, ![E, 16]⟩, c⟩] h
      (ix2 p (⟨16 + 16 + k.val, by have := k.isLt; omega⟩ : Fin 48)) = c (ix2 p k) :=
  concatenate_apply_piece 1 [⟨⟨2, ![E, 16]⟩, a⟩, ⟨⟨2, ![E, 16]⟩, x⟩, ⟨⟨2, ![E, 16]⟩, c⟩] h _ 2 (by show (2 : Nat) < 3; omega) _ c rfl rfl
    32 rfl (ix2 p k) (off_axis p k _) rfl

end Join

/-- The joined matrix against the stacked weights, with the bias row, is the edge transform of the three pieces. -/
theorem hedge {E : Nat} (a x c : Spec.Mat E 16)
    (h : Shape.Concatenates [(⟨2, ![E, 16]⟩ : Shape), ⟨2, ![E, 16]⟩, ⟨2, ![E, 16]⟩] ⟨2, ![E, 48]⟩ 1)
    (we : Spec.Mat 48 16) (b : Spec.Mat 1 16) :
    Spec.lin (concatenate ⟨2, ![E, 48]⟩ 1 [⟨⟨2, ![E, 16]⟩, a⟩, ⟨⟨2, ![E, 16]⟩, x⟩, ⟨⟨2, ![E, 16]⟩, c⟩] h) we b
      = Spec.edge a x c (rowsAt 0 16 (by omega) we) (rowsAt 16 16 (by omega) we) (rowsAt 32 16 (by omega) we) b := by
  funext i
  obtain ⟨p, q, rfl⟩ : ∃ (p : Fin E) (q : Fin 16), i = ix2 p q := ⟨i 0, i 1, eq_ix2 i⟩
  rw [Spec.lin_apply, Spec.edge_apply]
  refine congrArg (· + _) ?_
  exact MM_join3 (a := 16) (b := 16) (c := 16) _ a x c we p q (fun k => cat_left a x c h p k)
    (fun k => cat_mid a x c h p k) (fun k => cat_right a x c h p k)

/-- The reference's operations %95 … %125, composed, are the stage's function of the operand arrays. -/
theorem stage3_ref (a x c : FVec Ideal S3200000x16 .f32) (we : FVec Ideal S48x16 .f32) (be : FVec Ideal S16 .f32)
    (w1 : FVec Ideal S16x16 .f32) (b1 : FVec Ideal S16 .f32) (w2 : FVec Ideal S16x3 .f32) (b2 : FVec Ideal S3 .f32) :
    addf
        (Host.dotGeneral dot_S3200000x16_S16x3_S3200000x3_1_0_0_1_n_n none
          (maximumf
            (addf
              (Host.dotGeneral dot_S3200000x16_S16x16_S3200000x16_1_0_0_1_n_n none
                (maximumf
                  (addf
                    (Host.dotGeneral dot_S3200000x48_S48x16_S3200000x16_1_0_0_1_n_n none
                      (concatenate S3200000x48 1 [⟨S3200000x16, a⟩, ⟨S3200000x16, x⟩, ⟨S3200000x16, c⟩]
                        concatenates_S3200000x16_S3200000x16_S3200000x16_S3200000x48_d1)
                      we)
                    (broadcastInDim S3200000x16 ![0, 1] bcast_S1x16_S3200000x16_0_1 (broadcastInDim S1x16 ![1] bcast_S16_S1x16_1 be)))
                  (broadcastInDim S3200000x16 ![] bcast_S_S3200000x16 (constant (F := Ideal) S_ .f32 0x00000000#32)))
                w1)
              (broadcastInDim S3200000x16 ![0, 1] bcast_S1x16_S3200000x16_0_1 (broadcastInDim S1x16 ![1] bcast_S16_S1x16_1 b1)))
            (broadcastInDim S3200000x16 ![] bcast_S_S3200000x16 (constant (F := Ideal) S_ .f32 0x00000000#32)))
          w2)
        (broadcastInDim S3200000x3 ![0, 1] bcast_S1x3_S3200000x3_0_1 (broadcastInDim S1x3 ![1] bcast_S3_S1x3_1 b2))
      = Spec.lin (Spec.relu (Spec.lin (Spec.relu (Spec.edge a x c (rowsAt 0 16 (by omega) we) (rowsAt 16 16 (by omega) we)
          (rowsAt 32 16 (by omega) we) (Spec.row be))) w1 (Spec.row b1))) w2 (Spec.row b2) := by
  rw [hlin dot_S3200000x16_S16x3_S3200000x3_1_0_0_1_n_n rfl rfl rfl rfl rfl rfl bcast_S3_S1x3_1 bcast_S1x3_S3200000x3_0_1,
    hrelu bcast_S_S3200000x16,
    hlin dot_S3200000x16_S16x16_S3200000x16_1_0_0_1_n_n rfl rfl rfl rfl rfl rfl bcast_S16_S1x16_1 bcast_S1x16_S3200000x16_0_1,
    hrelu bcast_S_S3200000x16,
    hlin dot_S3200000x48_S48x16_S3200000x16_1_0_0_1_n_n rfl rfl rfl rfl rfl rfl bcast_S16_S1x16_1 bcast_S1x16_S3200000x16_0_1,
    hedge]

/-- The same, with the composition under its name. -/
theorem stage3_chain (a x c : FVec Ideal S3200000x16 .f32) (we : FVec Ideal S48x16 .f32) (be : FVec Ideal S16 .f32)
    (w1 : FVec Ideal S16x16 .f32) (b1 : FVec Ideal S16 .f32) (w2 : FVec Ideal S16x3 .f32) (b2 : FVec Ideal S3 .f32) :
    RChain.edge2 (F := Ideal) a x c we be w1 b1 w2 b2
      = Spec.lin (Spec.relu (Spec.lin (Spec.relu (Spec.edge a x c (rowsAt 0 16 (by omega) we) (rowsAt 16 16 (by omega) we)
          (rowsAt 32 16 (by omega) we) (Spec.row be))) w1 (Spec.row b1))) w2 (Spec.row b2) :=
  stage3_ref a x c we be w1 b1 w2 b2

end Cert.Bridge.Stage3

end
-- ==== Proof.Stage4.lean ====
/-
  The node update of the second layer, as the reference computes it on whole arrays: a matrix product with the first
  weights, the first bias broadcast to every row and added, the positive part against a broadcast zero, a matrix
  product with the second weights, the second bias broadcast to every row and added.  At the ideal values this is the
  affine map of the rows, the positive part entry by entry, and the second affine map.
-/
import proofs.«165703_j19224273617422_2_alg».proof.ReferenceIdeal
import proofs.«165703_j19224273617422_2_alg».proof.Proof.Gen.ReferenceIdeal
import proofs.«165703_j19224273617422_2_alg».proof.Proof.Spec
import proofs.«165703_j19224273617422_2_alg».proof.Proof.RChain
import proofs.«165703_j19224273617422_2_alg».proof.Proof.LibMatmul
import proofs.«165703_j19224273617422_2_alg».proof.Proof.LibBcastInDim
import Idealize.ShloMosaic.Lib.ValueIdx
import Idealize.ShloMosaic.Lib.Pipeline.Value
import Idealize.ShloMosaic.PureOps.Ideal.Laws

noncomputable section

open scoped BigOperators

namespace Cert.Bridge.Stage4

open Cert.ReferenceIdeal Cert.ReferenceIdeal.Facts₀ Cert.ReferenceIdeal.Facts
open Idealize.ShloMosaic Idealize.ShloMosaic.ValueIdx
open Cert.LibMatmul Cert.LibBcastInDim Cert.Bridge

/-- The host's product of two matrices, contracting the left factor's columns with the right factor's rows. -/
private theorem hdot_eq {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![A, K]⟩ .f32) (w : FVec Ideal ⟨2, ![K, B]⟩ .f32) :
    Host.dotGeneral d none x w = MM x w :=
  dotGeneral_eq d hlb hln hlc hrb hrn hrc none .single x w

/-- The reference's node update of the second layer is the two-layer map of its operands. -/
theorem stage4_ref (x : FVec Ideal S100000x16 .f32) (w1 : FVec Ideal S16x16 .f32) (b1 : FVec Ideal S16 .f32)
    (w2 : FVec Ideal S16x3 .f32) (b2 : FVec Ideal S3 .f32) :
    addf
        (Host.dotGeneral dot_S100000x16_S16x3_S100000x3_1_0_0_1_n_n none
          (maximumf
            (addf (Host.dotGeneral dot_S100000x16_S16x16_S100000x16_1_0_0_1_n_n none x w1)
              (broadcastInDim S100000x16 ![0, 1] bcast_S1x16_S100000x16_0_1 (broadcastInDim S1x16 ![1] bcast_S16_S1x16_1 b1)))
            (broadcastInDim S100000x16 ![] bcast_S_S100000x16 (constant (F := Ideal) S_ .f32 0x00000000#32)))
          w2)
        (broadcastInDim S100000x3 ![0, 1] bcast_S1x3_S100000x3_0_1 (broadcastInDim S1x3 ![1] bcast_S3_S1x3_1 b2))
      = Spec.lin (Spec.relu (Spec.lin (A := 100000) (K := 16) (B := 16) x w1 (Spec.row b1))) w2 (Spec.row b2) := by
  rw [hdot_eq dot_S100000x16_S16x16_S100000x16_1_0_0_1_n_n rfl rfl rfl rfl rfl rfl,
    hdot_eq dot_S100000x16_S16x3_S100000x3_1_0_0_1_n_n rfl rfl rfl rfl rfl rfl,
    bid_row, bid_row, bid_scalar]
  have hr : (maximumf (addf (MM x w1) fun i => b1 (ix1 (i 1))) fun _ => constant (F := Ideal) S_ .f32 0x00000000#32 ix0)
      = Spec.relu (Spec.lin (A := 100000) (K := 16) (B := 16) x w1 (Spec.row b1)) := by
    funext i
    show max (MM x w1 i + b1 (ix1 (i 1))) (Ideal.ofBits .f32 0x00000000#32) = max (MM x w1 i + b1 (ix1 (i 1))) 0
    rw [Ideal.ofBits_zero_f32]
  rw [hr]
  rfl

/-- The same, with the reference's composition named. -/
theorem stage4_node2 (x : FVec Ideal S100000x16 .f32) (w1 : FVec Ideal S16x16 .f32) (b1 : FVec Ideal S16 .f32)
    (w2 : FVec Ideal S16x3 .f32) (b2 : FVec Ideal S3 .f32) :
    RChain.node2 (F := Ideal) x w1 b1 w2 b2
      = Spec.lin (Spec.relu (Spec.lin (A := 100000) (K := 16) (B := 16) x w1 (Spec.row b1))) w2 (Spec.row b2) :=
  stage4_ref x w1 b1 w2 b2

end Cert.Bridge.Stage4

end
-- ==== Proof.KWalk.lean ====
/-
  The idealized kernel program's buffers at each boundary between a host stretch and a region, walked from the launch
  memory to the return: every buffer a later region or stretch reads holds the matching value of the reference's chain
  — a region's output by that region's whole-array function of its operands and the stage's identity with the
  reference's host operations, a stretch's results by reading the stretch, everything else carried along unchanged.
-/
import proofs.«165703_j19224273617422_2_alg».proof.Proof.KOps
import proofs.«165703_j19224273617422_2_alg».proof.Proof.Reg0
import proofs.«165703_j19224273617422_2_alg».proof.Proof.Reg1
import proofs.«165703_j19224273617422_2_alg».proof.Proof.Reg2
import proofs.«165703_j19224273617422_2_alg».proof.Proof.Reg3
import proofs.«165703_j19224273617422_2_alg».proof.Proof.Reg4
import proofs.«165703_j19224273617422_2_alg».proof.Proof.Stage0
import proofs.«165703_j19224273617422_2_alg».proof.Proof.Stage1
import proofs.«165703_j19224273617422_2_alg».proof.Proof.Stage2
import proofs.«165703_j19224273617422_2_alg».proof.Proof.Stage3
import proofs.«165703_j19224273617422_2_alg».proof.Proof.Stage4

noncomputable section

namespace Cert.Bridge.KWalk

open Cert.KernelIdeal Cert.KernelIdeal.Gen
open Idealize.ShloMosaic Idealize.ShloMosaic.TcCoe Idealize.SL.Sem Idealize.ShloMosaic.ValueIdx
open Cert.Bridge Cert.LibJoinedAxis

variable (m : (ℓ : Loc nD τ sig) → Buf (Elt Ideal) ℓ) (ρ : Dev nD → PrngReg) (c : Dev nD)

/-- The kernel program's nineteen argument arrays at launch. -/
def argsK : RChain.Args Ideal where
  x := m ((c : Thread nD τ).loc main_arg0)
  ea := m ((c : Thread nD τ).loc main_arg1)
  ei := m ((c : Thread nD τ).loc main_arg2)
  wn1 := m ((c : Thread nD τ).loc main_arg3)
  bn1 := m ((c : Thread nD τ).loc main_arg4)
  we1 := m ((c : Thread nD τ).loc main_arg5)
  be1 := m ((c : Thread nD τ).loc main_arg6)
  wn2 := m ((c : Thread nD τ).loc main_arg7)
  bn2 := m ((c : Thread nD τ).loc main_arg8)
  we2 := m ((c : Thread nD τ).loc main_arg9)
  be2 := m ((c : Thread nD τ).loc main_arg10)
  wnn1 := m ((c : Thread nD τ).loc main_arg11)
  bnn1 := m ((c : Thread nD τ).loc main_arg12)
  wnn2 := m ((c : Thread nD τ).loc main_arg13)
  bnn2 := m ((c : Thread nD τ).loc main_arg14)
  wen1 := m ((c : Thread nD τ).loc main_arg15)
  ben1 := m ((c : Thread nD τ).loc main_arg16)
  wen2 := m ((c : Thread nD τ).loc main_arg17)
  ben2 := m ((c : Thread nD τ).loc main_arg18)

/-! ## After the first stretch -/

theorem W1_v1 : W1 m ρ c (Proc.devRef .tc main_v1) = (RChain.src (argsK m c).ei) :=
  KOps.o0_v1 (W0 m ρ c)
theorem W1_v3 : W1 m ρ c (Proc.devRef .tc main_v3) = (RChain.dst (argsK m c).ei) :=
  KOps.o0_v3 (W0 m ρ c)
theorem W1_v24 : W1 m ρ c (Proc.devRef .tc main_v24) = (RChain.norm (argsK m c).ei) :=
  KOps.o0_v24 (W0 m ρ c)
theorem W1_v25 : W1 m ρ c (Proc.devRef .tc main_v25) = (extractStridedSlice S16x16 ![0, 0] (argsK m c).we1 slices_S35x16_S16x16_0_0) :=
  KOps.o0_v25 (W0 m ρ c)
theorem W1_v26 : W1 m ρ c (Proc.devRef .tc main_v26) = (extractStridedSlice S3x16 ![16, 0] (argsK m c).we1 slices_S35x16_S3x16_16_0) :=
  KOps.o0_v26 (W0 m ρ c)
theorem W1_v27 : W1 m ρ c (Proc.devRef .tc main_v27) = (extractStridedSlice S16x16 ![19, 0] (argsK m c).we1 slices_S35x16_S16x16_19_0) :=
  KOps.o0_v27 (W0 m ρ c)
theorem W1_v28 : W1 m ρ c (Proc.devRef .tc main_v28) = (shapeCast S1x16 (argsK m c).bn1 shapeCasts_S16_S1x16) :=
  KOps.o0_v28 (W0 m ρ c)
theorem W1_arg0 : W1 m ρ c (Proc.devRef .tc main_arg0) = (argsK m c).x :=
  KOps.c0_arg0 (W0 m ρ c)
theorem W1_arg1 : W1 m ρ c (Proc.devRef .tc main_arg1) = (argsK m c).ea :=
  KOps.c0_arg1 (W0 m ρ c)
theorem W1_arg3 : W1 m ρ c (Proc.devRef .tc main_arg3) = (argsK m c).wn1 :=
  KOps.c0_arg3 (W0 m ρ c)
theorem W1_arg6 : W1 m ρ c (Proc.devRef .tc main_arg6) = (argsK m c).be1 :=
  KOps.c0_arg6 (W0 m ρ c)
theorem W1_arg7 : W1 m ρ c (Proc.devRef .tc main_arg7) = (argsK m c).wn2 :=
  KOps.c0_arg7 (W0 m ρ c)
theorem W1_arg8 : W1 m ρ c (Proc.devRef .tc main_arg8) = (argsK m c).bn2 :=
  KOps.c0_arg8 (W0 m ρ c)
theorem W1_arg9 : W1 m ρ c (Proc.devRef .tc main_arg9) = (argsK m c).we2 :=
  KOps.c0_arg9 (W0 m ρ c)
theorem W1_arg10 : W1 m ρ c (Proc.devRef .tc main_arg10) = (argsK m c).be2 :=
  KOps.c0_arg10 (W0 m ρ c)
theorem W1_arg11 : W1 m ρ c (Proc.devRef .tc main_arg11) = (argsK m c).wnn1 :=
  KOps.c0_arg11 (W0 m ρ c)
theorem W1_arg12 : W1 m ρ c (Proc.devRef .tc main_arg12) = (argsK m c).bnn1 :=
  KOps.c0_arg12 (W0 m ρ c)
theorem W1_arg13 : W1 m ρ c (Proc.devRef .tc main_arg13) = (argsK m c).wnn2 :=
  KOps.c0_arg13 (W0 m ρ c)
theorem W1_arg14 : W1 m ρ c (Proc.devRef .tc main_arg14) = (argsK m c).bnn2 :=
  KOps.c0_arg14 (W0 m ρ c)
theorem W1_arg15 : W1 m ρ c (Proc.devRef .tc main_arg15) = (argsK m c).wen1 :=
  KOps.c0_arg15 (W0 m ρ c)
theorem W1_arg16 : W1 m ρ c (Proc.devRef .tc main_arg16) = (argsK m c).ben1 :=
  KOps.c0_arg16 (W0 m ρ c)
theorem W1_arg17 : W1 m ρ c (Proc.devRef .tc main_arg17) = (argsK m c).wen2 :=
  KOps.c0_arg17 (W0 m ρ c)
theorem W1_arg18 : W1 m ρ c (Proc.devRef .tc main_arg18) = (argsK m c).ben2 :=
  KOps.c0_arg18 (W0 m ρ c)

/-! ## After region 0 -/

theorem W2_v29 : W2 m ρ c (Proc.devRef .tc main_v29) = (RChain.x1 (argsK m c)) := by
  refine (W2_arr m ρ c 3).trans ((Reg0.final0 (V1 m ρ) c).trans ?_)
  show Spec.lin (W1 m ρ c (Proc.devRef .tc main_arg0)) (W1 m ρ c (Proc.devRef .tc main_arg3)) (W1 m ρ c (Proc.devRef .tc main_v28)) = _
  rw [W1_arg0, W1_arg3, W1_v28, reshape_row]
  exact (Stage0.stage0_ref _ _ _).symm
theorem W2_v1 : W2 m ρ c (Proc.devRef .tc main_v1) = (RChain.src (argsK m c).ei) :=
  (W2_of_ne m ρ c main_v1 (by decide)).trans (W1_v1 m ρ c)
theorem W2_v3 : W2 m ρ c (Proc.devRef .tc main_v3) = (RChain.dst (argsK m c).ei) :=
  (W2_of_ne m ρ c main_v3 (by decide)).trans (W1_v3 m ρ c)
theorem W2_v24 : W2 m ρ c (Proc.devRef .tc main_v24) = (RChain.norm (argsK m c).ei) :=
  (W2_of_ne m ρ c main_v24 (by decide)).trans (W1_v24 m ρ c)
theorem W2_v25 : W2 m ρ c (Proc.devRef .tc main_v25) = (extractStridedSlice S16x16 ![0, 0] (argsK m c).we1 slices_S35x16_S16x16_0_0) :=
  (W2_of_ne m ρ c main_v25 (by decide)).trans (W1_v25 m ρ c)
theorem W2_v26 : W2 m ρ c (Proc.devRef .tc main_v26) = (extractStridedSlice S3x16 ![16, 0] (argsK m c).we1 slices_S35x16_S3x16_16_0) :=
  (W2_of_ne m ρ c main_v26 (by decide)).trans (W1_v26 m ρ c)
theorem W2_v27 : W2 m ρ c (Proc.devRef .tc main_v27) = (extractStridedSlice S16x16 ![19, 0] (argsK m c).we1 slices_S35x16_S16x16_19_0) :=
  (W2_of_ne m ρ c main_v27 (by decide)).trans (W1_v27 m ρ c)
theorem W2_arg1 : W2 m ρ c (Proc.devRef .tc main_arg1) = (argsK m c).ea :=
  (W2_of_ne m ρ c main_arg1 (by decide)).trans (W1_arg1 m ρ c)
theorem W2_arg6 : W2 m ρ c (Proc.devRef .tc main_arg6) = (argsK m c).be1 :=
  (W2_of_ne m ρ c main_arg6 (by decide)).trans (W1_arg6 m ρ c)
theorem W2_arg7 : W2 m ρ c (Proc.devRef .tc main_arg7) = (argsK m c).wn2 :=
  (W2_of_ne m ρ c main_arg7 (by decide)).trans (W1_arg7 m ρ c)
theorem W2_arg8 : W2 m ρ c (Proc.devRef .tc main_arg8) = (argsK m c).bn2 :=
  (W2_of_ne m ρ c main_arg8 (by decide)).trans (W1_arg8 m ρ c)
theorem W2_arg9 : W2 m ρ c (Proc.devRef .tc main_arg9) = (argsK m c).we2 :=
  (W2_of_ne m ρ c main_arg9 (by decide)).trans (W1_arg9 m ρ c)
theorem W2_arg10 : W2 m ρ c (Proc.devRef .tc main_arg10) = (argsK m c).be2 :=
  (W2_of_ne m ρ c main_arg10 (by decide)).trans (W1_arg10 m ρ c)
theorem W2_arg11 : W2 m ρ c (Proc.devRef .tc main_arg11) = (argsK m c).wnn1 :=
  (W2_of_ne m ρ c main_arg11 (by decide)).trans (W1_arg11 m ρ c)
theorem W2_arg12 : W2 m ρ c (Proc.devRef .tc main_arg12) = (argsK m c).bnn1 :=
  (W2_of_ne m ρ c main_arg12 (by decide)).trans (W1_arg12 m ρ c)
theorem W2_arg13 : W2 m ρ c (Proc.devRef .tc main_arg13) = (argsK m c).wnn2 :=
  (W2_of_ne m ρ c main_arg13 (by decide)).trans (W1_arg13 m ρ c)
theorem W2_arg14 : W2 m ρ c (Proc.devRef .tc main_arg14) = (argsK m c).bnn2 :=
  (W2_of_ne m ρ c main_arg14 (by decide)).trans (W1_arg14 m ρ c)
theorem W2_arg15 : W2 m ρ c (Proc.devRef .tc main_arg15) = (argsK m c).wen1 :=
  (W2_of_ne m ρ c main_arg15 (by decide)).trans (W1_arg15 m ρ c)
theorem W2_arg16 : W2 m ρ c (Proc.devRef .tc main_arg16) = (argsK m c).ben1 :=
  (W2_of_ne m ρ c main_arg16 (by decide)).trans (W1_arg16 m ρ c)
theorem W2_arg17 : W2 m ρ c (Proc.devRef .tc main_arg17) = (argsK m c).wen2 :=
  (W2_of_ne m ρ c main_arg17 (by decide)).trans (W1_arg17 m ρ c)
theorem W2_arg18 : W2 m ρ c (Proc.devRef .tc main_arg18) = (argsK m c).ben2 :=
  (W2_of_ne m ρ c main_arg18 (by decide)).trans (W1_arg18 m ρ c)

/-! ## After stretch 1 -/

theorem W3_v36 : W3 m ρ c (Proc.devRef .tc main_v36) = (RChain.take (RChain.x1 (argsK m c)) (RChain.src (argsK m c).ei)) :=
  (KOps.o1_v36 (W2 m ρ c)).trans (congrArg₂ (RChain.take (F := Ideal)) (W2_v29 m ρ c) (W2_v1 m ρ c))
theorem W3_v43 : W3 m ρ c (Proc.devRef .tc main_v43) = (RChain.take (RChain.x1 (argsK m c)) (RChain.dst (argsK m c).ei)) :=
  (KOps.o1_v43 (W2 m ρ c)).trans (congrArg₂ (RChain.take (F := Ideal)) (W2_v29 m ρ c) (W2_v3 m ρ c))
theorem W3_v44 : W3 m ρ c (Proc.devRef .tc main_v44) = (shapeCast S1x16 (argsK m c).be1 shapeCasts_S16_S1x16) :=
  (KOps.o1_v44 (W2 m ρ c)).trans (congrArg (fun b => shapeCast S1x16 b shapeCasts_S16_S1x16) (W2_arg6 m ρ c))
theorem W3_v1 : W3 m ρ c (Proc.devRef .tc main_v1) = (RChain.src (argsK m c).ei) :=
  (KOps.c1_v1 (W2 m ρ c)).trans (W2_v1 m ρ c)
theorem W3_v3 : W3 m ρ c (Proc.devRef .tc main_v3) = (RChain.dst (argsK m c).ei) :=
  (KOps.c1_v3 (W2 m ρ c)).trans (W2_v3 m ρ c)
theorem W3_v24 : W3 m ρ c (Proc.devRef .tc main_v24) = (RChain.norm (argsK m c).ei) :=
  (KOps.c1_v24 (W2 m ρ c)).trans (W2_v24 m ρ c)
theorem W3_v25 : W3 m ρ c (Proc.devRef .tc main_v25) = (extractStridedSlice S16x16 ![0, 0] (argsK m c).we1 slices_S35x16_S16x16_0_0) :=
  (KOps.c1_v25 (W2 m ρ c)).trans (W2_v25 m ρ c)
theorem W3_v26 : W3 m ρ c (Proc.devRef .tc main_v26) = (extractStridedSlice S3x16 ![16, 0] (argsK m c).we1 slices_S35x16_S3x16_16_0) :=
  (KOps.c1_v26 (W2 m ρ c)).trans (W2_v26 m ρ c)
theorem W3_v27 : W3 m ρ c (Proc.devRef .tc main_v27) = (extractStridedSlice S16x16 ![19, 0] (argsK m c).we1 slices_S35x16_S16x16_19_0) :=
  (KOps.c1_v27 (W2 m ρ c)).trans (W2_v27 m ρ c)
theorem W3_arg1 : W3 m ρ c (Proc.devRef .tc main_arg1) = (argsK m c).ea :=
  (KOps.c1_arg1 (W2 m ρ c)).trans (W2_arg1 m ρ c)
theorem W3_arg7 : W3 m ρ c (Proc.devRef .tc main_arg7) = (argsK m c).wn2 :=
  (KOps.c1_arg7 (W2 m ρ c)).trans (W2_arg7 m ρ c)
theorem W3_arg8 : W3 m ρ c (Proc.devRef .tc main_arg8) = (argsK m c).bn2 :=
  (KOps.c1_arg8 (W2 m ρ c)).trans (W2_arg8 m ρ c)
theorem W3_arg9 : W3 m ρ c (Proc.devRef .tc main_arg9) = (argsK m c).we2 :=
  (KOps.c1_arg9 (W2 m ρ c)).trans (W2_arg9 m ρ c)
theorem W3_arg10 : W3 m ρ c (Proc.devRef .tc main_arg10) = (argsK m c).be2 :=
  (KOps.c1_arg10 (W2 m ρ c)).trans (W2_arg10 m ρ c)
theorem W3_arg11 : W3 m ρ c (Proc.devRef .tc main_arg11) = (argsK m c).wnn1 :=
  (KOps.c1_arg11 (W2 m ρ c)).trans (W2_arg11 m ρ c)
theorem W3_arg12 : W3 m ρ c (Proc.devRef .tc main_arg12) = (argsK m c).bnn1 :=
  (KOps.c1_arg12 (W2 m ρ c)).trans (W2_arg12 m ρ c)
theorem W3_arg13 : W3 m ρ c (Proc.devRef .tc main_arg13) = (argsK m c).wnn2 :=
  (KOps.c1_arg13 (W2 m ρ c)).trans (W2_arg13 m ρ c)
theorem W3_arg14 : W3 m ρ c (Proc.devRef .tc main_arg14) = (argsK m c).bnn2 :=
  (KOps.c1_arg14 (W2 m ρ c)).trans (W2_arg14 m ρ c)
theorem W3_arg15 : W3 m ρ c (Proc.devRef .tc main_arg15) = (argsK m c).wen1 :=
  (KOps.c1_arg15 (W2 m ρ c)).trans (W2_arg15 m ρ c)
theorem W3_arg16 : W3 m ρ c (Proc.devRef .tc main_arg16) = (argsK m c).ben1 :=
  (KOps.c1_arg16 (W2 m ρ c)).trans (W2_arg16 m ρ c)
theorem W3_arg17 : W3 m ρ c (Proc.devRef .tc main_arg17) = (argsK m c).wen2 :=
  (KOps.c1_arg17 (W2 m ρ c)).trans (W2_arg17 m ρ c)
theorem W3_arg18 : W3 m ρ c (Proc.devRef .tc main_arg18) = (argsK m c).ben2 :=
  (KOps.c1_arg18 (W2 m ρ c)).trans (W2_arg18 m ρ c)

/-! ## After region 1 -/

theorem W4_v45 : W4 m ρ c (Proc.devRef .tc main_v45) = (RChain.er1 (argsK m c)) := by
  refine (W4_arr m ρ c 7).trans ((Reg1.final1 (V3 m ρ) c).trans ?_)
  show Spec.relu (Spec.edge (W3 m ρ c (Proc.devRef .tc main_v36)) (W3 m ρ c (Proc.devRef .tc main_arg1)) (W3 m ρ c (Proc.devRef .tc main_v43)) (W3 m ρ c (Proc.devRef .tc main_v25)) (W3 m ρ c (Proc.devRef .tc main_v26)) (W3 m ρ c (Proc.devRef .tc main_v27)) (W3 m ρ c (Proc.devRef .tc main_v44))) = _
  rw [W3_v36, W3_arg1, W3_v43, W3_v25, W3_v26, W3_v27, W3_v44, reshape_row,
    slice_rows 0 _ slices_S35x16_S16x16_0_0 (by omega), slice_rows 16 _ slices_S35x16_S3x16_16_0 (by omega),
    slice_rows 19 _ slices_S35x16_S16x16_19_0 (by omega)]
  exact (Stage1.stage1_ref _ _ _ _ _).symm
theorem W4_v1 : W4 m ρ c (Proc.devRef .tc main_v1) = (RChain.src (argsK m c).ei) :=
  (W4_of_ne m ρ c main_v1 (by decide)).trans (W3_v1 m ρ c)
theorem W4_v3 : W4 m ρ c (Proc.devRef .tc main_v3) = (RChain.dst (argsK m c).ei) :=
  (W4_of_ne m ρ c main_v3 (by decide)).trans (W3_v3 m ρ c)
theorem W4_v24 : W4 m ρ c (Proc.devRef .tc main_v24) = (RChain.norm (argsK m c).ei) :=
  (W4_of_ne m ρ c main_v24 (by decide)).trans (W3_v24 m ρ c)
theorem W4_v36 : W4 m ρ c (Proc.devRef .tc main_v36) = (RChain.take (RChain.x1 (argsK m c)) (RChain.src (argsK m c).ei)) :=
  ((W4_arr m ρ c 0).trans (((dat1 (V3 m ρ) c).arrAt_in 0 rfl _).trans (A_eq1 (V3 m ρ) c 0))).trans (W3_v36 m ρ c)
theorem W4_arg7 : W4 m ρ c (Proc.devRef .tc main_arg7) = (argsK m c).wn2 :=
  (W4_of_ne m ρ c main_arg7 (by decide)).trans (W3_arg7 m ρ c)
theorem W4_arg8 : W4 m ρ c (Proc.devRef .tc main_arg8) = (argsK m c).bn2 :=
  (W4_of_ne m ρ c main_arg8 (by decide)).trans (W3_arg8 m ρ c)
theorem W4_arg9 : W4 m ρ c (Proc.devRef .tc main_arg9) = (argsK m c).we2 :=
  (W4_of_ne m ρ c main_arg9 (by decide)).trans (W3_arg9 m ρ c)
theorem W4_arg10 : W4 m ρ c (Proc.devRef .tc main_arg10) = (argsK m c).be2 :=
  (W4_of_ne m ρ c main_arg10 (by decide)).trans (W3_arg10 m ρ c)
theorem W4_arg11 : W4 m ρ c (Proc.devRef .tc main_arg11) = (argsK m c).wnn1 :=
  (W4_of_ne m ρ c main_arg11 (by decide)).trans (W3_arg11 m ρ c)
theorem W4_arg12 : W4 m ρ c (Proc.devRef .tc main_arg12) = (argsK m c).bnn1 :=
  (W4_of_ne m ρ c main_arg12 (by decide)).trans (W3_arg12 m ρ c)
theorem W4_arg13 : W4 m ρ c (Proc.devRef .tc main_arg13) = (argsK m c).wnn2 :=
  (W4_of_ne m ρ c main_arg13 (by decide)).trans (W3_arg13 m ρ c)
theorem W4_arg14 : W4 m ρ c (Proc.devRef .tc main_arg14) = (argsK m c).bnn2 :=
  (W4_of_ne m ρ c main_arg14 (by decide)).trans (W3_arg14 m ρ c)
theorem W4_arg15 : W4 m ρ c (Proc.devRef .tc main_arg15) = (argsK m c).wen1 :=
  (W4_of_ne m ρ c main_arg15 (by decide)).trans (W3_arg15 m ρ c)
theorem W4_arg16 : W4 m ρ c (Proc.devRef .tc main_arg16) = (argsK m c).ben1 :=
  (W4_of_ne m ρ c main_arg16 (by decide)).trans (W3_arg16 m ρ c)
theorem W4_arg17 : W4 m ρ c (Proc.devRef .tc main_arg17) = (argsK m c).wen2 :=
  (W4_of_ne m ρ c main_arg17 (by decide)).trans (W3_arg17 m ρ c)
theorem W4_arg18 : W4 m ρ c (Proc.devRef .tc main_arg18) = (argsK m c).ben2 :=
  (W4_of_ne m ρ c main_arg18 (by decide)).trans (W3_arg18 m ρ c)

/-! ## After stretch 2 -/

theorem W5_v53 : W5 m ρ c (Proc.devRef .tc main_v53) = (RChain.agg (argsK m c).ei (RChain.take (RChain.x1 (argsK m c)) (RChain.src (argsK m c).ei))) :=
  (KOps.o2_v53 (W4 m ρ c)).trans (congr (congrArg₂ (RChain.aggP (F := Ideal)) (W4_v3 m ρ c) (W4_v24 m ρ c)) (W4_v36 m ρ c))
theorem W5_v54 : W5 m ρ c (Proc.devRef .tc main_v54) = (extractStridedSlice S16x16 ![0, 0] (argsK m c).we2 slices_S48x16_S16x16_0_0) :=
  (KOps.o2_v54 (W4 m ρ c)).trans (congrArg (fun b => extractStridedSlice S16x16 ![0, 0] b slices_S48x16_S16x16_0_0) (W4_arg9 m ρ c))
theorem W5_v55 : W5 m ρ c (Proc.devRef .tc main_v55) = (extractStridedSlice S16x16 ![16, 0] (argsK m c).we2 slices_S48x16_S16x16_16_0) :=
  (KOps.o2_v55 (W4 m ρ c)).trans (congrArg (fun b => extractStridedSlice S16x16 ![16, 0] b slices_S48x16_S16x16_16_0) (W4_arg9 m ρ c))
theorem W5_v56 : W5 m ρ c (Proc.devRef .tc main_v56) = (extractStridedSlice S16x16 ![32, 0] (argsK m c).we2 slices_S48x16_S16x16_32_0) :=
  (KOps.o2_v56 (W4 m ρ c)).trans (congrArg (fun b => extractStridedSlice S16x16 ![32, 0] b slices_S48x16_S16x16_32_0) (W4_arg9 m ρ c))
theorem W5_v57 : W5 m ρ c (Proc.devRef .tc main_v57) = (shapeCast S1x16 (argsK m c).bn2 shapeCasts_S16_S1x16) :=
  (KOps.o2_v57 (W4 m ρ c)).trans (congrArg (fun b => shapeCast S1x16 b shapeCasts_S16_S1x16) (W4_arg8 m ρ c))
theorem W5_v1 : W5 m ρ c (Proc.devRef .tc main_v1) = (RChain.src (argsK m c).ei) :=
  (KOps.c2_v1 (W4 m ρ c)).trans (W4_v1 m ρ c)
theorem W5_v3 : W5 m ρ c (Proc.devRef .tc main_v3) = (RChain.dst (argsK m c).ei) :=
  (KOps.c2_v3 (W4 m ρ c)).trans (W4_v3 m ρ c)
theorem W5_v24 : W5 m ρ c (Proc.devRef .tc main_v24) = (RChain.norm (argsK m c).ei) :=
  (KOps.c2_v24 (W4 m ρ c)).trans (W4_v24 m ρ c)
theorem W5_v45 : W5 m ρ c (Proc.devRef .tc main_v45) = (RChain.er1 (argsK m c)) :=
  (KOps.c2_v45 (W4 m ρ c)).trans (W4_v45 m ρ c)
theorem W5_arg7 : W5 m ρ c (Proc.devRef .tc main_arg7) = (argsK m c).wn2 :=
  (KOps.c2_arg7 (W4 m ρ c)).trans (W4_arg7 m ρ c)
theorem W5_arg10 : W5 m ρ c (Proc.devRef .tc main_arg10) = (argsK m c).be2 :=
  (KOps.c2_arg10 (W4 m ρ c)).trans (W4_arg10 m ρ c)
theorem W5_arg11 : W5 m ρ c (Proc.devRef .tc main_arg11) = (argsK m c).wnn1 :=
  (KOps.c2_arg11 (W4 m ρ c)).trans (W4_arg11 m ρ c)
theorem W5_arg12 : W5 m ρ c (Proc.devRef .tc main_arg12) = (argsK m c).bnn1 :=
  (KOps.c2_arg12 (W4 m ρ c)).trans (W4_arg12 m ρ c)
theorem W5_arg13 : W5 m ρ c (Proc.devRef .tc main_arg13) = (argsK m c).wnn2 :=
  (KOps.c2_arg13 (W4 m ρ c)).trans (W4_arg13 m ρ c)
theorem W5_arg14 : W5 m ρ c (Proc.devRef .tc main_arg14) = (argsK m c).bnn2 :=
  (KOps.c2_arg14 (W4 m ρ c)).trans (W4_arg14 m ρ c)
theorem W5_arg15 : W5 m ρ c (Proc.devRef .tc main_arg15) = (argsK m c).wen1 :=
  (KOps.c2_arg15 (W4 m ρ c)).trans (W4_arg15 m ρ c)
theorem W5_arg16 : W5 m ρ c (Proc.devRef .tc main_arg16) = (argsK m c).ben1 :=
  (KOps.c2_arg16 (W4 m ρ c)).trans (W4_arg16 m ρ c)
theorem W5_arg17 : W5 m ρ c (Proc.devRef .tc main_arg17) = (argsK m c).wen2 :=
  (KOps.c2_arg17 (W4 m ρ c)).trans (W4_arg17 m ρ c)
theorem W5_arg18 : W5 m ρ c (Proc.devRef .tc main_arg18) = (argsK m c).ben2 :=
  (KOps.c2_arg18 (W4 m ρ c)).trans (W4_arg18 m ρ c)

/-! ## After region 2 -/

theorem W6_v58 : W6 m ρ c (Proc.devRef .tc main_v58) = (RChain.x2 (argsK m c)) := by
  refine (W6_arr m ρ c 3).trans ((Reg2.final2 (V5 m ρ) c).trans ?_)
  show Spec.lin (W5 m ρ c (Proc.devRef .tc main_v53)) (W5 m ρ c (Proc.devRef .tc main_arg7)) (W5 m ρ c (Proc.devRef .tc main_v57)) = _
  rw [W5_v53, W5_arg7, W5_v57, reshape_row]
  exact (Stage2.stage2_ref _ _ _).symm
theorem W6_v1 : W6 m ρ c (Proc.devRef .tc main_v1) = (RChain.src (argsK m c).ei) :=
  (W6_of_ne m ρ c main_v1 (by decide)).trans (W5_v1 m ρ c)
theorem W6_v3 : W6 m ρ c (Proc.devRef .tc main_v3) = (RChain.dst (argsK m c).ei) :=
  (W6_of_ne m ρ c main_v3 (by decide)).trans (W5_v3 m ρ c)
theorem W6_v24 : W6 m ρ c (Proc.devRef .tc main_v24) = (RChain.norm (argsK m c).ei) :=
  (W6_of_ne m ρ c main_v24 (by decide)).trans (W5_v24 m ρ c)
theorem W6_v45 : W6 m ρ c (Proc.devRef .tc main_v45) = (RChain.er1 (argsK m c)) :=
  (W6_of_ne m ρ c main_v45 (by decide)).trans (W5_v45 m ρ c)
theorem W6_v54 : W6 m ρ c (Proc.devRef .tc main_v54) = (extractStridedSlice S16x16 ![0, 0] (argsK m c).we2 slices_S48x16_S16x16_0_0) :=
  (W6_of_ne m ρ c main_v54 (by decide)).trans (W5_v54 m ρ c)
theorem W6_v55 : W6 m ρ c (Proc.devRef .tc main_v55) = (extractStridedSlice S16x16 ![16, 0] (argsK m c).we2 slices_S48x16_S16x16_16_0) :=
  (W6_of_ne m ρ c main_v55 (by decide)).trans (W5_v55 m ρ c)
theorem W6_v56 : W6 m ρ c (Proc.devRef .tc main_v56) = (extractStridedSlice S16x16 ![32, 0] (argsK m c).we2 slices_S48x16_S16x16_32_0) :=
  (W6_of_ne m ρ c main_v56 (by decide)).trans (W5_v56 m ρ c)
theorem W6_arg10 : W6 m ρ c (Proc.devRef .tc main_arg10) = (argsK m c).be2 :=
  (W6_of_ne m ρ c main_arg10 (by decide)).trans (W5_arg10 m ρ c)
theorem W6_arg11 : W6 m ρ c (Proc.devRef .tc main_arg11) = (argsK m c).wnn1 :=
  (W6_of_ne m ρ c main_arg11 (by decide)).trans (W5_arg11 m ρ c)
theorem W6_arg12 : W6 m ρ c (Proc.devRef .tc main_arg12) = (argsK m c).bnn1 :=
  (W6_of_ne m ρ c main_arg12 (by decide)).trans (W5_arg12 m ρ c)
theorem W6_arg13 : W6 m ρ c (Proc.devRef .tc main_arg13) = (argsK m c).wnn2 :=
  (W6_of_ne m ρ c main_arg13 (by decide)).trans (W5_arg13 m ρ c)
theorem W6_arg14 : W6 m ρ c (Proc.devRef .tc main_arg14) = (argsK m c).bnn2 :=
  (W6_of_ne m ρ c main_arg14 (by decide)).trans (W5_arg14 m ρ c)
theorem W6_arg15 : W6 m ρ c (Proc.devRef .tc main_arg15) = (argsK m c).wen1 :=
  (W6_of_ne m ρ c main_arg15 (by decide)).trans (W5_arg15 m ρ c)
theorem W6_arg16 : W6 m ρ c (Proc.devRef .tc main_arg16) = (argsK m c).ben1 :=
  (W6_of_ne m ρ c main_arg16 (by decide)).trans (W5_arg16 m ρ c)
theorem W6_arg17 : W6 m ρ c (Proc.devRef .tc main_arg17) = (argsK m c).wen2 :=
  (W6_of_ne m ρ c main_arg17 (by decide)).trans (W5_arg17 m ρ c)
theorem W6_arg18 : W6 m ρ c (Proc.devRef .tc main_arg18) = (argsK m c).ben2 :=
  (W6_of_ne m ρ c main_arg18 (by decide)).trans (W5_arg18 m ρ c)

/-! ## After stretch 3 -/

theorem W7_v65 : W7 m ρ c (Proc.devRef .tc main_v65) = (RChain.take (RChain.x2 (argsK m c)) (RChain.src (argsK m c).ei)) :=
  (KOps.o3_v65 (W6 m ρ c)).trans (congrArg₂ (RChain.take (F := Ideal)) (W6_v58 m ρ c) (W6_v1 m ρ c))
theorem W7_v72 : W7 m ρ c (Proc.devRef .tc main_v72) = (RChain.take (RChain.x2 (argsK m c)) (RChain.dst (argsK m c).ei)) :=
  (KOps.o3_v72 (W6 m ρ c)).trans (congrArg₂ (RChain.take (F := Ideal)) (W6_v58 m ρ c) (W6_v3 m ρ c))
theorem W7_v73 : W7 m ρ c (Proc.devRef .tc main_v73) = (shapeCast S1x16 (argsK m c).be2 shapeCasts_S16_S1x16) :=
  (KOps.o3_v73 (W6 m ρ c)).trans (congrArg (fun b => shapeCast S1x16 b shapeCasts_S16_S1x16) (W6_arg10 m ρ c))
theorem W7_v74 : W7 m ρ c (Proc.devRef .tc main_v74) = (shapeCast S1x16 (argsK m c).ben1 shapeCasts_S16_S1x16) :=
  (KOps.o3_v74 (W6 m ρ c)).trans (congrArg (fun b => shapeCast S1x16 b shapeCasts_S16_S1x16) (W6_arg16 m ρ c))
theorem W7_v75 : W7 m ρ c (Proc.devRef .tc main_v75) = (shapeCast S1x3 (argsK m c).ben2 shapeCasts_S3_S1x3) :=
  (KOps.o3_v75 (W6 m ρ c)).trans (congrArg (fun b => shapeCast S1x3 b shapeCasts_S3_S1x3) (W6_arg18 m ρ c))
theorem W7_v3 : W7 m ρ c (Proc.devRef .tc main_v3) = (RChain.dst (argsK m c).ei) :=
  (KOps.c3_v3 (W6 m ρ c)).trans (W6_v3 m ρ c)
theorem W7_v24 : W7 m ρ c (Proc.devRef .tc main_v24) = (RChain.norm (argsK m c).ei) :=
  (KOps.c3_v24 (W6 m ρ c)).trans (W6_v24 m ρ c)
theorem W7_v45 : W7 m ρ c (Proc.devRef .tc main_v45) = (RChain.er1 (argsK m c)) :=
  (KOps.c3_v45 (W6 m ρ c)).trans (W6_v45 m ρ c)
theorem W7_v54 : W7 m ρ c (Proc.devRef .tc main_v54) = (extractStridedSlice S16x16 ![0, 0] (argsK m c).we2 slices_S48x16_S16x16_0_0) :=
  (KOps.c3_v54 (W6 m ρ c)).trans (W6_v54 m ρ c)
theorem W7_v55 : W7 m ρ c (Proc.devRef .tc main_v55) = (extractStridedSlice S16x16 ![16, 0] (argsK m c).we2 slices_S48x16_S16x16_16_0) :=
  (KOps.c3_v55 (W6 m ρ c)).trans (W6_v55 m ρ c)
theorem W7_v56 : W7 m ρ c (Proc.devRef .tc main_v56) = (extractStridedSlice S16x16 ![32, 0] (argsK m c).we2 slices_S48x16_S16x16_32_0) :=
  (KOps.c3_v56 (W6 m ρ c)).trans (W6_v56 m ρ c)
theorem W7_arg11 : W7 m ρ c (Proc.devRef .tc main_arg11) = (argsK m c).wnn1 :=
  (KOps.c3_arg11 (W6 m ρ c)).trans (W6_arg11 m ρ c)
theorem W7_arg12 : W7 m ρ c (Proc.devRef .tc main_arg12) = (argsK m c).bnn1 :=
  (KOps.c3_arg12 (W6 m ρ c)).trans (W6_arg12 m ρ c)
theorem W7_arg13 : W7 m ρ c (Proc.devRef .tc main_arg13) = (argsK m c).wnn2 :=
  (KOps.c3_arg13 (W6 m ρ c)).trans (W6_arg13 m ρ c)
theorem W7_arg14 : W7 m ρ c (Proc.devRef .tc main_arg14) = (argsK m c).bnn2 :=
  (KOps.c3_arg14 (W6 m ρ c)).trans (W6_arg14 m ρ c)
theorem W7_arg15 : W7 m ρ c (Proc.devRef .tc main_arg15) = (argsK m c).wen1 :=
  (KOps.c3_arg15 (W6 m ρ c)).trans (W6_arg15 m ρ c)
theorem W7_arg17 : W7 m ρ c (Proc.devRef .tc main_arg17) = (argsK m c).wen2 :=
  (KOps.c3_arg17 (W6 m ρ c)).trans (W6_arg17 m ρ c)

/-! ## After region 3 -/

theorem W8_v76 : W8 m ρ c (Proc.devRef .tc main_v76) = (RChain.edgeOut (argsK m c)) := by
  refine (W8_arr m ρ c 11).trans ((Reg3.final3 (V7 m ρ) c).trans ?_)
  show Spec.lin (Spec.relu (Spec.lin (Spec.relu (Spec.edge (W7 m ρ c (Proc.devRef .tc main_v65)) (W7 m ρ c (Proc.devRef .tc main_v45)) (W7 m ρ c (Proc.devRef .tc main_v72)) (W7 m ρ c (Proc.devRef .tc main_v54)) (W7 m ρ c (Proc.devRef .tc main_v55)) (W7 m ρ c (Proc.devRef .tc main_v56)) (W7 m ρ c (Proc.devRef .tc main_v73)))) (W7 m ρ c (Proc.devRef .tc main_arg15)) (W7 m ρ c (Proc.devRef .tc main_v74)))) (W7 m ρ c (Proc.devRef .tc main_arg17)) (W7 m ρ c (Proc.devRef .tc main_v75)) = _
  rw [W7_v65, W7_v45, W7_v72, W7_v54, W7_v55, W7_v56, W7_v73, W7_arg15, W7_v74, W7_arg17, W7_v75, reshape_row, reshape_row, reshape_row,
    slice_rows 0 _ slices_S48x16_S16x16_0_0 (by omega), slice_rows 16 _ slices_S48x16_S16x16_16_0 (by omega),
    slice_rows 32 _ slices_S48x16_S16x16_32_0 (by omega)]
  exact (Stage3.stage3_ref _ _ _ _ _ _ _ _ _).symm
theorem W8_v3 : W8 m ρ c (Proc.devRef .tc main_v3) = (RChain.dst (argsK m c).ei) :=
  (W8_of_ne m ρ c main_v3 (by decide)).trans (W7_v3 m ρ c)
theorem W8_v24 : W8 m ρ c (Proc.devRef .tc main_v24) = (RChain.norm (argsK m c).ei) :=
  (W8_of_ne m ρ c main_v24 (by decide)).trans (W7_v24 m ρ c)
theorem W8_v65 : W8 m ρ c (Proc.devRef .tc main_v65) = (RChain.take (RChain.x2 (argsK m c)) (RChain.src (argsK m c).ei)) :=
  ((W8_arr m ρ c 0).trans (((dat3 (V7 m ρ) c).arrAt_in 0 rfl _).trans (A_eq3 (V7 m ρ) c 0))).trans (W7_v65 m ρ c)
theorem W8_arg11 : W8 m ρ c (Proc.devRef .tc main_arg11) = (argsK m c).wnn1 :=
  (W8_of_ne m ρ c main_arg11 (by decide)).trans (W7_arg11 m ρ c)
theorem W8_arg12 : W8 m ρ c (Proc.devRef .tc main_arg12) = (argsK m c).bnn1 :=
  (W8_of_ne m ρ c main_arg12 (by decide)).trans (W7_arg12 m ρ c)
theorem W8_arg13 : W8 m ρ c (Proc.devRef .tc main_arg13) = (argsK m c).wnn2 :=
  (W8_of_ne m ρ c main_arg13 (by decide)).trans (W7_arg13 m ρ c)
theorem W8_arg14 : W8 m ρ c (Proc.devRef .tc main_arg14) = (argsK m c).bnn2 :=
  (W8_of_ne m ρ c main_arg14 (by decide)).trans (W7_arg14 m ρ c)

/-! ## After stretch 4 -/

theorem W9_v84 : W9 m ρ c (Proc.devRef .tc main_v84) = (RChain.agg (argsK m c).ei (RChain.take (RChain.x2 (argsK m c)) (RChain.src (argsK m c).ei))) :=
  (KOps.o4_v84 (W8 m ρ c)).trans (congr (congrArg₂ (RChain.aggP (F := Ideal)) (W8_v3 m ρ c) (W8_v24 m ρ c)) (W8_v65 m ρ c))
theorem W9_v85 : W9 m ρ c (Proc.devRef .tc main_v85) = (shapeCast S1x16 (argsK m c).bnn1 shapeCasts_S16_S1x16) :=
  (KOps.o4_v85 (W8 m ρ c)).trans (congrArg (fun b => shapeCast S1x16 b shapeCasts_S16_S1x16) (W8_arg12 m ρ c))
theorem W9_v86 : W9 m ρ c (Proc.devRef .tc main_v86) = (shapeCast S1x3 (argsK m c).bnn2 shapeCasts_S3_S1x3) :=
  (KOps.o4_v86 (W8 m ρ c)).trans (congrArg (fun b => shapeCast S1x3 b shapeCasts_S3_S1x3) (W8_arg14 m ρ c))
theorem W9_v76 : W9 m ρ c (Proc.devRef .tc main_v76) = (RChain.edgeOut (argsK m c)) :=
  (KOps.c4_v76 (W8 m ρ c)).trans (W8_v76 m ρ c)
theorem W9_arg11 : W9 m ρ c (Proc.devRef .tc main_arg11) = (argsK m c).wnn1 :=
  (KOps.c4_arg11 (W8 m ρ c)).trans (W8_arg11 m ρ c)
theorem W9_arg13 : W9 m ρ c (Proc.devRef .tc main_arg13) = (argsK m c).wnn2 :=
  (KOps.c4_arg13 (W8 m ρ c)).trans (W8_arg13 m ρ c)

/-! ## After region 4 -/

theorem W10_v87 : W10 m ρ c (Proc.devRef .tc main_v87) = (RChain.nodeOut (argsK m c)) := by
  refine (W10_arr m ρ c 5).trans ((Reg4.final4 (V9 m ρ) c).trans ?_)
  show Spec.lin (Spec.relu (Spec.lin (W9 m ρ c (Proc.devRef .tc main_v84)) (W9 m ρ c (Proc.devRef .tc main_arg11)) (W9 m ρ c (Proc.devRef .tc main_v85)))) (W9 m ρ c (Proc.devRef .tc main_arg13)) (W9 m ρ c (Proc.devRef .tc main_v86)) = _
  rw [W9_v84, W9_arg11, W9_v85, W9_arg13, W9_v86, reshape_row, reshape_row]
  exact (Stage4.stage4_ref _ _ _ _ _).symm
theorem W10_v76 : W10 m ρ c (Proc.devRef .tc main_v76) = (RChain.edgeOut (argsK m c)) :=
  (W10_of_ne m ρ c main_v76 (by decide)).trans (W9_v76 m ρ c)

end Cert.Bridge.KWalk

end
-- ==== Proof.RRun.lean ====
/-
  The reference's run, read in pieces.  Its 162 host operations are cut into six consecutive pieces; from any buffer
  contents, each piece leaves in the few buffers that later pieces read one named whole-array value of the contents it
  started from: the edge sources and targets and the first layer's node transform; the edge weights; the first layer's
  edge features and aggregated messages; the second layer's node transform; the edge weights once more; the node and
  edge results.  A buffer a piece does not write keeps its contents through it.  Substituting each piece's values into
  the next gives the two results as the chain's values of the nineteen argument arrays, which no operation writes.
-/
import proofs.«165703_j19224273617422_2_alg».proof.Proof.RefOps
import proofs.«165703_j19224273617422_2_alg».proof.Proof.RChain
import Idealize.ShloMosaic.Lib.StableHlo.Run
import Idealize.ShloMosaic.Lib.Pipeline.Frame

set_option maxRecDepth 8192

noncomputable section

namespace Cert.Bridge.RRun

open Cert.ReferenceIdeal Cert.ReferenceIdeal.Gen
open Idealize.ShloMosaic Idealize.ShloMosaic.TcCoe Idealize.SL.Sem Idealize.ShloMosaic.StableHlo
open Cert.ReferenceIdeal.ValueP Cert.Bridge

variable {F : FTy → Type} [FloatOps F]

/-- The operations split after the first n: running the whole line is running the first n, then the rest. -/
theorem after_split (n : Nat) (l : List (HloOp τ sig (Elt F))) (V : Valuation τ sig (Elt F)) :
    after l V = after (l.drop n) (after (l.take n) V) := by
  rw [← StableHlo.after_append, List.take_append_drop]

/-- What is left of the line after each of the first five pieces. -/
def Q1 : List (HloOp τ sig (Elt F)) := (ops (F := F)).drop 8
def Q2 : List (HloOp τ sig (Elt F)) := (Q1 (F := F)).drop 28
def Q3 : List (HloOp τ sig (Elt F)) := (Q2 (F := F)).drop 36
def Q4 : List (HloOp τ sig (Elt F)) := (Q3 (F := F)).drop 4
def Q5 : List (HloOp τ sig (Elt F)) := (Q4 (F := F)).drop 28
/-- The six consecutive pieces of the line. -/
def P1 : List (HloOp τ sig (Elt F)) := (ops (F := F)).take 8
def P2 : List (HloOp τ sig (Elt F)) := (Q1 (F := F)).take 28
def P3 : List (HloOp τ sig (Elt F)) := (Q2 (F := F)).take 36
def P4 : List (HloOp τ sig (Elt F)) := (Q3 (F := F)).take 4
def P5 : List (HloOp τ sig (Elt F)) := (Q4 (F := F)).take 28

/-- The in-degree of every node to the power -1/2, from the edge targets. -/
def disOf (dstv : (⟨S3200000, .i32⟩ : BufTy).Contents (Elt F)) : (⟨S100000, .f32⟩ : BufTy).Contents (Elt F) :=
  Host.powf (Host.scatterAdd scatter_S100000_S3200000x1_S3200000_n_0_0_1 (broadcastInDim S100000 ![] bcast_S_S100000 (constant S_ .f32 0x00000000#32)) (broadcastInDim S3200000x1 ![0] bcast_S3200000_S3200000x1_0 dstv) (broadcastInDim S3200000 ![] bcast_S_S3200000 (constant S_ .f32 0x3F800000#32))) (broadcastInDim S100000 ![] bcast_S_S100000 (constant S_ .f32 0xBF000000#32))

/-- The weight of every edge, from the edge sources and targets: the product of its endpoints' normalisations. -/
def normOf (srcv dstv : (⟨S3200000, .i32⟩ : BufTy).Contents (Elt F)) : (⟨S3200000, .f32⟩ : BufTy).Contents (Elt F) :=
  mulf (Host.gather gather_S100000_S3200000x1_S3200000_n_0_n_n_0_1_1 (disOf dstv) (RChain.wrapIdx srcv)) (Host.gather gather_S100000_S3200000x1_S3200000_n_0_n_n_0_1_1 (disOf dstv) (RChain.wrapIdx dstv))

theorem norm_eq (ei : (⟨S2x3200000, .i32⟩ : BufTy).Contents (Elt F)) : RChain.norm ei = normOf (RChain.src ei) (RChain.dst ei) := rfl

/-! ## Each piece, from any contents: the buffers later pieces read -/

/-- Piece 1 leaves the edge sources, -/
theorem p1_v1 (W : Valuation τ sig (Elt F)) :
    after (P1 (F := F)) W (Proc.devRef .tc main_v1)
      = RChain.src (W (Proc.devRef .tc main_arg2)) := by
  simp only [P1, ops, List.take_succ_cons, List.take_zero, List.drop_succ_cons, List.drop_zero]
  after_results_simp
  rfl

/-- the edge targets, -/
theorem p1_v3 (W : Valuation τ sig (Elt F)) :
    after (P1 (F := F)) W (Proc.devRef .tc main_v3)
      = RChain.dst (W (Proc.devRef .tc main_arg2)) := by
  simp only [P1, ops, List.take_succ_cons, List.take_zero, List.drop_succ_cons, List.drop_zero]
  after_results_simp
  rfl

/-- and the first layer's node transform. -/
theorem p1_v7 (W : Valuation τ sig (Elt F)) :
    after (P1 (F := F)) W (Proc.devRef .tc main_v7)
      = RChain.lin1 (W (Proc.devRef .tc main_arg0)) (W (Proc.devRef .tc main_arg3)) (W (Proc.devRef .tc main_arg4)) := by
  simp only [P1, ops, List.take_succ_cons, List.take_zero, List.drop_succ_cons, List.drop_zero]
  after_results_simp
  rfl

/-- Piece 2 leaves the edge weights. -/
theorem p2_v28 (W : Valuation τ sig (Elt F)) :
    after (P2 (F := F)) W (Proc.devRef .tc main_v28)
      = normOf (W (Proc.devRef .tc main_v1)) (W (Proc.devRef .tc main_v3)) := by
  simp only [P2, Q1, ops, List.take_succ_cons, List.take_zero, List.drop_succ_cons, List.drop_zero]
  after_results_simp
  rfl

/-- Piece 3 leaves the first layer's edge features -/
theorem p3_v55 (W : Valuation τ sig (Elt F)) :
    after (P3 (F := F)) W (Proc.devRef .tc main_v55)
      = RChain.edge1 (RChain.take (W (Proc.devRef .tc main_v7)) (W (Proc.devRef .tc main_v1))) (W (Proc.devRef .tc main_arg1)) (RChain.take (W (Proc.devRef .tc main_v7)) (W (Proc.devRef .tc main_v3))) (W (Proc.devRef .tc main_arg5)) (W (Proc.devRef .tc main_arg6)) := by
  simp only [P3, Q2, Q1, ops, List.take_succ_cons, List.take_zero, List.drop_succ_cons, List.drop_zero]
  after_results_simp
  rfl

/-- and the first layer's aggregated messages. -/
theorem p3_v54 (W : Valuation τ sig (Elt F)) :
    after (P3 (F := F)) W (Proc.devRef .tc main_v54)
      = RChain.aggP (W (Proc.devRef .tc main_v3)) (W (Proc.devRef .tc main_v28)) (RChain.take (W (Proc.devRef .tc main_v7)) (W (Proc.devRef .tc main_v1))) := by
  simp only [P3, Q2, Q1, ops, List.take_succ_cons, List.take_zero, List.drop_succ_cons, List.drop_zero]
  after_results_simp
  rfl

/-- Piece 4 leaves the second layer's node transform. -/
theorem p4_v59 (W : Valuation τ sig (Elt F)) :
    after (P4 (F := F)) W (Proc.devRef .tc main_v59)
      = RChain.lin2 (W (Proc.devRef .tc main_v54)) (W (Proc.devRef .tc main_arg7)) (W (Proc.devRef .tc main_arg8)) := by
  simp only [P4, Q3, Q2, Q1, ops, List.take_succ_cons, List.take_zero, List.drop_succ_cons, List.drop_zero]
  after_results_simp
  rfl

/-- Piece 5 leaves the edge weights, computed a second time. -/
theorem p5_v80 (W : Valuation τ sig (Elt F)) :
    after (P5 (F := F)) W (Proc.devRef .tc main_v80)
      = normOf (W (Proc.devRef .tc main_v1)) (W (Proc.devRef .tc main_v3)) := by
  simp only [P5, Q4, Q3, Q2, Q1, ops, List.take_succ_cons, List.take_zero, List.drop_succ_cons, List.drop_zero]
  after_results_simp
  rfl

/-- The last piece leaves the node result -/
theorem q5_v116 (W : Valuation τ sig (Elt F)) :
    after (Q5 (F := F)) W (Proc.devRef .tc main_v116)
      = RChain.node2 (RChain.aggP (W (Proc.devRef .tc main_v3)) (W (Proc.devRef .tc main_v80)) (RChain.take (W (Proc.devRef .tc main_v59)) (W (Proc.devRef .tc main_v1)))) (W (Proc.devRef .tc main_arg11)) (W (Proc.devRef .tc main_arg12)) (W (Proc.devRef .tc main_arg13)) (W (Proc.devRef .tc main_arg14)) := by
  simp only [Q5, Q4, Q3, Q2, Q1, ops, List.take_succ_cons, List.take_zero, List.drop_succ_cons, List.drop_zero]
  after_results_simp
  rfl

/-- and the edge result. -/
theorem q5_v125 (W : Valuation τ sig (Elt F)) :
    after (Q5 (F := F)) W (Proc.devRef .tc main_v125)
      = RChain.edge2 (RChain.take (W (Proc.devRef .tc main_v59)) (W (Proc.devRef .tc main_v1))) (W (Proc.devRef .tc main_v55)) (RChain.take (W (Proc.devRef .tc main_v59)) (W (Proc.devRef .tc main_v3))) (W (Proc.devRef .tc main_arg9)) (W (Proc.devRef .tc main_arg10)) (W (Proc.devRef .tc main_arg15)) (W (Proc.devRef .tc main_arg16)) (W (Proc.devRef .tc main_arg17)) (W (Proc.devRef .tc main_arg18)) := by
  simp only [Q5, Q4, Q3, Q2, Q1, ops, List.take_succ_cons, List.take_zero, List.drop_succ_cons, List.drop_zero]
  after_results_simp
  rfl

/-! ## What each piece writes, and so what it keeps -/

/-- The buffers piece 1 writes, in order. -/
def w1 : List (Ref sig .tc) := [main_v0, main_v1, main_v2, main_v3, main_v4, main_v5, main_v6, main_v7]

theorem p1_writes : (P1 (F := F)).Forall fun op => op.writes ⊆ ((w1.map (Proc.devRef (τ := τ) .tc)).toFinset) := by
  simp only [P1, ops, List.take_succ_cons, List.take_zero, List.drop_succ_cons, List.drop_zero, List.Forall,
    nullary_writes, unary_writes, binary_writes, ternary_writes, reshape_writes, nary_writes,
    Finset.singleton_subset_iff, List.mem_toFinset, List.mem_map]
  repeat' apply And.intro
  all_goals exact ⟨_, by decide, rfl⟩

/-- A buffer piece 1 does not write keeps its contents through it. -/
theorem keep1 (W : Valuation τ sig (Elt F)) (b : Ref sig .tc) (hb : b ∉ w1) :
    after (P1 (F := F)) W (Proc.devRef .tc b) = W (Proc.devRef .tc b) :=
  after_of_writes_sub _ W p1_writes hb

/-- The buffers piece 2 writes, in order. -/
def w2 : List (Ref sig .tc) := [main_cst, main_v8, main_cst_0, main_v9, main_v10, main_v11, main_cst_1, main_v12, main_v13, main_c, main_v14, main_v15, main_c_2, main_v16, main_v17, main_v18, main_v19, main_v20, main_c_3, main_v21, main_v22, main_c_4, main_v23, main_v24, main_v25, main_v26, main_v27, main_v28]

theorem p2_writes : (P2 (F := F)).Forall fun op => op.writes ⊆ ((w2.map (Proc.devRef (τ := τ) .tc)).toFinset) := by
  simp only [P2, Q1, ops, List.take_succ_cons, List.take_zero, List.drop_succ_cons, List.drop_zero, List.Forall,
    nullary_writes, unary_writes, binary_writes, ternary_writes, reshape_writes, nary_writes,
    Finset.singleton_subset_iff, List.mem_toFinset, List.mem_map]
  repeat' apply And.intro
  all_goals exact ⟨_, by decide, rfl⟩

/-- A buffer piece 2 does not write keeps its contents through it. -/
theorem keep2 (W : Valuation τ sig (Elt F)) (b : Ref sig .tc) (hb : b ∉ w2) :
    after (P2 (F := F)) W (Proc.devRef .tc b) = W (Proc.devRef .tc b) :=
  after_of_writes_sub _ W p2_writes hb

/-- The buffers piece 3 writes, in order. -/
def w3 : List (Ref sig .tc) := [main_c_5, main_v29, main_v30, main_c_6, main_v31, main_v32, main_v33, main_v34, main_v35, main_c_7, main_v36, main_v37, main_c_8, main_v38, main_v39, main_v40, main_v41, main_v42, main_v43, main_v44, main_v45, main_v46, main_v47, main_v48, main_v49, main_v50, main_cst_9, main_v51, main_v52, main_v53, main_call0_cst, main_call0_v0, main_v54, main_call1_cst, main_call1_v0, main_v55]

theorem p3_writes : (P3 (F := F)).Forall fun op => op.writes ⊆ ((w3.map (Proc.devRef (τ := τ) .tc)).toFinset) := by
  simp only [P3, Q2, Q1, ops, List.take_succ_cons, List.take_zero, List.drop_succ_cons, List.drop_zero, List.Forall,
    nullary_writes, unary_writes, binary_writes, ternary_writes, reshape_writes, nary_writes,
    Finset.singleton_subset_iff, List.mem_toFinset, List.mem_map]
  repeat' apply And.intro
  all_goals exact ⟨_, by decide, rfl⟩

/-- A buffer piece 3 does not write keeps its contents through it. -/
theorem keep3 (W : Valuation τ sig (Elt F)) (b : Ref sig .tc) (hb : b ∉ w3) :
    after (P3 (F := F)) W (Proc.devRef .tc b) = W (Proc.devRef .tc b) :=
  after_of_writes_sub _ W p3_writes hb

/-- The buffers piece 4 writes, in order. -/
def w4 : List (Ref sig .tc) := [main_v56, main_v57, main_v58, main_v59]

theorem p4_writes : (P4 (F := F)).Forall fun op => op.writes ⊆ ((w4.map (Proc.devRef (τ := τ) .tc)).toFinset) := by
  simp only [P4, Q3, Q2, Q1, ops, List.take_succ_cons, List.take_zero, List.drop_succ_cons, List.drop_zero, List.Forall,
    nullary_writes, unary_writes, binary_writes, ternary_writes, reshape_writes, nary_writes,
    Finset.singleton_subset_iff, List.mem_toFinset, List.mem_map]
  repeat' apply And.intro
  all_goals exact ⟨_, by decide, rfl⟩

/-- A buffer piece 4 does not write keeps its contents through it. -/
theorem keep4 (W : Valuation τ sig (Elt F)) (b : Ref sig .tc) (hb : b ∉ w4) :
    after (P4 (F := F)) W (Proc.devRef .tc b) = W (Proc.devRef .tc b) :=
  after_of_writes_sub _ W p4_writes hb

/-- The buffers piece 5 writes, in order. -/
def w5 : List (Ref sig .tc) := [main_cst_10, main_v60, main_cst_11, main_v61, main_v62, main_v63, main_cst_12, main_v64, main_v65, main_c_13, main_v66, main_v67, main_c_14, main_v68, main_v69, main_v70, main_v71, main_v72, main_c_15, main_v73, main_v74, main_c_16, main_v75, main_v76, main_v77, main_v78, main_v79, main_v80]

theorem p5_writes : (P5 (F := F)).Forall fun op => op.writes ⊆ ((w5.map (Proc.devRef (τ := τ) .tc)).toFinset) := by
  simp only [P5, Q4, Q3, Q2, Q1, ops, List.take_succ_cons, List.take_zero, List.drop_succ_cons, List.drop_zero, List.Forall,
    nullary_writes, unary_writes, binary_writes, ternary_writes, reshape_writes, nary_writes,
    Finset.singleton_subset_iff, List.mem_toFinset, List.mem_map]
  repeat' apply And.intro
  all_goals exact ⟨_, by decide, rfl⟩

/-- A buffer piece 5 does not write keeps its contents through it. -/
theorem keep5 (W : Valuation τ sig (Elt F)) (b : Ref sig .tc) (hb : b ∉ w5) :
    after (P5 (F := F)) W (Proc.devRef .tc b) = W (Proc.devRef .tc b) :=
  after_of_writes_sub _ W p5_writes hb

/-- The buffers piece 6 writes, in order. -/
def w6 : List (Ref sig .tc) := [main_c_17, main_v81, main_v82, main_c_18, main_v83, main_v84, main_v85, main_v86, main_v87, main_c_19, main_v88, main_v89, main_c_20, main_v90, main_v91, main_v92, main_v93, main_v94, main_v95, main_v96, main_v97, main_v98, main_v99, main_v100, main_v101, main_v102, main_cst_21, main_v103, main_v104, main_v105, main_call2_cst, main_call2_v0, main_v106, main_call3_cst, main_call3_v0, main_v107, main_v108, main_v109, main_v110, main_v111, main_call4_cst, main_call4_v0, main_v112, main_v113, main_v114, main_v115, main_v116, main_v117, main_v118, main_v119, main_v120, main_call5_cst, main_call5_v0, main_v121, main_v122, main_v123, main_v124, main_v125]

theorem p6_writes : (Q5 (F := F)).Forall fun op => op.writes ⊆ ((w6.map (Proc.devRef (τ := τ) .tc)).toFinset) := by
  simp only [Q5, Q4, Q3, Q2, Q1, ops, List.take_succ_cons, List.take_zero, List.drop_succ_cons, List.drop_zero, List.Forall,
    nullary_writes, unary_writes, binary_writes, ternary_writes, reshape_writes, nary_writes,
    Finset.singleton_subset_iff, List.mem_toFinset, List.mem_map]
  repeat' apply And.intro
  all_goals exact ⟨_, by decide, rfl⟩

/-- A buffer piece 6 does not write keeps its contents through it. -/
theorem keep6 (W : Valuation τ sig (Elt F)) (b : Ref sig .tc) (hb : b ∉ w6) :
    after (Q5 (F := F)) W (Proc.devRef .tc b) = W (Proc.devRef .tc b) :=
  after_of_writes_sub _ W p6_writes hb

/-! ## The whole line: the two results as the chain's values of the arguments -/

/-- The nineteen argument arrays, read off buffer contents. -/
def argsOf (V : Valuation τ sig (Elt F)) : RChain.Args F :=
  { x := V (Proc.devRef .tc main_arg0), ea := V (Proc.devRef .tc main_arg1), ei := V (Proc.devRef .tc main_arg2), wn1 := V (Proc.devRef .tc main_arg3), bn1 := V (Proc.devRef .tc main_arg4), we1 := V (Proc.devRef .tc main_arg5), be1 := V (Proc.devRef .tc main_arg6), wn2 := V (Proc.devRef .tc main_arg7), bn2 := V (Proc.devRef .tc main_arg8), we2 := V (Proc.devRef .tc main_arg9), be2 := V (Proc.devRef .tc main_arg10), wnn1 := V (Proc.devRef .tc main_arg11), bnn1 := V (Proc.devRef .tc main_arg12), wnn2 := V (Proc.devRef .tc main_arg13), bnn2 := V (Proc.devRef .tc main_arg14), wen1 := V (Proc.devRef .tc main_arg15), ben1 := V (Proc.devRef .tc main_arg16), wen2 := V (Proc.devRef .tc main_arg17), ben2 := V (Proc.devRef .tc main_arg18) }

/-- The line is its six pieces run in order. -/
theorem ops_split (V : Valuation τ sig (Elt F)) :
    after (ops (F := F)) V = after (Q5 (F := F)) (after (P5 (F := F)) (after (P4 (F := F)) (after (P3 (F := F)) (after (P2 (F := F)) (after (P1 (F := F)) V))))) :=
  (after_split 8 (ops (F := F)) V).trans ((after_split 28 (Q1 (F := F)) _).trans ((after_split 36 (Q2 (F := F)) _).trans
    ((after_split 4 (Q3 (F := F)) _).trans (after_split 28 (Q4 (F := F)) _))))

/-- After the whole line the two result buffers hold the node result and the edge result of the arguments: each piece's
    value is substituted into the next piece's, and the edge weights, computed twice, are the same function of the
    edge list both times. -/
theorem results (V : Valuation τ sig (Elt F)) :
    after (ops (F := F)) V (Proc.devRef .tc main_v116) = RChain.nodeOut (argsOf V)
    ∧ after (ops (F := F)) V (Proc.devRef .tc main_v125) = RChain.edgeOut (argsOf V) := by
  have s1 : (after (P1 (F := F)) V) (Proc.devRef .tc main_v1) = RChain.src (argsOf V).ei := p1_v1 V
  have d1 : (after (P1 (F := F)) V) (Proc.devRef .tc main_v3) = RChain.dst (argsOf V).ei := p1_v3 V
  have x1 : (after (P1 (F := F)) V) (Proc.devRef .tc main_v7) = RChain.x1 (argsOf V) := p1_v7 V
  have s2 : (after (P2 (F := F)) (after (P1 (F := F)) V)) (Proc.devRef .tc main_v1) = RChain.src (argsOf V).ei := (keep2 (after (P1 (F := F)) V) main_v1 (by decide)).trans s1
  have d2 : (after (P2 (F := F)) (after (P1 (F := F)) V)) (Proc.devRef .tc main_v3) = RChain.dst (argsOf V).ei := (keep2 (after (P1 (F := F)) V) main_v3 (by decide)).trans d1
  have x12 : (after (P2 (F := F)) (after (P1 (F := F)) V)) (Proc.devRef .tc main_v7) = RChain.x1 (argsOf V) := (keep2 (after (P1 (F := F)) V) main_v7 (by decide)).trans x1
  have n2 : (after (P2 (F := F)) (after (P1 (F := F)) V)) (Proc.devRef .tc main_v28) = RChain.norm (argsOf V).ei := by rw [p2_v28, s1, d1]; rfl
  have a2_1 : (after (P2 (F := F)) (after (P1 (F := F)) V)) (Proc.devRef .tc main_arg1) = (argsOf V).ea := (keep2 (after (P1 (F := F)) V) main_arg1 (by decide)).trans (keep1 V main_arg1 (by decide))
  have a2_5 : (after (P2 (F := F)) (after (P1 (F := F)) V)) (Proc.devRef .tc main_arg5) = (argsOf V).we1 := (keep2 (after (P1 (F := F)) V) main_arg5 (by decide)).trans (keep1 V main_arg5 (by decide))
  have a2_6 : (after (P2 (F := F)) (after (P1 (F := F)) V)) (Proc.devRef .tc main_arg6) = (argsOf V).be1 := (keep2 (after (P1 (F := F)) V) main_arg6 (by decide)).trans (keep1 V main_arg6 (by decide))
  have s3 : (after (P3 (F := F)) (after (P2 (F := F)) (after (P1 (F := F)) V))) (Proc.devRef .tc main_v1) = RChain.src (argsOf V).ei := (keep3 (after (P2 (F := F)) (after (P1 (F := F)) V)) main_v1 (by decide)).trans s2
  have d3 : (after (P3 (F := F)) (after (P2 (F := F)) (after (P1 (F := F)) V))) (Proc.devRef .tc main_v3) = RChain.dst (argsOf V).ei := (keep3 (after (P2 (F := F)) (after (P1 (F := F)) V)) main_v3 (by decide)).trans d2
  have e3 : (after (P3 (F := F)) (after (P2 (F := F)) (after (P1 (F := F)) V))) (Proc.devRef .tc main_v55) = RChain.er1 (argsOf V) := by rw [p3_v55, x12, s2, d2, a2_1, a2_5, a2_6]; rfl
  have g3 : (after (P3 (F := F)) (after (P2 (F := F)) (after (P1 (F := F)) V))) (Proc.devRef .tc main_v54) = RChain.agg (argsOf V).ei (RChain.take (RChain.x1 (argsOf V)) (RChain.src (argsOf V).ei)) := by rw [p3_v54, d2, n2, x12, s2]; rfl
  have a3_7 : (after (P3 (F := F)) (after (P2 (F := F)) (after (P1 (F := F)) V))) (Proc.devRef .tc main_arg7) = (argsOf V).wn2 := (keep3 (after (P2 (F := F)) (after (P1 (F := F)) V)) main_arg7 (by decide)).trans ((keep2 (after (P1 (F := F)) V) main_arg7 (by decide)).trans (keep1 V main_arg7 (by decide)))
  have a3_8 : (after (P3 (F := F)) (after (P2 (F := F)) (after (P1 (F := F)) V))) (Proc.devRef .tc main_arg8) = (argsOf V).bn2 := (keep3 (after (P2 (F := F)) (after (P1 (F := F)) V)) main_arg8 (by decide)).trans ((keep2 (after (P1 (F := F)) V) main_arg8 (by decide)).trans (keep1 V main_arg8 (by decide)))
  have s4 : (after (P4 (F := F)) (after (P3 (F := F)) (after (P2 (F := F)) (after (P1 (F := F)) V)))) (Proc.devRef .tc main_v1) = RChain.src (argsOf V).ei := (keep4 (after (P3 (F := F)) (after (P2 (F := F)) (after (P1 (F := F)) V))) main_v1 (by decide)).trans s3
  have d4 : (after (P4 (F := F)) (after (P3 (F := F)) (after (P2 (F := F)) (after (P1 (F := F)) V)))) (Proc.devRef .tc main_v3) = RChain.dst (argsOf V).ei := (keep4 (after (P3 (F := F)) (after (P2 (F := F)) (after (P1 (F := F)) V))) main_v3 (by decide)).trans d3
  have e4 : (after (P4 (F := F)) (after (P3 (F := F)) (after (P2 (F := F)) (after (P1 (F := F)) V)))) (Proc.devRef .tc main_v55) = RChain.er1 (argsOf V) := (keep4 (after (P3 (F := F)) (after (P2 (F := F)) (after (P1 (F := F)) V))) main_v55 (by decide)).trans e3
  have x24 : (after (P4 (F := F)) (after (P3 (F := F)) (after (P2 (F := F)) (after (P1 (F := F)) V)))) (Proc.devRef .tc main_v59) = RChain.x2 (argsOf V) := by rw [p4_v59, g3, a3_7, a3_8]; rfl
  have s5 : (after (P5 (F := F)) (after (P4 (F := F)) (after (P3 (F := F)) (after (P2 (F := F)) (after (P1 (F := F)) V))))) (Proc.devRef .tc main_v1) = RChain.src (argsOf V).ei := (keep5 (after (P4 (F := F)) (after (P3 (F := F)) (after (P2 (F := F)) (after (P1 (F := F)) V)))) main_v1 (by decide)).trans s4
  have d5 : (after (P5 (F := F)) (after (P4 (F := F)) (after (P3 (F := F)) (after (P2 (F := F)) (after (P1 (F := F)) V))))) (Proc.devRef .tc main_v3) = RChain.dst (argsOf V).ei := (keep5 (after (P4 (F := F)) (after (P3 (F := F)) (after (P2 (F := F)) (after (P1 (F := F)) V)))) main_v3 (by decide)).trans d4
  have e5 : (after (P5 (F := F)) (after (P4 (F := F)) (after (P3 (F := F)) (after (P2 (F := F)) (after (P1 (F := F)) V))))) (Proc.devRef .tc main_v55) = RChain.er1 (argsOf V) := (keep5 (after (P4 (F := F)) (after (P3 (F := F)) (after (P2 (F := F)) (after (P1 (F := F)) V)))) main_v55 (by decide)).trans e4
  have x25 : (after (P5 (F := F)) (after (P4 (F := F)) (after (P3 (F := F)) (after (P2 (F := F)) (after (P1 (F := F)) V))))) (Proc.devRef .tc main_v59) = RChain.x2 (argsOf V) := (keep5 (after (P4 (F := F)) (after (P3 (F := F)) (after (P2 (F := F)) (after (P1 (F := F)) V)))) main_v59 (by decide)).trans x24
  have n5 : (after (P5 (F := F)) (after (P4 (F := F)) (after (P3 (F := F)) (after (P2 (F := F)) (after (P1 (F := F)) V))))) (Proc.devRef .tc main_v80) = RChain.norm (argsOf V).ei := by rw [p5_v80, s4, d4]; rfl
  have a5_9 : (after (P5 (F := F)) (after (P4 (F := F)) (after (P3 (F := F)) (after (P2 (F := F)) (after (P1 (F := F)) V))))) (Proc.devRef .tc main_arg9) = (argsOf V).we2 := (keep5 (after (P4 (F := F)) (after (P3 (F := F)) (after (P2 (F := F)) (after (P1 (F := F)) V)))) main_arg9 (by decide)).trans ((keep4 (after (P3 (F := F)) (after (P2 (F := F)) (after (P1 (F := F)) V))) main_arg9 (by decide)).trans ((keep3 (after (P2 (F := F)) (after (P1 (F := F)) V)) main_arg9 (by decide)).trans ((keep2 (after (P1 (F := F)) V) main_arg9 (by decide)).trans (keep1 V main_arg9 (by decide)))))
  have a5_10 : (after (P5 (F := F)) (after (P4 (F := F)) (after (P3 (F := F)) (after (P2 (F := F)) (after (P1 (F := F)) V))))) (Proc.devRef .tc main_arg10) = (argsOf V).be2 := (keep5 (after (P4 (F := F)) (after (P3 (F := F)) (after (P2 (F := F)) (after (P1 (F := F)) V)))) main_arg10 (by decide)).trans ((keep4 (after (P3 (F := F)) (after (P2 (F := F)) (after (P1 (F := F)) V))) main_arg10 (by decide)).trans ((keep3 (after (P2 (F := F)) (after (P1 (F := F)) V)) main_arg10 (by decide)).trans ((keep2 (after (P1 (F := F)) V) main_arg10 (by decide)).trans (keep1 V main_arg10 (by decide)))))
  have a5_11 : (after (P5 (F := F)) (after (P4 (F := F)) (after (P3 (F := F)) (after (P2 (F := F)) (after (P1 (F := F)) V))))) (Proc.devRef .tc main_arg11) = (argsOf V).wnn1 := (keep5 (after (P4 (F := F)) (after (P3 (F := F)) (after (P2 (F := F)) (after (P1 (F := F)) V)))) main_arg11 (by decide)).trans ((keep4 (after (P3 (F := F)) (after (P2 (F := F)) (after (P1 (F := F)) V))) main_arg11 (by decide)).trans ((keep3 (after (P2 (F := F)) (after (P1 (F := F)) V)) main_arg11 (by decide)).trans ((keep2 (after (P1 (F := F)) V) main_arg11 (by decide)).trans (keep1 V main_arg11 (by decide)))))
  have a5_12 : (after (P5 (F := F)) (after (P4 (F := F)) (after (P3 (F := F)) (after (P2 (F := F)) (after (P1 (F := F)) V))))) (Proc.devRef .tc main_arg12) = (argsOf V).bnn1 := (keep5 (after (P4 (F := F)) (after (P3 (F := F)) (after (P2 (F := F)) (after (P1 (F := F)) V)))) main_arg12 (by decide)).trans ((keep4 (after (P3 (F := F)) (after (P2 (F := F)) (after (P1 (F := F)) V))) main_arg12 (by decide)).trans ((keep3 (after (P2 (F := F)) (after (P1 (F := F)) V)) main_arg12 (by decide)).trans ((keep2 (after (P1 (F := F)) V) main_arg12 (by decide)).trans (keep1 V main_arg12 (by decide)))))
  have a5_13 : (after (P5 (F := F)) (after (P4 (F := F)) (after (P3 (F := F)) (after (P2 (F := F)) (after (P1 (F := F)) V))))) (Proc.devRef .tc main_arg13) = (argsOf V).wnn2 := (keep5 (after (P4 (F := F)) (after (P3 (F := F)) (after (P2 (F := F)) (after (P1 (F := F)) V)))) main_arg13 (by decide)).trans ((keep4 (after (P3 (F := F)) (after (P2 (F := F)) (after (P1 (F := F)) V))) main_arg13 (by decide)).trans ((keep3 (after (P2 (F := F)) (after (P1 (F := F)) V)) main_arg13 (by decide)).trans ((keep2 (after (P1 (F := F)) V) main_arg13 (by decide)).trans (keep1 V main_arg13 (by decide)))))
  have a5_14 : (after (P5 (F := F)) (after (P4 (F := F)) (after (P3 (F := F)) (after (P2 (F := F)) (after (P1 (F := F)) V))))) (Proc.devRef .tc main_arg14) = (argsOf V).bnn2 := (keep5 (after (P4 (F := F)) (after (P3 (F := F)) (after (P2 (F := F)) (after (P1 (F := F)) V)))) main_arg14 (by decide)).trans ((keep4 (after (P3 (F := F)) (after (P2 (F := F)) (after (P1 (F := F)) V))) main_arg14 (by decide)).trans ((keep3 (after (P2 (F := F)) (after (P1 (F := F)) V)) main_arg14 (by decide)).trans ((keep2 (after (P1 (F := F)) V) main_arg14 (by decide)).trans (keep1 V main_arg14 (by decide)))))
  have a5_15 : (after (P5 (F := F)) (after (P4 (F := F)) (after (P3 (F := F)) (after (P2 (F := F)) (after (P1 (F := F)) V))))) (Proc.devRef .tc main_arg15) = (argsOf V).wen1 := (keep5 (after (P4 (F := F)) (after (P3 (F := F)) (after (P2 (F := F)) (after (P1 (F := F)) V)))) main_arg15 (by decide)).trans ((keep4 (after (P3 (F := F)) (after (P2 (F := F)) (after (P1 (F := F)) V))) main_arg15 (by decide)).trans ((keep3 (after (P2 (F := F)) (after (P1 (F := F)) V)) main_arg15 (by decide)).trans ((keep2 (after (P1 (F := F)) V) main_arg15 (by decide)).trans (keep1 V main_arg15 (by decide)))))
  have a5_16 : (after (P5 (F := F)) (after (P4 (F := F)) (after (P3 (F := F)) (after (P2 (F := F)) (after (P1 (F := F)) V))))) (Proc.devRef .tc main_arg16) = (argsOf V).ben1 := (keep5 (after (P4 (F := F)) (after (P3 (F := F)) (after (P2 (F := F)) (after (P1 (F := F)) V)))) main_arg16 (by decide)).trans ((keep4 (after (P3 (F := F)) (after (P2 (F := F)) (after (P1 (F := F)) V))) main_arg16 (by decide)).trans ((keep3 (after (P2 (F := F)) (after (P1 (F := F)) V)) main_arg16 (by decide)).trans ((keep2 (after (P1 (F := F)) V) main_arg16 (by decide)).trans (keep1 V main_arg16 (by decide)))))
  have a5_17 : (after (P5 (F := F)) (after (P4 (F := F)) (after (P3 (F := F)) (after (P2 (F := F)) (after (P1 (F := F)) V))))) (Proc.devRef .tc main_arg17) = (argsOf V).wen2 := (keep5 (after (P4 (F := F)) (after (P3 (F := F)) (after (P2 (F := F)) (after (P1 (F := F)) V)))) main_arg17 (by decide)).trans ((keep4 (after (P3 (F := F)) (after (P2 (F := F)) (after (P1 (F := F)) V))) main_arg17 (by decide)).trans ((keep3 (after (P2 (F := F)) (after (P1 (F := F)) V)) main_arg17 (by decide)).trans ((keep2 (after (P1 (F := F)) V) main_arg17 (by decide)).trans (keep1 V main_arg17 (by decide)))))
  have a5_18 : (after (P5 (F := F)) (after (P4 (F := F)) (after (P3 (F := F)) (after (P2 (F := F)) (after (P1 (F := F)) V))))) (Proc.devRef .tc main_arg18) = (argsOf V).ben2 := (keep5 (after (P4 (F := F)) (after (P3 (F := F)) (after (P2 (F := F)) (after (P1 (F := F)) V)))) main_arg18 (by decide)).trans ((keep4 (after (P3 (F := F)) (after (P2 (F := F)) (after (P1 (F := F)) V))) main_arg18 (by decide)).trans ((keep3 (after (P2 (F := F)) (after (P1 (F := F)) V)) main_arg18 (by decide)).trans ((keep2 (after (P1 (F := F)) V) main_arg18 (by decide)).trans (keep1 V main_arg18 (by decide)))))
  refine ⟨?_, ?_⟩
  · rw [ops_split, q5_v116, d5, n5, x25, s5, a5_11, a5_12, a5_13, a5_14]; rfl
  · rw [ops_split, q5_v125, x25, s5, e5, d5, a5_9, a5_10, a5_15, a5_16, a5_17, a5_18]; rfl

/-- No operation of the line writes an argument buffer. -/
theorem arg_kept (V : Valuation τ sig (Elt F)) (b : Ref sig .tc)
    (h1 : b ∉ w1) (h2 : b ∉ w2) (h3 : b ∉ w3) (h4 : b ∉ w4) (h5 : b ∉ w5) (h6 : b ∉ w6) :
    after (ops (F := F)) V (Proc.devRef .tc b) = V (Proc.devRef .tc b) := by
  rw [ops_split, keep6 _ b h6, keep5 _ b h5, keep4 _ b h4, keep3 _ b h3, keep2 _ b h2, keep1 _ b h1]

/-! ## The run -/

/-- The nineteen argument arrays as the launch memory holds them on device c. -/
def argsR (m : (ℓ : Loc nD τ sig) → Buf (Elt Ideal) ℓ) (c : Dev nD) : RChain.Args Ideal :=
  { x := m ((c.tc : Thread nD τ).loc main_arg0), ea := m ((c.tc : Thread nD τ).loc main_arg1), ei := m ((c.tc : Thread nD τ).loc main_arg2), wn1 := m ((c.tc : Thread nD τ).loc main_arg3), bn1 := m ((c.tc : Thread nD τ).loc main_arg4), we1 := m ((c.tc : Thread nD τ).loc main_arg5), be1 := m ((c.tc : Thread nD τ).loc main_arg6), wn2 := m ((c.tc : Thread nD τ).loc main_arg7), bn2 := m ((c.tc : Thread nD τ).loc main_arg8), we2 := m ((c.tc : Thread nD τ).loc main_arg9), be2 := m ((c.tc : Thread nD τ).loc main_arg10), wnn1 := m ((c.tc : Thread nD τ).loc main_arg11), bnn1 := m ((c.tc : Thread nD τ).loc main_arg12), wnn2 := m ((c.tc : Thread nD τ).loc main_arg13), bnn2 := m ((c.tc : Thread nD τ).loc main_arg14), wen1 := m ((c.tc : Thread nD τ).loc main_arg15), ben1 := m ((c.tc : Thread nD τ).loc main_arg16), wen2 := m ((c.tc : Thread nD τ).loc main_arg17), ben2 := m ((c.tc : Thread nD τ).loc main_arg18) }

/-- Every weakly fair execution of the reference terminates with the node result and the edge result at the chain's
    values of the launch contents of the arguments, and the arguments unchanged. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v116) = RChain.nodeOut (argsR m c)
      ∧ r.2.mem ((c.tc : Thread nD τ).loc main_v125) = RChain.edgeOut (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v116).trans (results (launchContents m c)).1,
      (h c main_v125).trans (results (launchContents m c)).2,
      (h c main_arg0).trans (arg_kept (launchContents m c) main_arg0 (by decide) (by decide) (by decide) (by decide) (by decide) (by decide)),
      (h c main_arg1).trans (arg_kept (launchContents m c) main_arg1 (by decide) (by decide) (by decide) (by decide) (by decide) (by decide)),
      (h c main_arg2).trans (arg_kept (launchContents m c) main_arg2 (by decide) (by decide) (by decide) (by decide) (by decide) (by decide)),
      (h c main_arg3).trans (arg_kept (launchContents m c) main_arg3 (by decide) (by decide) (by decide) (by decide) (by decide) (by decide)),
      (h c main_arg4).trans (arg_kept (launchContents m c) main_arg4 (by decide) (by decide) (by decide) (by decide) (by decide) (by decide)),
      (h c main_arg5).trans (arg_kept (launchContents m c) main_arg5 (by decide) (by decide) (by decide) (by decide) (by decide) (by decide)),
      (h c main_arg6).trans (arg_kept (launchContents m c) main_arg6 (by decide) (by decide) (by decide) (by decide) (by decide) (by decide)),
      (h c main_arg7).trans (arg_kept (launchContents m c) main_arg7 (by decide) (by decide) (by decide) (by decide) (by decide) (by decide)),
      (h c main_arg8).trans (arg_kept (launchContents m c) main_arg8 (by decide) (by decide) (by decide) (by decide) (by decide) (by decide)),
      (h c main_arg9).trans (arg_kept (launchContents m c) main_arg9 (by decide) (by decide) (by decide) (by decide) (by decide) (by decide)),
      (h c main_arg10).trans (arg_kept (launchContents m c) main_arg10 (by decide) (by decide) (by decide) (by decide) (by decide) (by decide)),
      (h c main_arg11).trans (arg_kept (launchContents m c) main_arg11 (by decide) (by decide) (by decide) (by decide) (by decide) (by decide)),
      (h c main_arg12).trans (arg_kept (launchContents m c) main_arg12 (by decide) (by decide) (by decide) (by decide) (by decide) (by decide)),
      (h c main_arg13).trans (arg_kept (launchContents m c) main_arg13 (by decide) (by decide) (by decide) (by decide) (by decide) (by decide)),
      (h c main_arg14).trans (arg_kept (launchContents m c) main_arg14 (by decide) (by decide) (by decide) (by decide) (by decide) (by decide)),
      (h c main_arg15).trans (arg_kept (launchContents m c) main_arg15 (by decide) (by decide) (by decide) (by decide) (by decide) (by decide)),
      (h c main_arg16).trans (arg_kept (launchContents m c) main_arg16 (by decide) (by decide) (by decide) (by decide) (by decide) (by decide)),
      (h c main_arg17).trans (arg_kept (launchContents m c) main_arg17 (by decide) (by decide) (by decide) (by decide) (by decide) (by decide)),
      (h c main_arg18).trans (arg_kept (launchContents m c) main_arg18 (by decide) (by decide) (by decide) (by decide) (by decide) (by decide))⟩)
    (run_seq scopedRefs_eq scopedSems_eq defs main (fun _ => ops) main_eq (fun _ => ops_sub) m ρ)

end Cert.Bridge.RRun

end
-- ==== Proof.lean ====
/-
  The claim: the kernel program, its idealization and the reference all run to the end with their argument arrays
  unchanged; the idealization rewrote no operation; and at the ideal values the idealized kernel program and the
  reference, started from memories that agree on the nineteen argument arrays, end with the same node result and the
  same edge result.

  Both programs compute a two-layer graph convolution followed by a node network and an edge network. They share every
  irregular step — the degree normalisation deg^(-1/2) at both endpoints of an edge, the gathers of node features at the
  sources and targets of the edges, the normalised scatter-sum of the messages — as the same host operations applied
  to equal arrays. They differ only in the five dense stages, which the kernel program computes tile by tile over
  row blocks and the reference by whole matrix products: at the ideal values a tile of a product is the product of
  the tile, a bias row added to every row is the same bias row, and the product of the joined matrix [a | e | c] with
  the stacked weights is a·Wa + e·Wb + c·Wc because a finite sum over a joined index range is the sum of the sums over
  its pieces (commutativity and associativity of addition on the extended reals; no finiteness is used).
-/
import proofs.«165703_j19224273617422_2_alg».proof.Defs
import proofs.«165703_j19224273617422_2_alg».proof.Proof.Gen.Kernel
import proofs.«165703_j19224273617422_2_alg».proof.Proof.Gen.Kernel.Frame
import proofs.«165703_j19224273617422_2_alg».proof.Proof.Gen.KernelIdeal
import proofs.«165703_j19224273617422_2_alg».proof.Proof.Gen.KernelIdeal.Frame
import proofs.«165703_j19224273617422_2_alg».proof.Proof.Gen.ReferenceIdeal
import proofs.«165703_j19224273617422_2_alg».proof.Proof.Gen.Pre_finite_inputs
import proofs.«165703_j19224273617422_2_alg».proof.Proof.KRun
import proofs.«165703_j19224273617422_2_alg».proof.Proof.KWalk
import proofs.«165703_j19224273617422_2_alg».proof.Proof.RRun
import Idealize.ShloMosaic.Adequacy
import Idealize.ShloMosaic.Init

noncomputable section

namespace Cert.Proof

open Idealize.ShloMosaic Idealize.SL.Sem Cert.Bridge

/-- Memories that agree on the argument arrays give the two programs the same nineteen arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    RRun.argsR m' c = KWalk.argsK m c := by
  obtain ⟨h0, h1, h2, h3, h4, h5, h6, h7, h8, h9, h10, h11, h12, h13, h14, h15, h16, h17, h18⟩ := h
  unfold RRun.argsR KWalk.argsK
  congr 1

theorem frame_k : Cert.frame_Kernel := fun m ρ _ => Cert.Kernel.Gen.frame m ρ

theorem frame_ki : Cert.frame_KernelIdeal := fun m ρ _ => Cert.KernelIdeal.Gen.frame m ρ

/-- The reference's run with its two results forgotten. -/
theorem frame_ri : Cert.frame_ReferenceIdeal := fun m ρ _ =>
  (θ_run Cert.ReferenceIdeal.defs _ _).mono (fun _ h c => (h c).2.2) (RRun.run_results m ρ)

/-- Both runs end at the reference's chain of values of the kernel program's argument arrays. -/
theorem algebraic : Cert.algebraic_KernelIdeal_ReferenceIdeal := by
  intro m ρ m' ρ' _ hagree
  refine ⟨fun c => RChain.nodeOut (KWalk.argsK m c), fun c => RChain.edgeOut (KWalk.argsK m c), ?_, ?_⟩
  · exact (θ_run Cert.KernelIdeal.defs _ _).mono
      (fun _ h c => ⟨(h c).1.trans (KWalk.W10_v87 m ρ c), (h c).2.1.trans (KWalk.W10_v76 m ρ c), (h c).2.2⟩)
      (KRun.run_results m ρ)
  · exact (θ_run Cert.ReferenceIdeal.defs _ _).mono
      (fun _ h c => ⟨(h c).1.trans (congrArg RChain.nodeOut (args_eq m m' c (hagree c))),
        (h c).2.1.trans (congrArg RChain.edgeOut (args_eq m m' c (hagree c))), (h c).2.2⟩)
      (RRun.run_results m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
